-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64 : Shape := ⟨3, ![8, 256, 64]⟩
abbrev S256x256x128 : Shape := ⟨3, ![256, 256, 128]⟩
abbrev S256x4x3 : Shape := ⟨3, ![256, 4, 3]⟩
abbrev S17x128 : Shape := ⟨2, ![17, 128]⟩
abbrev S1x128 : Shape := ⟨2, ![1, 128]⟩
abbrev S1x64 : Shape := ⟨2, ![1, 64]⟩
abbrev S_ : Shape := ⟨0, ![]⟩

class Facts : Prop where
  bcast_S_S8x256x64 : S_.BroadcastsInDim S8x256x64 (![] : Fin 0 → Fin S8x256x64.rank)
  reducesTo_S8x256x64_S_d0_1_2 : S8x256x64.ReducesTo [0, 1, 2] S_
  h_S_ : 0 < S_.numel
  bcast_S_S256x256x128 : S_.BroadcastsInDim S256x256x128 (![] : Fin 0 → Fin S256x256x128.rank)
  reducesTo_S256x256x128_S_d0_1_2 : S256x256x128.ReducesTo [0, 1, 2] S_
  bcast_S_S256x4x3 : S_.BroadcastsInDim S256x4x3 (![] : Fin 0 → Fin S256x4x3.rank)
  reducesTo_S256x4x3_S_d0_1_2 : S256x4x3.ReducesTo [0, 1, 2] S_
  bcast_S_S17x128 : S_.BroadcastsInDim S17x128 (![] : Fin 0 → Fin S17x128.rank)
  reducesTo_S17x128_S_d0_1 : S17x128.ReducesTo [0, 1] S_
  bcast_S_S1x128 : S_.BroadcastsInDim S1x128 (![] : Fin 0 → Fin S1x128.rank)
  reducesTo_S1x128_S_d0_1 : S1x128.ReducesTo [0, 1] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg7 : FVec F S1x64 .f32) (main_arg8 : FVec F S1x64 .f32) (main_v33 : IVec S_ 1) : IVec S_ 1 :=
  let main_v34 : FVec F S1x64 .f32 := Host.absf main_arg7
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1x64 .f32 := Host.absf main_arg8
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  main_v43

def fn_part1 {F : FTy → Type} [FloatOps F] (main_arg4 : FVec F S1x128 .f32) (main_arg5 : FVec F S1x128 .f32) (main_arg6 : FVec F S1x128 .f32) (main_arg7 : FVec F S1x64 .f32) (main_arg8 : FVec F S1x64 .f32) (main_v13 : IVec S_ 1) (main_v16 : IVec S17x128 1) : IVec S_ 1 :=
  let main_c_5 : IVec S_ 1 := constantI S_ 1 1#1
  let main_v17 : IVec S_ 1 := (fun x v => Host.reduce IntOp.andi x v reducesTo_S17x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg7 main_arg8 main_v33

def fn {F : FTy → Type} [FloatOps F] (main_arg0 : FVec F S8x256x64 .f32) (main_arg1 : FVec F S256x256x128 .f32) (main_arg2 : FVec F S256x4x3 .f32) (main_arg3 : FVec F S17x128 .f32) (main_arg4 : FVec F S1x128 .f32) (main_arg5 : FVec F S1x128 .f32) (main_arg6 : FVec F S1x128 .f32) (main_arg7 : FVec F S1x64 .f32) (main_arg8 : FVec F S1x64 .f32) : IVec S_ 1 :=
  let main_v0 : FVec F S8x256x64 .f32 := Host.absf main_arg0
  let main_cst : FVec F S_ .f32 := constant S_ .f32 0x7F800000#32
  let main_v1 : FVec F S8x256x64 .f32 := broadcastInDim S8x256x64 ![] bcast_S_S8x256x64 main_cst
  let main_v2 : IVec S8x256x64 1 := cmpf .olt main_v0 main_v1
  let main_c : IVec S_ 1 := constantI S_ 1 1#1
  let main_v3 : IVec S_ 1 := (fun x v => Host.reduce IntOp.andi x v reducesTo_S8x256x64_S_d0_1_2 h_S_) main_v2 main_c
  let main_v4 : FVec F S256x256x128 .f32 := Host.absf main_arg1
  let main_cst_0 : FVec F S_ .f32 := constant S_ .f32 0x7F800000#32
  let main_v5 : FVec F S256x256x128 .f32 := broadcastInDim S256x256x128 ![] bcast_S_S256x256x128 main_cst_0
  let main_v6 : IVec S256x256x128 1 := cmpf .olt main_v4 main_v5
  let main_c_1 : IVec S_ 1 := constantI S_ 1 1#1
  let main_v7 : IVec S_ 1 := (fun x v => Host.reduce IntOp.andi x v reducesTo_S256x256x128_S_d0_1_2 h_S_) main_v6 main_c_1
  let main_v8 : IVec S_ 1 := andi main_v3 main_v7
  let main_v9 : FVec F S256x4x3 .f32 := Host.absf main_arg2
  let main_cst_2 : FVec F S_ .f32 := constant S_ .f32 0x7F800000#32
  let main_v10 : FVec F S256x4x3 .f32 := broadcastInDim S256x4x3 ![] bcast_S_S256x4x3 main_cst_2
  let main_v11 : IVec S256x4x3 1 := cmpf .olt main_v9 main_v10
  let main_c_3 : IVec S_ 1 := constantI S_ 1 1#1
  let main_v12 : IVec S_ 1 := (fun x v => Host.reduce IntOp.andi x v reducesTo_S256x4x3_S_d0_1_2 h_S_) main_v11 main_c_3
  let main_v13 : IVec S_ 1 := andi main_v8 main_v12
  let main_v14 : FVec F S17x128 .f32 := Host.absf main_arg3
  let main_cst_4 : FVec F S_ .f32 := constant S_ .f32 0x7F800000#32
  let main_v15 : FVec F S17x128 .f32 := broadcastInDim S17x128 ![] bcast_S_S17x128 main_cst_4
  let main_v16 : IVec S17x128 1 := cmpf .olt main_v14 main_v15
  fn_part1 (F := F) main_arg4 main_arg5 main_arg6 main_arg7 main_arg8 main_v13 main_v16
-- ==== Kernel.lean ====
abbrev S8x256x64 : Shape := ⟨3, ![8, 256, 64]⟩
abbrev S256x256x128 : Shape := ⟨3, ![256, 256, 128]⟩
abbrev S256x4x3 : Shape := ⟨3, ![256, 4, 3]⟩
abbrev S17x128 : Shape := ⟨2, ![17, 128]⟩
abbrev S1x128 : Shape := ⟨2, ![1, 128]⟩
abbrev S1x64 : Shape := ⟨2, ![1, 64]⟩
abbrev S256x1x3 : Shape := ⟨3, ![256, 1, 3]⟩
abbrev S256x3 : Shape := ⟨2, ![256, 3]⟩
abbrev S3x256 : Shape := ⟨2, ![3, 256]⟩
abbrev S2048x64 : Shape := ⟨2, ![2048, 64]⟩
abbrev S16x3 : Shape := ⟨2, ![16, 3]⟩
abbrev S128x64 : Shape := ⟨2, ![128, 64]⟩
abbrev S16x256x128 : Shape := ⟨3, ![16, 256, 128]⟩
abbrev S16x1 : Shape := ⟨2, ![16, 1]⟩
abbrev S1x256 : Shape := ⟨2, ![1, 256]⟩
abbrev S16x256 : Shape := ⟨2, ![16, 256]⟩
abbrev S16x256x1 : Shape := ⟨3, ![16, 256, 1]⟩
abbrev S1x1x128 : Shape := ⟨3, ![1, 1, 128]⟩
abbrev S17x256 : Shape := ⟨2, ![17, 256]⟩
abbrev S256x128 : Shape := ⟨2, ![256, 128]⟩
abbrev S1x256x128 : Shape := ⟨3, ![1, 256, 128]⟩
abbrev S128 : Shape := ⟨1, ![128]⟩
abbrev S128x1 : Shape := ⟨2, ![128, 1]⟩

abbrev nBuf : Space → Nat
  | .hbm => 16
  | .vmem => 17
  | .smem => 0
  | _ => 0

abbrev bufTy : (tb : Table) → Fin (tcTables nBuf tb) → BufTy
  | .hbm, ⟨0, _⟩ => ⟨S8x256x64, .f32⟩
  | .hbm, ⟨1, _⟩ => ⟨S256x256x128, .f32⟩
  | .hbm, ⟨2, _⟩ => ⟨S256x4x3, .f32⟩
  | .hbm, ⟨3, _⟩ => ⟨S17x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x64, .f32⟩
  | .hbm, ⟨8, _⟩ => ⟨S1x64, .f32⟩
  | .hbm, ⟨9, _⟩ => ⟨S256x1x3, .f32⟩
  | .hbm, ⟨10, _⟩ => ⟨S256x3, .f32⟩
  | .hbm, ⟨11, _⟩ => ⟨S3x256, .f32⟩
  | .hbm, ⟨12, _⟩ => ⟨S2048x64, .f32⟩
  | .hbm, ⟨13, _⟩ => ⟨S2048x64, .f32⟩
  | .hbm, ⟨14, _⟩ => ⟨S256x256x128, .f32⟩
  | .hbm, ⟨15, _⟩ => ⟨S8x256x64, .f32⟩
  | .local _ .vmem, ⟨0, _⟩ => ⟨S16x3, .f32⟩
  | .local _ .vmem, ⟨1, _⟩ => ⟨S16x3, .f32⟩
  | .local _ .vmem, ⟨2, _⟩ => ⟨S3x256, .f32⟩
  | .local _ .vmem, ⟨3, _⟩ => ⟨S17x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x64, .f32⟩
  | .local _ .vmem, ⟨8, _⟩ => ⟨S1x64, .f32⟩
  | .local _ .vmem, ⟨9, _⟩ => ⟨S128x64, .f32⟩
  | .local _ .vmem, ⟨10, _⟩ => ⟨S128x64, .f32⟩
  | .local _ .vmem, ⟨11, _⟩ => ⟨S16x256x128, .f32⟩
  | .local _ .vmem, ⟨12, _⟩ => ⟨S16x256x128, .f32⟩
  | .local _ .vmem, ⟨13, _⟩ => ⟨S128x64, .f32⟩
  | .local _ .vmem, ⟨14, _⟩ => ⟨S128x64, .f32⟩
  | .local _ .vmem, ⟨15, _⟩ => ⟨S16x256x128, .f32⟩
  | .local _ .vmem, ⟨16, _⟩ => ⟨S16x256x128, .f32⟩
  | _, _ => ⟨S8x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S17x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S256x4x3_S256x1x3_0_3_0 : S256x4x3.Slices ![0, 3, 0] S256x1x3
  shapeCasts_S256x1x3_S256x3 : S256x1x3.ShapeCasts S256x3
  transposes_S256x3_S3x256_1_0 : S256x3.Transposes [1, 0] S3x256
  shapeCasts_S8x256x64_S2048x64 : S8x256x64.ShapeCasts S2048x64
  inb_S16x3_S16x3_0_0 : ∀ a, (![0, 0] : Fin 2 → Nat) a + S16x3.size a ≤ S16x3.size a
  h_S16x3 : 0 < S16x3.numel
  shapeCasts_S16x3_S16x3 : S16x3.ShapeCasts S16x3
  inb_S3x256_S3x256_0_0 : ∀ a, (![0, 0] : Fin 2 → Nat) a + S3x256.size a ≤ S3x256.size a
  h_S3x256 : 0 < S3x256.numel
  shapeCasts_S3x256_S3x256 : S3x256.ShapeCasts S3x256
  slices_S16x3_o0_0_S16x1 : S16x3.Slices ![0, 0] S16x1
  slices_S3x256_o0_0_S1x256 : S3x256.Slices ![0, 0] S1x256
  broadcasts_S16x1_S16x256 : S16x1.Broadcasts S16x256
  broadcasts_S1x256_S16x256 : S1x256.Broadcasts S16x256
  slices_S16x3_o0_1_S16x1 : S16x3.Slices ![0, 1] S16x1
  slices_S3x256_o1_0_S1x256 : S3x256.Slices ![1, 0] S1x256
  slices_S16x3_o0_2_S16x1 : S16x3.Slices ![0, 2] S16x1
  slices_S3x256_o2_0_S1x256 : S3x256.Slices ![2, 0] S1x256
  inb_S16x256x128_S16x256x128_0_0_0 : ∀ a, (![0, 0, 0] : Fin 3 → Nat) a + S16x256x128.size a ≤ S16x256x128.size a
  h_S16x256x128 : 0 < S16x256x128.numel
  reduces_S16x256x128_S16x256 : S16x256x128.Reduces [2] S16x256
  shapeCasts_S16x256_S16x256x1 : S16x256.ShapeCasts S16x256x1
  broadcasts_S16x256x1_S16x256x128 : S16x256x1.Broadcasts S16x256x128
  inb_S1x128_S1x128_0_0 : ∀ a, (![0, 0] : Fin 2 → Nat) a + S1x128.size a ≤ S1x128.size a
  h_S1x128 : 0 < S1x128.numel
  shapeCasts_S1x128_S1x1x128 : S1x128.ShapeCasts S1x1x128
  broadcasts_S1x1x128_S16x256x128 : S1x1x128.Broadcasts S16x256x128
  inb_S17x128_S17x128_0_0 : ∀ a, (![0, 0] : Fin 2 → Nat) a + S17x128.size a ≤ S17x128.size a
  h_S17x128 : 0 < S17x128.numel
  bitsLt_bf16_f32 : FTy.bits .bf16 < FTy.bits .f32
  slices_S16x256_o0_0_S1x256 : S16x256.Slices ![0, 0] S1x256
  concatenates_S1x256_S1x256_S1x256_S1x256_S1x256_S1x256_S1x256_S1x256_S1x256_S1x256_S1x256_S1x256_S1x256_S1x256_S1x256_S1x256_S1x256_S17x256_d0 : Shape.Concatenates [S1x256, S1x256, S1x256, S1x256, S1x256, S1x256, S1x256, S1x256, S1x256, S1x256, S1x256, S1x256, S1x256, S1x256, S1x256, S1x256, S1x256] S17x256 0
  shapeCasts_S256x128_S1x256x128 : S256x128.ShapeCasts S1x256x128
  slices_S16x256_o1_0_S1x256 : S16x256.Slices ![1, 0] S1x256
  slices_S16x256_o2_0_S1x256 : S16x256.Slices ![2, 0] S1x256
  slices_S16x256_o3_0_S1x256 : S16x256.Slices ![3, 0] S1x256
  slices_S16x256_o4_0_S1x256 : S16x256.Slices ![4, 0] S1x256
  slices_S16x256_o5_0_S1x256 : S16x256.Slices ![5, 0] S1x256
  slices_S16x256_o6_0_S1x256 : S16x256.Slices ![6, 0] S1x256
  slices_S16x256_o7_0_S1x256 : S16x256.Slices ![7, 0] S1x256
  slices_S16x256_o8_0_S1x256 : S16x256.Slices ![8, 0] S1x256
  slices_S16x256_o9_0_S1x256 : S16x256.Slices ![9, 0] S1x256
  slices_S16x256_o10_0_S1x256 : S16x256.Slices ![10, 0] S1x256
  slices_S16x256_o11_0_S1x256 : S16x256.Slices ![11, 0] S1x256
  slices_S16x256_o12_0_S1x256 : S16x256.Slices ![12, 0] S1x256
  slices_S16x256_o13_0_S1x256 : S16x256.Slices ![13, 0] S1x256
  slices_S16x256_o14_0_S1x256 : S16x256.Slices ![14, 0] S1x256
  slices_S16x256_o15_0_S1x256 : S16x256.Slices ![15, 0] S1x256
  concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0 : Shape.Concatenates [S1x256x128, S1x256x128, S1x256x128, S1x256x128, S1x256x128, S1x256x128, S1x256x128, S1x256x128, S1x256x128, S1x256x128, S1x256x128, S1x256x128, S1x256x128, S1x256x128, S1x256x128, S1x256x128] S16x256x128 0
  inb_S128x64_S128x64_0_0 : ∀ a, (![0, 0] : Fin 2 → Nat) a + S128x64.size a ≤ S128x64.size a
  h_S128x64 : 0 < S128x64.numel
  shapeCasts_S128x64_S128x64 : S128x64.ShapeCasts S128x64
  reduces_S128x64_S128 : S128x64.Reduces [1] S128
  shapeCasts_S128_S128x1 : S128.ShapeCasts S128x1
  broadcasts_S128x1_S128x64 : S128x1.Broadcasts S128x64
  inb_S1x64_S1x64_0_0 : ∀ a, (![0, 0] : Fin 2 → Nat) a + S1x64.size a ≤ S1x64.size a
  h_S1x64 : 0 < S1x64.numel
  broadcasts_S1x64_S128x64 : S1x64.Broadcasts S128x64
  shapeCasts_S2048x64_S8x256x64 : S2048x64.ShapeCasts S8x256x64
  dot_S17x256_S17x128_S256x128_0_0_1_1_n_n_wf : DotDims.WF S17x256 S17x128 S256x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x3.size a ≤ S256x3.size a
  hwx0_0 : ∀ i : grid0.Coords, EltTy.bits .f32 = 32 ∨ (Rect.block (s := S256x3) S16x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x256.size a ≤ S3x256.size a
  hwx0_1 : ∀ i : grid0.Coords, EltTy.bits .f32 = 32 ∨ (Rect.block (s := S3x256) S3x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S17x128.size a ≤ S17x128.size a
  hwx0_2 : ∀ i : grid0.Coords, EltTy.bits .f32 = 32 ∨ (Rect.block (s := S17x128) S17x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S2048x64.size a
  hwx0_8 : ∀ i : grid0.Coords, EltTy.bits .f32 = 32 ∨ (Rect.block (s := S2048x64) S128x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x256x128.size a ≤ S256x256x128.size a
  hwx0_9 : ∀ i : grid0.Coords, EltTy.bits .f32 = 32 ∨ (Rect.block (s := S256x256x128) S16x256x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x64.size a ≤ S2048x64.size a
  hwx0_10 : ∀ i : grid0.Coords, EltTy.bits .f32 = 32 ∨ (Rect.block (s := S2048x64) S128x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S16x256x128.size a ≤ S256x256x128.size a
  hwx0_11 : ∀ i : grid0.Coords, EltTy.bits .f32 = 32 ∨ (Rect.block (s := S256x256x128) S16x256x128.size (cc0_transform_11 i) (hinb0_11 i)).WholeWords (EltTy.packing .f32)

variable [Facts₀]

def dot_S17x256_S17x128_S256x128_0_0_1_1_n_n : DotDims S17x256 S17x128 S256x128 where
  lhsContracting := [0]
  rhsContracting := [0]
  lhsNonContracting := [1]
  rhsNonContracting := [1]
  lhsBatch := []
  rhsBatch := []
  wf := dot_S17x256_S17x128_S256x128_0_0_1_1_n_n_wf

abbrev win0_0 : Pipeline.Window sig grid0 :=
  Pipeline.Window.ofSpec (Memref.whole main_v1) S16x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S17x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S128x64.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg1) S16x256x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_0) S128x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_1) S16x256x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8x256x64 : Shape := ⟨3, ![8, 256, 64]⟩
abbrev S256x256x128 : Shape := ⟨3, ![256, 256, 128]⟩
abbrev S256x4x3 : Shape := ⟨3, ![256, 4, 3]⟩
abbrev S17x128 : Shape := ⟨2, ![17, 128]⟩
abbrev S1x128 : Shape := ⟨2, ![1, 128]⟩
abbrev S1x64 : Shape := ⟨2, ![1, 64]⟩
abbrev S1x8 : Shape := ⟨2, ![1, 8]⟩
abbrev S256x1x3 : Shape := ⟨3, ![256, 1, 3]⟩
abbrev S256x3 : Shape := ⟨2, ![256, 3]⟩
abbrev S3x256 : Shape := ⟨2, ![3, 256]⟩
abbrev S8x128 : Shape := ⟨2, ![8, 128]⟩
abbrev S16x3 : Shape := ⟨2, ![16, 3]⟩
abbrev S16x256x128 : Shape := ⟨3, ![16, 256, 128]⟩
abbrev S16x1 : Shape := ⟨2, ![16, 1]⟩
abbrev S1x256 : Shape := ⟨2, ![1, 256]⟩
abbrev S16x256 : Shape := ⟨2, ![16, 256]⟩
abbrev S16x256x1 : Shape := ⟨3, ![16, 256, 1]⟩
abbrev S1x1x8 : Shape := ⟨3, ![1, 1, 8]⟩
abbrev S16x256x8 : Shape := ⟨3, ![16, 256, 8]⟩
abbrev S4096x8 : Shape := ⟨2, ![4096, 8]⟩
abbrev S4096x128 : Shape := ⟨2, ![4096, 128]⟩
abbrev S1x1x128 : Shape := ⟨3, ![1, 1, 128]⟩
abbrev S2048x64 : Shape := ⟨2, ![2048, 64]⟩
abbrev S1024x64 : Shape := ⟨2, ![1024, 64]⟩
abbrev S1024 : Shape := ⟨1, ![1024]⟩
abbrev S1024x1 : Shape := ⟨2, ![1024, 1]⟩

abbrev nBuf : Space → Nat
  | .hbm => 20
  | .vmem => 20
  | .smem => 0
  | _ => 0

abbrev bufTy : (tb : Table) → Fin (tcTables nBuf tb) → BufTy
  | .hbm, ⟨0, _⟩ => ⟨S8x256x64, .f32⟩
  | .hbm, ⟨1, _⟩ => ⟨S256x256x128, .f32⟩
  | .hbm, ⟨2, _⟩ => ⟨S256x4x3, .f32⟩
  | .hbm, ⟨3, _⟩ => ⟨S17x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x64, .f32⟩
  | .hbm, ⟨8, _⟩ => ⟨S1x64, .f32⟩
  | .hbm, ⟨9, _⟩ => ⟨S1x8, .f32⟩
  | .hbm, ⟨10, _⟩ => ⟨S256x1x3, .f32⟩
  | .hbm, ⟨11, _⟩ => ⟨S256x3, .f32⟩
  | .hbm, ⟨12, _⟩ => ⟨S3x256, .f32⟩
  | .hbm, ⟨13, _⟩ => ⟨S8x128, .f32⟩
  | .hbm, ⟨14, _⟩ => ⟨S8x128, .f32⟩
  | .hbm, ⟨15, _⟩ => ⟨S1x128, .f32⟩
  | .hbm, ⟨16, _⟩ => ⟨S256x256x128, .f32⟩
  | .hbm, ⟨17, _⟩ => ⟨S2048x64, .f32⟩
  | .hbm, ⟨18, _⟩ => ⟨S2048x64, .f32⟩
  | .hbm, ⟨19, _⟩ => ⟨S8x256x64, .f32⟩
  | .local _ .vmem, ⟨0, _⟩ => ⟨S16x3, .f32⟩
  | .local _ .vmem, ⟨1, _⟩ => ⟨S16x3, .f32⟩
  | .local _ .vmem, ⟨2, _⟩ => ⟨S3x256, .f32⟩
  | .local _ .vmem, ⟨3, _⟩ => ⟨S8x128, .f32⟩
  | .local _ .vmem, ⟨4, _⟩ => ⟨S8x128, .f32⟩
  | .local _ .vmem, ⟨5, _⟩ => ⟨S1x128, .f32⟩
  | .local _ .vmem, ⟨6, _⟩ => ⟨S1x128, .f32⟩
  | .local _ .vmem, ⟨7, _⟩ => ⟨S1x8, .f32⟩
  | .local _ .vmem, ⟨8, _⟩ => ⟨S1x128, .f32⟩
  | .local _ .vmem, ⟨9, _⟩ => ⟨S1x128, .f32⟩
  | .local _ .vmem, ⟨10, _⟩ => ⟨S16x256x128, .f32⟩
  | .local _ .vmem, ⟨11, _⟩ => ⟨S16x256x128, .f32⟩
  | .local _ .vmem, ⟨12, _⟩ => ⟨S16x256x128, .f32⟩
  | .local _ .vmem, ⟨13, _⟩ => ⟨S16x256x128, .f32⟩
  | .local _ .vmem, ⟨14, _⟩ => ⟨S1024x64, .f32⟩
  | .local _ .vmem, ⟨15, _⟩ => ⟨S1024x64, .f32⟩
  | .local _ .vmem, ⟨16, _⟩ => ⟨S1x64, .f32⟩
  | .local _ .vmem, ⟨17, _⟩ => ⟨S1x64, .f32⟩
  | .local _ .vmem, ⟨18, _⟩ => ⟨S1024x64, .f32⟩
  | .local _ .vmem, ⟨19, _⟩ => ⟨S1024x64, .f32⟩
  | _, _ => ⟨S8x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S16x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S256x4x3_S256x1x3_0_3_0 : S256x4x3.Slices ![0, 3, 0] S256x1x3
  shapeCasts_S256x1x3_S256x3 : S256x1x3.ShapeCasts S256x3
  transposes_S256x3_S3x256_1_0 : S256x3.Transposes [1, 0] S3x256
  slices_S17x128_S8x128_0_0 : S17x128.Slices ![0, 0] S8x128
  slices_S17x128_S8x128_8_0 : S17x128.Slices ![8, 0] S8x128
  slices_S17x128_S1x128_16_0 : S17x128.Slices ![16, 0] S1x128
  inb_S16x3_S16x3_0_0 : ∀ a, (![0, 0] : Fin 2 → Nat) a + S16x3.size a ≤ S16x3.size a
  h_S16x3 : 0 < S16x3.numel
  shapeCasts_S16x3_S16x3 : S16x3.ShapeCasts S16x3
  inb_S3x256_S3x256_0_0 : ∀ a, (![0, 0] : Fin 2 → Nat) a + S3x256.size a ≤ S3x256.size a
  h_S3x256 : 0 < S3x256.numel
  shapeCasts_S3x256_S3x256 : S3x256.ShapeCasts S3x256
  slices_S16x3_o0_0_S16x1 : S16x3.Slices ![0, 0] S16x1
  slices_S3x256_o0_0_S1x256 : S3x256.Slices ![0, 0] S1x256
  broadcasts_S16x1_S16x256 : S16x1.Broadcasts S16x256
  broadcasts_S1x256_S16x256 : S1x256.Broadcasts S16x256
  slices_S16x3_o0_1_S16x1 : S16x3.Slices ![0, 1] S16x1
  slices_S3x256_o1_0_S1x256 : S3x256.Slices ![1, 0] S1x256
  slices_S16x3_o0_2_S16x1 : S16x3.Slices ![0, 2] S16x1
  slices_S3x256_o2_0_S1x256 : S3x256.Slices ![2, 0] S1x256
  shapeCasts_S16x256_S16x256x1 : S16x256.ShapeCasts S16x256x1
  inb_S1x8_S1x8_0_0 : ∀ a, (![0, 0] : Fin 2 → Nat) a + S1x8.size a ≤ S1x8.size a
  h_S1x8 : 0 < S1x8.numel
  shapeCasts_S1x8_S1x1x8 : S1x8.ShapeCasts S1x1x8
  broadcasts_S16x256x1_S16x256x8 : S16x256x1.Broadcasts S16x256x8
  broadcasts_S1x1x8_S16x256x8 : S1x1x8.Broadcasts S16x256x8
  shapeCasts_S16x256x8_S4096x8 : S16x256x8.ShapeCasts S4096x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S4096x128_S16x256x128 : S4096x128.ShapeCasts S16x256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S16x256x1_S16x256x128 : S16x256x1.Broadcasts S16x256x128
  broadcasts_S1x1x128_S16x256x128 : S1x1x128.Broadcasts S16x256x128
  inb_S16x256x128_S16x256x128_0_0_0 : ∀ a, (![0, 0, 0] : Fin 3 → Nat) a + S16x256x128.size a ≤ S16x256x128.size a
  h_S16x256x128 : 0 < S16x256x128.numel
  reduces_S16x256x128_S16x256 : S16x256x128.Reduces [2] S16x256
  shapeCasts_S8x256x64_S2048x64 : S8x256x64.ShapeCasts S2048x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  shapeCasts_S1024_S1024x1 : S1024.ShapeCasts S1024x1
  broadcasts_S1024x1_S1024x64 : S1024x1.Broadcasts S1024x64
  inb_S1x64_S1x64_0_0 : ∀ a, (![0, 0] : Fin 2 → Nat) a + S1x64.size a ≤ S1x64.size a
  h_S1x64 : 0 < S1x64.numel
  broadcasts_S1x64_S1024x64 : S1x64.Broadcasts S1024x64
  shapeCasts_S2048x64_S8x256x64 : S2048x64.ShapeCasts S8x256x64
  dot_S4096x8_S8x128_S4096x128_1_0_0_1_n_n_wf : DotDims.WF S4096x8 S8x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x3.size a ≤ S256x3.size a
  hwx0_0 : ∀ i : grid0.Coords, EltTy.bits .f32 = 32 ∨ (Rect.block (s := S256x3) S16x3.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S3x256.size a ≤ S3x256.size a
  hwx0_1 : ∀ i : grid0.Coords, EltTy.bits .f32 = 32 ∨ (Rect.block (s := S3x256) S3x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x256x128.size a ≤ S256x256x128.size a
  hwx0_9 : ∀ i : grid0.Coords, EltTy.bits .f32 = 32 ∨ (Rect.block (s := S256x256x128) S16x256x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S16x256x128.size a ≤ S256x256x128.size a
  hwx0_10 : ∀ i : grid0.Coords, EltTy.bits .f32 = 32 ∨ (Rect.block (s := S256x256x128) S16x256x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S2048x64.size a
  hwx1_0 : ∀ i : grid1.Coords, EltTy.bits .f32 = 32 ∨ (Rect.block (s := S2048x64) S1024x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S2048x64.size a
  hwx1_3 : ∀ i : grid1.Coords, EltTy.bits .f32 = 32 ∨ (Rect.block (s := S2048x64) S1024x64.size (cc1_transform_3 i) (hinb1_3 i)).WholeWords (EltTy.packing .f32)

variable [Facts₀]

def dot_S4096x8_S8x128_S4096x128_1_0_0_1_n_n : DotDims S4096x8 S8x128 S4096x128 where
  lhsContracting := [1]
  rhsContracting := [0]
  lhsNonContracting := [0]
  rhsNonContracting := [1]
  lhsBatch := []
  rhsBatch := []
  wf := dot_S4096x8_S8x128_S4096x128_1_0_0_1_n_n_wf

abbrev win0_0 : Pipeline.Window sig grid0 :=
  Pipeline.Window.ofSpec (Memref.whole main_v1) S16x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3x256.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_cst) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg1) S16x256x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6) S16x256x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v7) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.KernelRow.lean ====
/-
  One row of the kernel's Fourier projection, read at an index.

  For a row r of the 16-row slab the kernel stacks seventeen [1, 256] rows — row r of each of seventeen [16, 256]
  planes — into a [17, 256] array, and contracts its FIRST axis with the first axis of the [17, 128] weight matrix
  on the matrix unit, into a zero accumulator. At the ideal values the entry (j, z) of that product is the sum over
  the seventeen planes f of plane f at (r, j) times the weight at (f, z): the stack read at (f, j) is plane f at
  (r, j), and the contraction index is the plane's number.
-/
import proofs.«179599_g2000505677692961_pallasbulk_1150_32_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Rows

open Idealize.ShloMosaic Idealize.ShloMosaic.ValueIdx Cert.KernelIdeal Cert.KernelIdeal.Gen

/-- The product's dimension numbers: both operands contract their first axis. -/
abbrev D17 : DotDims S17x256 S17x128 S256x128 := dot_S17x256_S17x128_S256x128_0_0_1_1_n_n

/-- The contraction has one axis of extent seventeen: its index is the plane's number. -/
def contrE : D17.contr.Idx ≃ Fin 17 := contrEquiv1 D17 17 rfl rfl

theorem contrE_symm_val (k : Fin 17) :
    ((contrE.symm k) ⟨0, by have h : D17.contr.rank = 1 := rfl; omega⟩ : ℕ) = k.val :=
  contrEquiv1_symm_val D17 17 rfl rfl k

/-- The stacked operand is read at (plane, column of the slab row). -/
theorem lhsIdx_eq (j : Fin 256) (z : Fin 128) (k : Fin 17) :
    D17.lhsIdx (ix2 j z) (contrE.symm k) = ix2 k j := by
  funext a
  apply Fin.ext
  match a with
  | ⟨0, _⟩ => exact (D17.lhsIdx_val_of_single (cl := 0) rfl (ix2 j z) _).trans (contrE_symm_val k)
  | ⟨1, _⟩ => rfl

/-- The weight matrix is read at (plane, output channel). -/
theorem rhsIdx_eq (j : Fin 256) (z : Fin 128) (k : Fin 17) :
    D17.rhsIdx (ix2 j z) (contrE.symm k) = ix2 k z := by
  funext a
  apply Fin.ext
  match a with
  | ⟨0, _⟩ => exact (D17.rhsIdx_val_of_single (cr := 0) rfl (ix2 j z) _).trans (contrE_symm_val k)
  | ⟨1, _⟩ => rfl

/-- The extent along the stacking axis that a [1, 256] piece contributes: one row. -/
theorem piece_extent :
    (if h : S1x256.rank = S17x256.rank then S1x256.size ((0 : Fin S17x256.rank).cast h.symm) else 0) = 1 := by
  decide

/-- Piece k of a stack of seventeen [1, 256] rows along the first axis, when that piece is row r of a plane p: the
    stack at (k, j) is p at (r, j). The k pieces before it take up k rows. -/
theorem piece_apply (xs : List ((s : Shape) × (s.Idx → EReal)))
    (hc : Shape.Concatenates (xs.map (·.1)) S17x256 0) (hsh : xs.map (·.1) = List.replicate 17 S1x256)
    (k : ℕ) (hk : k < xs.length)
    (p : S16x256.Idx → EReal) (r : ℕ) (hr : r < 16) (hs : S16x256.Slices ![r, 0] S1x256)
    (hxk : xs[k] = ⟨S1x256, extractStridedSlice S1x256 ![r, 0] p hs⟩)
    (hk17 : k < 17) (j : Fin 256) :
    concatenate S17x256 0 xs hc (ix2 (⟨k, hk17⟩ : Fin 17) j) = p (ix2 (⟨r, hr⟩ : Fin 16) j) := by
  have hpre : (((xs.take k).map (·.1)).map fun s => if h : s.rank = S17x256.rank then s.size ((0 : Fin S17x256.rank).cast h.symm) else 0).sum = k := by
    rw [List.map_take, hsh, List.take_replicate, List.map_replicate, List.sum_replicate, piece_extent, smul_eq_mul, mul_one]
    exact Nat.min_eq_left (Nat.le_of_lt hk17)
  refine (concatenate_apply_piece (0 : Fin S17x256.rank) xs hc (ix2 (⟨k, hk17⟩ : Fin 17) j) k hk S1x256 _ hxk rfl k hpre
    (ix2 (0 : Fin 1) j) ?_ ?_).trans ?_
  · intro b hb
    match b with
    | ⟨0, _⟩ => exact absurd rfl hb
    | ⟨1, _⟩ => rfl
  · show k + 0 = k
    rfl
  · refine extractStridedSlice_apply ![r, 0] p hs (ix2 (0 : Fin 1) j) (ix2 (⟨r, hr⟩ : Fin 16) j) ?_
    intro a
    match a with
    | ⟨0, _⟩ => show r = r + 0; rfl
    | ⟨1, _⟩ => show j.val = 0 + j.val; omega

/-- Row r of each of seventeen planes, as the list of [1, 256] pieces the stack is made of. -/
def rowList (p0 p1 p2 p3 p4 p5 p6 p7 p8 p9 p10 p11 p12 p13 p14 p15 p16 : S16x256.Idx → EReal) (r : ℕ) (hs : S16x256.Slices ![r, 0] S1x256) :
    List ((s : Shape) × (s.Idx → EReal)) :=
  [⟨S1x256, extractStridedSlice S1x256 ![r, 0] p0 hs⟩, ⟨S1x256, extractStridedSlice S1x256 ![r, 0] p1 hs⟩, ⟨S1x256, extractStridedSlice S1x256 ![r, 0] p2 hs⟩, ⟨S1x256, extractStridedSlice S1x256 ![r, 0] p3 hs⟩, ⟨S1x256, extractStridedSlice S1x256 ![r, 0] p4 hs⟩, ⟨S1x256, extractStridedSlice S1x256 ![r, 0] p5 hs⟩, ⟨S1x256, extractStridedSlice S1x256 ![r, 0] p6 hs⟩, ⟨S1x256, extractStridedSlice S1x256 ![r, 0] p7 hs⟩, ⟨S1x256, extractStridedSlice S1x256 ![r, 0] p8 hs⟩, ⟨S1x256, extractStridedSlice S1x256 ![r, 0] p9 hs⟩, ⟨S1x256, extractStridedSlice S1x256 ![r, 0] p10 hs⟩, ⟨S1x256, extractStridedSlice S1x256 ![r, 0] p11 hs⟩, ⟨S1x256, extractStridedSlice S1x256 ![r, 0] p12 hs⟩, ⟨S1x256, extractStridedSlice S1x256 ![r, 0] p13 hs⟩, ⟨S1x256, extractStridedSlice S1x256 ![r, 0] p14 hs⟩, ⟨S1x256, extractStridedSlice S1x256 ![r, 0] p15 hs⟩, ⟨S1x256, extractStridedSlice S1x256 ![r, 0] p16 hs⟩]

/-- The seventeen planes as a family, in the order the stack takes them. -/
abbrev fam (p0 p1 p2 p3 p4 p5 p6 p7 p8 p9 p10 p11 p12 p13 p14 p15 p16 : S16x256.Idx → EReal) : Fin 17 → S16x256.Idx → EReal :=
  ![p0, p1, p2, p3, p4, p5, p6, p7, p8, p9, p10, p11, p12, p13, p14, p15, p16]

/-- The stack of row r of seventeen planes, read at (f, j): plane f at (r, j). -/
theorem stack_apply (p0 p1 p2 p3 p4 p5 p6 p7 p8 p9 p10 p11 p12 p13 p14 p15 p16 : S16x256.Idx → EReal) (r : ℕ) (hr : r < 16)
    (hs : S16x256.Slices ![r, 0] S1x256) (hc : Shape.Concatenates [S1x256, S1x256, S1x256, S1x256, S1x256, S1x256, S1x256, S1x256, S1x256, S1x256, S1x256, S1x256, S1x256, S1x256, S1x256, S1x256, S1x256] S17x256 0)
    (f : Fin 17) (j : Fin 256) :
    concatenate S17x256 0 [⟨S1x256, extractStridedSlice S1x256 ![r, 0] p0 hs⟩, ⟨S1x256, extractStridedSlice S1x256 ![r, 0] p1 hs⟩, ⟨S1x256, extractStridedSlice S1x256 ![r, 0] p2 hs⟩, ⟨S1x256, extractStridedSlice S1x256 ![r, 0] p3 hs⟩, ⟨S1x256, extractStridedSlice S1x256 ![r, 0] p4 hs⟩, ⟨S1x256, extractStridedSlice S1x256 ![r, 0] p5 hs⟩, ⟨S1x256, extractStridedSlice S1x256 ![r, 0] p6 hs⟩, ⟨S1x256, extractStridedSlice S1x256 ![r, 0] p7 hs⟩, ⟨S1x256, extractStridedSlice S1x256 ![r, 0] p8 hs⟩, ⟨S1x256, extractStridedSlice S1x256 ![r, 0] p9 hs⟩, ⟨S1x256, extractStridedSlice S1x256 ![r, 0] p10 hs⟩, ⟨S1x256, extractStridedSlice S1x256 ![r, 0] p11 hs⟩, ⟨S1x256, extractStridedSlice S1x256 ![r, 0] p12 hs⟩, ⟨S1x256, extractStridedSlice S1x256 ![r, 0] p13 hs⟩, ⟨S1x256, extractStridedSlice S1x256 ![r, 0] p14 hs⟩, ⟨S1x256, extractStridedSlice S1x256 ![r, 0] p15 hs⟩, ⟨S1x256, extractStridedSlice S1x256 ![r, 0] p16 hs⟩] hc (ix2 f j)
      = fam p0 p1 p2 p3 p4 p5 p6 p7 p8 p9 p10 p11 p12 p13 p14 p15 p16 f (ix2 (⟨r, hr⟩ : Fin 16) j) := by
  obtain ⟨f, hf⟩ := f
  interval_cases f
  · exact piece_apply (rowList p0 p1 p2 p3 p4 p5 p6 p7 p8 p9 p10 p11 p12 p13 p14 p15 p16 r hs) hc rfl 0 (show 0 < 17 by decide) p0 r hr hs rfl (by decide) j
  · exact piece_apply (rowList p0 p1 p2 p3 p4 p5 p6 p7 p8 p9 p10 p11 p12 p13 p14 p15 p16 r hs) hc rfl 1 (show 1 < 17 by decide) p1 r hr hs rfl (by decide) j
  · exact piece_apply (rowList p0 p1 p2 p3 p4 p5 p6 p7 p8 p9 p10 p11 p12 p13 p14 p15 p16 r hs) hc rfl 2 (show 2 < 17 by decide) p2 r hr hs rfl (by decide) j
  · exact piece_apply (rowList p0 p1 p2 p3 p4 p5 p6 p7 p8 p9 p10 p11 p12 p13 p14 p15 p16 r hs) hc rfl 3 (show 3 < 17 by decide) p3 r hr hs rfl (by decide) j
  · exact piece_apply (rowList p0 p1 p2 p3 p4 p5 p6 p7 p8 p9 p10 p11 p12 p13 p14 p15 p16 r hs) hc rfl 4 (show 4 < 17 by decide) p4 r hr hs rfl (by decide) j
  · exact piece_apply (rowList p0 p1 p2 p3 p4 p5 p6 p7 p8 p9 p10 p11 p12 p13 p14 p15 p16 r hs) hc rfl 5 (show 5 < 17 by decide) p5 r hr hs rfl (by decide) j
  · exact piece_apply (rowList p0 p1 p2 p3 p4 p5 p6 p7 p8 p9 p10 p11 p12 p13 p14 p15 p16 r hs) hc rfl 6 (show 6 < 17 by decide) p6 r hr hs rfl (by decide) j
  · exact piece_apply (rowList p0 p1 p2 p3 p4 p5 p6 p7 p8 p9 p10 p11 p12 p13 p14 p15 p16 r hs) hc rfl 7 (show 7 < 17 by decide) p7 r hr hs rfl (by decide) j
  · exact piece_apply (rowList p0 p1 p2 p3 p4 p5 p6 p7 p8 p9 p10 p11 p12 p13 p14 p15 p16 r hs) hc rfl 8 (show 8 < 17 by decide) p8 r hr hs rfl (by decide) j
  · exact piece_apply (rowList p0 p1 p2 p3 p4 p5 p6 p7 p8 p9 p10 p11 p12 p13 p14 p15 p16 r hs) hc rfl 9 (show 9 < 17 by decide) p9 r hr hs rfl (by decide) j
  · exact piece_apply (rowList p0 p1 p2 p3 p4 p5 p6 p7 p8 p9 p10 p11 p12 p13 p14 p15 p16 r hs) hc rfl 10 (show 10 < 17 by decide) p10 r hr hs rfl (by decide) j
  · exact piece_apply (rowList p0 p1 p2 p3 p4 p5 p6 p7 p8 p9 p10 p11 p12 p13 p14 p15 p16 r hs) hc rfl 11 (show 11 < 17 by decide) p11 r hr hs rfl (by decide) j
  · exact piece_apply (rowList p0 p1 p2 p3 p4 p5 p6 p7 p8 p9 p10 p11 p12 p13 p14 p15 p16 r hs) hc rfl 12 (show 12 < 17 by decide) p12 r hr hs rfl (by decide) j
  · exact piece_apply (rowList p0 p1 p2 p3 p4 p5 p6 p7 p8 p9 p10 p11 p12 p13 p14 p15 p16 r hs) hc rfl 13 (show 13 < 17 by decide) p13 r hr hs rfl (by decide) j
  · exact piece_apply (rowList p0 p1 p2 p3 p4 p5 p6 p7 p8 p9 p10 p11 p12 p13 p14 p15 p16 r hs) hc rfl 14 (show 14 < 17 by decide) p14 r hr hs rfl (by decide) j
  · exact piece_apply (rowList p0 p1 p2 p3 p4 p5 p6 p7 p8 p9 p10 p11 p12 p13 p14 p15 p16 r hs) hc rfl 15 (show 15 < 17 by decide) p15 r hr hs rfl (by decide) j
  · exact piece_apply (rowList p0 p1 p2 p3 p4 p5 p6 p7 p8 p9 p10 p11 p12 p13 p14 p15 p16 r hs) hc rfl 16 (show 16 < 17 by decide) p16 r hr hs rfl (by decide) j

/-- One row of the projection at the ideal values: the matrix unit's product of the stack (first axes contracted,
    zero accumulator) with the weights, laid as a [1, 256, 128] piece, is at (0, j, z) the sum over the planes of
    plane f at (r, j) times the weight at (f, z). The narrowing of both operands to bf16 is the identity there. -/
theorem row_apply (p0 p1 p2 p3 p4 p5 p6 p7 p8 p9 p10 p11 p12 p13 p14 p15 p16 : S16x256.Idx → EReal) (w : FVec Ideal S17x128 .bf16) (r : ℕ) (hr : r < 16)
    (hs : S16x256.Slices ![r, 0] S1x256) (hc : Shape.Concatenates [S1x256, S1x256, S1x256, S1x256, S1x256, S1x256, S1x256, S1x256, S1x256, S1x256, S1x256, S1x256, S1x256, S1x256, S1x256, S1x256, S1x256] S17x256 0)
    (hb : FTy.bf16.bits < FTy.f32.bits) (hsc : S256x128.ShapeCasts S1x256x128) (j : Fin 256) (z : Fin 128) :
    shapeCast S1x256x128 (matmul D17 none
        (truncf .bf16 (concatenate S17x256 0 [⟨S1x256, extractStridedSlice S1x256 ![r, 0] p0 hs⟩, ⟨S1x256, extractStridedSlice S1x256 ![r, 0] p1 hs⟩, ⟨S1x256, extractStridedSlice S1x256 ![r, 0] p2 hs⟩, ⟨S1x256, extractStridedSlice S1x256 ![r, 0] p3 hs⟩, ⟨S1x256, extractStridedSlice S1x256 ![r, 0] p4 hs⟩, ⟨S1x256, extractStridedSlice S1x256 ![r, 0] p5 hs⟩, ⟨S1x256, extractStridedSlice S1x256 ![r, 0] p6 hs⟩, ⟨S1x256, extractStridedSlice S1x256 ![r, 0] p7 hs⟩, ⟨S1x256, extractStridedSlice S1x256 ![r, 0] p8 hs⟩, ⟨S1x256, extractStridedSlice S1x256 ![r, 0] p9 hs⟩, ⟨S1x256, extractStridedSlice S1x256 ![r, 0] p10 hs⟩, ⟨S1x256, extractStridedSlice S1x256 ![r, 0] p11 hs⟩, ⟨S1x256, extractStridedSlice S1x256 ![r, 0] p12 hs⟩, ⟨S1x256, extractStridedSlice S1x256 ![r, 0] p13 hs⟩, ⟨S1x256, extractStridedSlice S1x256 ![r, 0] p14 hs⟩, ⟨S1x256, extractStridedSlice S1x256 ![r, 0] p15 hs⟩, ⟨S1x256, extractStridedSlice S1x256 ![r, 0] p16 hs⟩] hc : FVec Ideal S17x256 .f32) hb) w
        (constant S256x128 .f32 0x00000000#32)) hsc (ix3 (0 : Fin 1) j z)
      = ∑ f : Fin 17, fam p0 p1 p2 p3 p4 p5 p6 p7 p8 p9 p10 p11 p12 p13 p14 p15 p16 f (ix2 (⟨r, hr⟩ : Fin 16) j) * w (ix2 f z) := by
  refine (shapeCast_ab_1ab_apply _ hsc (0 : Fin 1) j z).trans ?_
  refine (Ideal.matmul_constant_zero_apply D17 none _ w (ix2 j z)).trans ?_
  rw [← Equiv.sum_comp contrE.symm]
  refine Finset.sum_congr rfl fun f _ => ?_
  rw [lhsIdx_eq, rhsIdx_eq]
  exact congrArg (· * w (ix2 f z)) (stack_apply p0 p1 p2 p3 p4 p5 p6 p7 p8 p9 p10 p11 p12 p13 p14 p15 p16 r hr hs hc f j)

end Cert.KernelIdeal.Rows

end
-- ==== Proof.KernelZ.lean ====
/-
  The kernel's z payload, row by row.

  The slab's projection is assembled from sixteen pieces, one per row of the slab: piece r is the matrix product of
  the stack of row r of the seventeen feature planes with the weights (KernelRow). The stored value is the
  normalised slab plus that assembly. Read at (r, j, z) it is the normalised slab there plus the sum over the
  planes f of plane f at (r, j) times the weight at (f, z).
-/
import proofs.«179599_g2000505677692961_pallasbulk_1150_32_alg».proof.Proof.Gen.KernelIdeal.Skeleton
import proofs.«179599_g2000505677692961_pallasbulk_1150_32_alg».proof.Proof.KernelRow

noncomputable section

open scoped BigOperators

namespace Cert.KernelIdeal.Rows

open Idealize.ShloMosaic Idealize.ShloMosaic.ValueIdx Cert.KernelIdeal Cert.KernelIdeal.Gen

/-- Piece r of the projection: the product of the stack of row r of the planes with the weights, as a
    [1, 256, 128] array. -/
def projRow (p0 p1 p2 p3 p4 p5 p6 p7 p8 p9 p10 p11 p12 p13 p14 p15 p16 : S16x256.Idx → EReal) (w : FVec Ideal S17x128 .bf16) (r : ℕ)
    (hs : S16x256.Slices ![r, 0] S1x256) : S1x256x128.Idx → EReal :=
  shapeCast S1x256x128 (matmul D17 none
      (truncf .bf16 (concatenate S17x256 0 (rowList p0 p1 p2 p3 p4 p5 p6 p7 p8 p9 p10 p11 p12 p13 p14 p15 p16 r hs) concatenates_S1x256_S1x256_S1x256_S1x256_S1x256_S1x256_S1x256_S1x256_S1x256_S1x256_S1x256_S1x256_S1x256_S1x256_S1x256_S1x256_S1x256_S17x256_d0 : FVec Ideal S17x256 .f32) bitsLt_bf16_f32) w
      (constant S256x128 .f32 0x00000000#32)) shapeCasts_S256x128_S1x256x128

theorem projRow_apply (p0 p1 p2 p3 p4 p5 p6 p7 p8 p9 p10 p11 p12 p13 p14 p15 p16 : S16x256.Idx → EReal) (w : FVec Ideal S17x128 .bf16) (r : ℕ) (hr : r < 16)
    (hs : S16x256.Slices ![r, 0] S1x256) (j : Fin 256) (z : Fin 128) :
    projRow p0 p1 p2 p3 p4 p5 p6 p7 p8 p9 p10 p11 p12 p13 p14 p15 p16 w r hs (ix3 (0 : Fin 1) j z)
      = ∑ f : Fin 17, fam p0 p1 p2 p3 p4 p5 p6 p7 p8 p9 p10 p11 p12 p13 p14 p15 p16 f (ix2 (⟨r, hr⟩ : Fin 16) j) * w (ix2 f z) :=
  row_apply p0 p1 p2 p3 p4 p5 p6 p7 p8 p9 p10 p11 p12 p13 p14 p15 p16 w r hr hs concatenates_S1x256_S1x256_S1x256_S1x256_S1x256_S1x256_S1x256_S1x256_S1x256_S1x256_S1x256_S1x256_S1x256_S1x256_S1x256_S1x256_S1x256_S17x256_d0 bitsLt_bf16_f32 shapeCasts_S256x128_S1x256x128 j z

/-- The sixteen pieces, in row order. -/
def projRows (v81 v73 v65 v57 v49 v41 v33 v27 v86 v78 v70 v62 v54 v46 v38 v30 v24 : S16x256.Idx → EReal) (v117 : FVec Ideal S17x128 .bf16) :
    List ((s : Shape) × (s.Idx → EReal)) :=
  [⟨S1x256x128, projRow v81 v73 v65 v57 v49 v41 v33 v27 v86 v78 v70 v62 v54 v46 v38 v30 v24 v117 0 slices_S16x256_o0_0_S1x256⟩, ⟨S1x256x128, projRow v81 v73 v65 v57 v49 v41 v33 v27 v86 v78 v70 v62 v54 v46 v38 v30 v24 v117 1 slices_S16x256_o1_0_S1x256⟩, ⟨S1x256x128, projRow v81 v73 v65 v57 v49 v41 v33 v27 v86 v78 v70 v62 v54 v46 v38 v30 v24 v117 2 slices_S16x256_o2_0_S1x256⟩, ⟨S1x256x128, projRow v81 v73 v65 v57 v49 v41 v33 v27 v86 v78 v70 v62 v54 v46 v38 v30 v24 v117 3 slices_S16x256_o3_0_S1x256⟩, ⟨S1x256x128, projRow v81 v73 v65 v57 v49 v41 v33 v27 v86 v78 v70 v62 v54 v46 v38 v30 v24 v117 4 slices_S16x256_o4_0_S1x256⟩, ⟨S1x256x128, projRow v81 v73 v65 v57 v49 v41 v33 v27 v86 v78 v70 v62 v54 v46 v38 v30 v24 v117 5 slices_S16x256_o5_0_S1x256⟩, ⟨S1x256x128, projRow v81 v73 v65 v57 v49 v41 v33 v27 v86 v78 v70 v62 v54 v46 v38 v30 v24 v117 6 slices_S16x256_o6_0_S1x256⟩, ⟨S1x256x128, projRow v81 v73 v65 v57 v49 v41 v33 v27 v86 v78 v70 v62 v54 v46 v38 v30 v24 v117 7 slices_S16x256_o7_0_S1x256⟩, ⟨S1x256x128, projRow v81 v73 v65 v57 v49 v41 v33 v27 v86 v78 v70 v62 v54 v46 v38 v30 v24 v117 8 slices_S16x256_o8_0_S1x256⟩, ⟨S1x256x128, projRow v81 v73 v65 v57 v49 v41 v33 v27 v86 v78 v70 v62 v54 v46 v38 v30 v24 v117 9 slices_S16x256_o9_0_S1x256⟩, ⟨S1x256x128, projRow v81 v73 v65 v57 v49 v41 v33 v27 v86 v78 v70 v62 v54 v46 v38 v30 v24 v117 10 slices_S16x256_o10_0_S1x256⟩, ⟨S1x256x128, projRow v81 v73 v65 v57 v49 v41 v33 v27 v86 v78 v70 v62 v54 v46 v38 v30 v24 v117 11 slices_S16x256_o11_0_S1x256⟩, ⟨S1x256x128, projRow v81 v73 v65 v57 v49 v41 v33 v27 v86 v78 v70 v62 v54 v46 v38 v30 v24 v117 12 slices_S16x256_o12_0_S1x256⟩, ⟨S1x256x128, projRow v81 v73 v65 v57 v49 v41 v33 v27 v86 v78 v70 v62 v54 v46 v38 v30 v24 v117 13 slices_S16x256_o13_0_S1x256⟩, ⟨S1x256x128, projRow v81 v73 v65 v57 v49 v41 v33 v27 v86 v78 v70 v62 v54 v46 v38 v30 v24 v117 14 slices_S16x256_o14_0_S1x256⟩, ⟨S1x256x128, projRow v81 v73 v65 v57 v49 v41 v33 v27 v86 v78 v70 v62 v54 v46 v38 v30 v24 v117 15 slices_S16x256_o15_0_S1x256⟩]

/-- The payload the kernel stores into the z window is the normalised slab plus the sixteen pieces laid along
    the slab's row axis: the printed payloads unfold to exactly this. -/
theorem zpay_regular (v24 v27 v30 v33 v38 v41 v46 v49 v54 v57 v62 v65 v70 v73 v78 v81 v86 : FVec Ideal S16x256 .f32) (v115 : FVec Ideal S16x256x128 .f32)
    (v117 : FVec Ideal S17x128 .bf16) :
    k0_pay80 v24 v27 v30 v33 v38 v41 v46 v49 v54 v57 v62 v65 v70 v73 v78 v81 v86 v115 v117 (k0_pay22 v117 (k0_pay21 v24 v27 v30 v33 v38 v41 v46 v49 v54 v57 v62 v65 v70 v73 v78 v81 v86)) (k0_pay23 v24 v27 v30 v33 v38 v41 v46 v49 v54 v57 v62 v65 v70 v73 v78 v81 v86 v117) (k0_pay24 v24 v27 v30 v33 v38 v41 v46 v49 v54 v57 v62 v65 v70 v73 v78 v81 v86 v117) (k0_pay37 v24 v30 v38 v46 v54 v117 (k0_pay25 v81) (k0_pay26 v73) (k0_pay27 v65) (k0_pay28 v57) (k0_pay29 v49) (k0_pay30 v41) (k0_pay31 v33) (k0_pay32 v27) (k0_pay33 v86) (k0_pay34 v78) (k0_pay35 v70) (k0_pay36 v62)) (k0_pay38 v24 v27 v30 v33 v38 v41 v46 v49 v54 v57 v62 v65 v70 v73 v78 v81 v86 v117) (k0_pay39 v24 v27 v30 v33 v38 v41 v46 v49 v54 v57 v62 v65 v70 v73 v78 v81 v86 v117) (k0_pay46 v24 v27 v30 v33 v38 v46 v54 v62 v70 v78 v86 v117 (k0_pay40 v81) (k0_pay41 v73) (k0_pay42 v65) (k0_pay43 v57) (k0_pay44 v49) (k0_pay45 v41)) (k0_pay47 v24 v27 v30 v33 v38 v41 v46 v49 v54 v57 v62 v65 v70 v73 v78 v81 v86 v117) (k0_pay48 v24 v27 v30 v33 v38 v41 v46 v49 v54 v57 v62 v65 v70 v73 v78 v81 v86 v117) (k0_pay49 v24 v27 v30 v33 v38 v41 v46 v49 v54 v57 v62 v65 v70 v73 v78 v81 v86 v117) (k0_pay50 v24 v27 v30 v33 v38 v41 v46 v49 v54 v57 v62 v65 v70 v73 v78 v81 v86 v117) (k0_pay67 v24 v117 (k0_pay51 v81) (k0_pay52 v73) (k0_pay53 v65) (k0_pay54 v57) (k0_pay55 v49) (k0_pay56 v41) (k0_pay57 v33) (k0_pay58 v27) (k0_pay59 v86) (k0_pay60 v78) (k0_pay61 v70) (k0_pay62 v62) (k0_pay63 v54) (k0_pay64 v46) (k0_pay65 v38) (k0_pay66 v30)) (k0_pay68 v24 v27 v30 v33 v38 v41 v46 v49 v54 v57 v62 v65 v70 v73 v78 v81 v86 v117) (k0_pay69 v24 v27 v30 v33 v38 v41 v46 v49 v54 v57 v62 v65 v70 v73 v78 v81 v86 v117) (k0_pay70 v81) (k0_pay71 v73) (k0_pay72 v65) (k0_pay73 v57) (k0_pay74 v49) (k0_pay75 v41) (k0_pay76 v33) (k0_pay77 v27) (k0_pay78 v86) (k0_pay79 v78)
      = addf v115 (concatenate S16x256x128 0 (projRows v81 v73 v65 v57 v49 v41 v33 v27 v86 v78 v70 v62 v54 v46 v38 v30 v24 v117) concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0) :=
  rfl

/-- The extent along the row axis that one piece contributes: one row. -/
theorem piece16_extent :
    (if h : S1x256x128.rank = S16x256x128.rank then S1x256x128.size ((0 : Fin S16x256x128.rank).cast h.symm) else 0) = 1 := by
  decide

/-- Piece k of sixteen [1, 256, 128] pieces laid along the first axis, read at (k, j, z): the piece at (0, j, z). -/
theorem piece16_apply (xs : List ((s : Shape) × (s.Idx → EReal)))
    (hc : Shape.Concatenates (xs.map (·.1)) S16x256x128 0) (hsh : xs.map (·.1) = List.replicate 16 S1x256x128)
    (k : ℕ) (hk : k < xs.length) (x : S1x256x128.Idx → EReal) (hxk : xs[k] = ⟨S1x256x128, x⟩)
    (hk16 : k < 16) (j : Fin 256) (z : Fin 128) :
    concatenate S16x256x128 0 xs hc (ix3 (⟨k, hk16⟩ : Fin 16) j z) = x (ix3 (0 : Fin 1) j z) := by
  have hpre : (((xs.take k).map (·.1)).map fun s => if h : s.rank = S16x256x128.rank then s.size ((0 : Fin S16x256x128.rank).cast h.symm) else 0).sum = k := by
    rw [List.map_take, hsh, List.take_replicate, List.map_replicate, List.sum_replicate, piece16_extent, smul_eq_mul, mul_one]
    exact Nat.min_eq_left (Nat.le_of_lt hk16)
  refine concatenate_apply_piece (0 : Fin S16x256x128.rank) xs hc (ix3 (⟨k, hk16⟩ : Fin 16) j z) k hk S1x256x128 x hxk rfl k hpre
    (ix3 (0 : Fin 1) j z) ?_ ?_
  · intro b hb
    match b with
    | ⟨0, _⟩ => exact absurd rfl hb
    | ⟨1, _⟩ => rfl
    | ⟨2, _⟩ => rfl
  · show k + 0 = k
    rfl

/-- The stored z payload at (r, j, z): the normalised slab there plus the sum over the seventeen planes of the
    plane at (r, j) times the weight at (plane, z). -/
theorem zpay_apply (v24 v27 v30 v33 v38 v41 v46 v49 v54 v57 v62 v65 v70 v73 v78 v81 v86 : FVec Ideal S16x256 .f32) (v115 : FVec Ideal S16x256x128 .f32)
    (v117 : FVec Ideal S17x128 .bf16) (r : Fin 16) (j : Fin 256) (z : Fin 128) :
    (k0_pay80 v24 v27 v30 v33 v38 v41 v46 v49 v54 v57 v62 v65 v70 v73 v78 v81 v86 v115 v117 (k0_pay22 v117 (k0_pay21 v24 v27 v30 v33 v38 v41 v46 v49 v54 v57 v62 v65 v70 v73 v78 v81 v86)) (k0_pay23 v24 v27 v30 v33 v38 v41 v46 v49 v54 v57 v62 v65 v70 v73 v78 v81 v86 v117) (k0_pay24 v24 v27 v30 v33 v38 v41 v46 v49 v54 v57 v62 v65 v70 v73 v78 v81 v86 v117) (k0_pay37 v24 v30 v38 v46 v54 v117 (k0_pay25 v81) (k0_pay26 v73) (k0_pay27 v65) (k0_pay28 v57) (k0_pay29 v49) (k0_pay30 v41) (k0_pay31 v33) (k0_pay32 v27) (k0_pay33 v86) (k0_pay34 v78) (k0_pay35 v70) (k0_pay36 v62)) (k0_pay38 v24 v27 v30 v33 v38 v41 v46 v49 v54 v57 v62 v65 v70 v73 v78 v81 v86 v117) (k0_pay39 v24 v27 v30 v33 v38 v41 v46 v49 v54 v57 v62 v65 v70 v73 v78 v81 v86 v117) (k0_pay46 v24 v27 v30 v33 v38 v46 v54 v62 v70 v78 v86 v117 (k0_pay40 v81) (k0_pay41 v73) (k0_pay42 v65) (k0_pay43 v57) (k0_pay44 v49) (k0_pay45 v41)) (k0_pay47 v24 v27 v30 v33 v38 v41 v46 v49 v54 v57 v62 v65 v70 v73 v78 v81 v86 v117) (k0_pay48 v24 v27 v30 v33 v38 v41 v46 v49 v54 v57 v62 v65 v70 v73 v78 v81 v86 v117) (k0_pay49 v24 v27 v30 v33 v38 v41 v46 v49 v54 v57 v62 v65 v70 v73 v78 v81 v86 v117) (k0_pay50 v24 v27 v30 v33 v38 v41 v46 v49 v54 v57 v62 v65 v70 v73 v78 v81 v86 v117) (k0_pay67 v24 v117 (k0_pay51 v81) (k0_pay52 v73) (k0_pay53 v65) (k0_pay54 v57) (k0_pay55 v49) (k0_pay56 v41) (k0_pay57 v33) (k0_pay58 v27) (k0_pay59 v86) (k0_pay60 v78) (k0_pay61 v70) (k0_pay62 v62) (k0_pay63 v54) (k0_pay64 v46) (k0_pay65 v38) (k0_pay66 v30)) (k0_pay68 v24 v27 v30 v33 v38 v41 v46 v49 v54 v57 v62 v65 v70 v73 v78 v81 v86 v117) (k0_pay69 v24 v27 v30 v33 v38 v41 v46 v49 v54 v57 v62 v65 v70 v73 v78 v81 v86 v117) (k0_pay70 v81) (k0_pay71 v73) (k0_pay72 v65) (k0_pay73 v57) (k0_pay74 v49) (k0_pay75 v41) (k0_pay76 v33) (k0_pay77 v27) (k0_pay78 v86) (k0_pay79 v78)) (ix3 r j z)
      = v115 (ix3 r j z) + ∑ f : Fin 17, fam v81 v73 v65 v57 v49 v41 v33 v27 v86 v78 v70 v62 v54 v46 v38 v30 v24 f (ix2 r j) * v117 (ix2 f z) := by
  rw [zpay_regular]
  show v115 (ix3 r j z) + concatenate S16x256x128 0 (projRows v81 v73 v65 v57 v49 v41 v33 v27 v86 v78 v70 v62 v54 v46 v38 v30 v24 v117) concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0 (ix3 r j z) = _
  congr 1
  obtain ⟨r, hr⟩ := r
  interval_cases r
  · exact (piece16_apply (projRows v81 v73 v65 v57 v49 v41 v33 v27 v86 v78 v70 v62 v54 v46 v38 v30 v24 v117) concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0 rfl 0 (show 0 < 16 by decide) _ rfl (by decide) j z).trans
      (projRow_apply v81 v73 v65 v57 v49 v41 v33 v27 v86 v78 v70 v62 v54 v46 v38 v30 v24 v117 0 (by decide) slices_S16x256_o0_0_S1x256 j z)
  · exact (piece16_apply (projRows v81 v73 v65 v57 v49 v41 v33 v27 v86 v78 v70 v62 v54 v46 v38 v30 v24 v117) concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0 rfl 1 (show 1 < 16 by decide) _ rfl (by decide) j z).trans
      (projRow_apply v81 v73 v65 v57 v49 v41 v33 v27 v86 v78 v70 v62 v54 v46 v38 v30 v24 v117 1 (by decide) slices_S16x256_o1_0_S1x256 j z)
  · exact (piece16_apply (projRows v81 v73 v65 v57 v49 v41 v33 v27 v86 v78 v70 v62 v54 v46 v38 v30 v24 v117) concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0 rfl 2 (show 2 < 16 by decide) _ rfl (by decide) j z).trans
      (projRow_apply v81 v73 v65 v57 v49 v41 v33 v27 v86 v78 v70 v62 v54 v46 v38 v30 v24 v117 2 (by decide) slices_S16x256_o2_0_S1x256 j z)
  · exact (piece16_apply (projRows v81 v73 v65 v57 v49 v41 v33 v27 v86 v78 v70 v62 v54 v46 v38 v30 v24 v117) concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0 rfl 3 (show 3 < 16 by decide) _ rfl (by decide) j z).trans
      (projRow_apply v81 v73 v65 v57 v49 v41 v33 v27 v86 v78 v70 v62 v54 v46 v38 v30 v24 v117 3 (by decide) slices_S16x256_o3_0_S1x256 j z)
  · exact (piece16_apply (projRows v81 v73 v65 v57 v49 v41 v33 v27 v86 v78 v70 v62 v54 v46 v38 v30 v24 v117) concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0 rfl 4 (show 4 < 16 by decide) _ rfl (by decide) j z).trans
      (projRow_apply v81 v73 v65 v57 v49 v41 v33 v27 v86 v78 v70 v62 v54 v46 v38 v30 v24 v117 4 (by decide) slices_S16x256_o4_0_S1x256 j z)
  · exact (piece16_apply (projRows v81 v73 v65 v57 v49 v41 v33 v27 v86 v78 v70 v62 v54 v46 v38 v30 v24 v117) concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0 rfl 5 (show 5 < 16 by decide) _ rfl (by decide) j z).trans
      (projRow_apply v81 v73 v65 v57 v49 v41 v33 v27 v86 v78 v70 v62 v54 v46 v38 v30 v24 v117 5 (by decide) slices_S16x256_o5_0_S1x256 j z)
  · exact (piece16_apply (projRows v81 v73 v65 v57 v49 v41 v33 v27 v86 v78 v70 v62 v54 v46 v38 v30 v24 v117) concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0 rfl 6 (show 6 < 16 by decide) _ rfl (by decide) j z).trans
      (projRow_apply v81 v73 v65 v57 v49 v41 v33 v27 v86 v78 v70 v62 v54 v46 v38 v30 v24 v117 6 (by decide) slices_S16x256_o6_0_S1x256 j z)
  · exact (piece16_apply (projRows v81 v73 v65 v57 v49 v41 v33 v27 v86 v78 v70 v62 v54 v46 v38 v30 v24 v117) concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0 rfl 7 (show 7 < 16 by decide) _ rfl (by decide) j z).trans
      (projRow_apply v81 v73 v65 v57 v49 v41 v33 v27 v86 v78 v70 v62 v54 v46 v38 v30 v24 v117 7 (by decide) slices_S16x256_o7_0_S1x256 j z)
  · exact (piece16_apply (projRows v81 v73 v65 v57 v49 v41 v33 v27 v86 v78 v70 v62 v54 v46 v38 v30 v24 v117) concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0 rfl 8 (show 8 < 16 by decide) _ rfl (by decide) j z).trans
      (projRow_apply v81 v73 v65 v57 v49 v41 v33 v27 v86 v78 v70 v62 v54 v46 v38 v30 v24 v117 8 (by decide) slices_S16x256_o8_0_S1x256 j z)
  · exact (piece16_apply (projRows v81 v73 v65 v57 v49 v41 v33 v27 v86 v78 v70 v62 v54 v46 v38 v30 v24 v117) concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0 rfl 9 (show 9 < 16 by decide) _ rfl (by decide) j z).trans
      (projRow_apply v81 v73 v65 v57 v49 v41 v33 v27 v86 v78 v70 v62 v54 v46 v38 v30 v24 v117 9 (by decide) slices_S16x256_o9_0_S1x256 j z)
  · exact (piece16_apply (projRows v81 v73 v65 v57 v49 v41 v33 v27 v86 v78 v70 v62 v54 v46 v38 v30 v24 v117) concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0 rfl 10 (show 10 < 16 by decide) _ rfl (by decide) j z).trans
      (projRow_apply v81 v73 v65 v57 v49 v41 v33 v27 v86 v78 v70 v62 v54 v46 v38 v30 v24 v117 10 (by decide) slices_S16x256_o10_0_S1x256 j z)
  · exact (piece16_apply (projRows v81 v73 v65 v57 v49 v41 v33 v27 v86 v78 v70 v62 v54 v46 v38 v30 v24 v117) concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0 rfl 11 (show 11 < 16 by decide) _ rfl (by decide) j z).trans
      (projRow_apply v81 v73 v65 v57 v49 v41 v33 v27 v86 v78 v70 v62 v54 v46 v38 v30 v24 v117 11 (by decide) slices_S16x256_o11_0_S1x256 j z)
  · exact (piece16_apply (projRows v81 v73 v65 v57 v49 v41 v33 v27 v86 v78 v70 v62 v54 v46 v38 v30 v24 v117) concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0 rfl 12 (show 12 < 16 by decide) _ rfl (by decide) j z).trans
      (projRow_apply v81 v73 v65 v57 v49 v41 v33 v27 v86 v78 v70 v62 v54 v46 v38 v30 v24 v117 12 (by decide) slices_S16x256_o12_0_S1x256 j z)
  · exact (piece16_apply (projRows v81 v73 v65 v57 v49 v41 v33 v27 v86 v78 v70 v62 v54 v46 v38 v30 v24 v117) concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0 rfl 13 (show 13 < 16 by decide) _ rfl (by decide) j z).trans
      (projRow_apply v81 v73 v65 v57 v49 v41 v33 v27 v86 v78 v70 v62 v54 v46 v38 v30 v24 v117 13 (by decide) slices_S16x256_o13_0_S1x256 j z)
  · exact (piece16_apply (projRows v81 v73 v65 v57 v49 v41 v33 v27 v86 v78 v70 v62 v54 v46 v38 v30 v24 v117) concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0 rfl 14 (show 14 < 16 by decide) _ rfl (by decide) j z).trans
      (projRow_apply v81 v73 v65 v57 v49 v41 v33 v27 v86 v78 v70 v62 v54 v46 v38 v30 v24 v117 14 (by decide) slices_S16x256_o14_0_S1x256 j z)
  · exact (piece16_apply (projRows v81 v73 v65 v57 v49 v41 v33 v27 v86 v78 v70 v62 v54 v46 v38 v30 v24 v117) concatenates_S1x256x128_S1x256x128_S1x256x128_S1x256x128_S1x256x128_S1x256x128_S1x256x128_S1x256x128_S1x256x128_S1x256x128_S1x256x128_S1x256x128_S1x256x128_S1x256x128_S1x256x128_S1x256x128_S16x256x128_d0 rfl 15 (show 15 < 16 by decide) _ rfl (by decide) j z).trans
      (projRow_apply v81 v73 v65 v57 v49 v41 v33 v27 v86 v78 v70 v62 v54 v46 v38 v30 v24 v117 15 (by decide) slices_S16x256_o15_0_S1x256 j z)

end Cert.KernelIdeal.Rows

end
-- ==== Proof.LibHalfAngle.lean ====
/-
  Half-angle doubling on the extended reals, and a sum over seventeen indices split as eight, eight and one.

  From the sine and cosine of an angle t, the pair for 2t is (2 s c, 1 - 2 s s): sin 2t = 2 sin t cos t and
  cos 2t = 1 - 2 sin² t. Iterating n times from a REAL angle t gives the sine and cosine of 2ⁿ t — real numbers
  again, so nothing of the extended reals' infinities enters. The chain is stated over arbitrary extended-real
  constants "two" and "one" so that a program's own literals can stand in them; the theorem takes them to be the
  reals 2 and 1.
-/
import Idealize.ShloMosaic.PureOps.Ideal
import Mathlib.Algebra.BigOperators.Fin

noncomputable section

open scoped BigOperators

namespace HalfAngle

/-- One doubling: from (sin t, cos t) to (sin 2t, cos 2t), spelt (two · s) · c and one - (two · s) · s. -/
def step (two one : EReal) (p : EReal × EReal) : EReal × EReal :=
  ((two * p.1) * p.2, one - (two * p.1) * p.1)

/-- n doublings from the pair (s, c). -/
def chain (two one s c : EReal) : ℕ → EReal × EReal
  | 0 => (s, c)
  | n + 1 => step two one (chain two one s c n)

theorem chain_zero (two one s c : EReal) : chain two one s c 0 = (s, c) := rfl

theorem chain_succ (two one s c : EReal) (n : ℕ) :
    chain two one s c (n + 1) = step two one (chain two one s c n) := rfl

/-- On real numbers one doubling is the double-angle formulas. -/
theorem step_real (x : ℝ) :
    step ((2 : ℝ) : EReal) ((1 : ℝ) : EReal) (((Real.sin x : ℝ) : EReal), ((Real.cos x : ℝ) : EReal))
      = (((Real.sin (2 * x) : ℝ) : EReal), ((Real.cos (2 * x) : ℝ) : EReal)) := by
  unfold step
  dsimp only
  simp only [← EReal.coe_mul, ← EReal.coe_sub]
  have hs : 2 * Real.sin x * Real.cos x = Real.sin (2 * x) := (Real.sin_two_mul x).symm
  have hc : 1 - 2 * Real.sin x * Real.sin x = Real.cos (2 * x) := by
    have h1 := Real.sin_sq_add_cos_sq x
    have h2 := Real.cos_two_mul x
    nlinarith
  rw [hs, hc]

/-- n doublings from a real angle t reach the angle 2ⁿ t. -/
theorem chain_real (t : ℝ) (n : ℕ) :
    chain ((2 : ℝ) : EReal) ((1 : ℝ) : EReal) ((Real.sin t : ℝ) : EReal) ((Real.cos t : ℝ) : EReal) n
      = (((Real.sin (2 ^ n * t) : ℝ) : EReal), ((Real.cos (2 ^ n * t) : ℝ) : EReal)) := by
  induction n with
  | zero => simp [chain]
  | succ n ih =>
    rw [chain_succ, ih, step_real]
    have : 2 * (2 ^ n * t) = 2 ^ (n + 1) * t := by ring
    rw [this]

/-- A sum over seventeen indices is the sum over the first eight, plus the sum over the next eight, plus the last. -/
theorem sum_seventeen {M : Type*} [AddCommMonoid M] (g : Fin 17 → M) :
    ∑ f : Fin 17, g f
      = (∑ k : Fin 8, g (Fin.castSucc (Fin.castAdd 8 k)) + ∑ k : Fin 8, g (Fin.castSucc (Fin.natAdd 8 k)))
        + g (Fin.last 16) := by
  rw [Fin.sum_univ_castSucc (n := 16) g]
  congr 1
  exact Fin.sum_univ_add (a := 8) (b := 8) fun i : Fin (8 + 8) => g (Fin.castSucc (n := 16) i)

end HalfAngle

end
-- ==== Proof.LibLayoutRead.lean ====
/-
  Layout operations read at an index written by its coordinates: the shape casts that add a trailing unit axis
  (a row sum kept as a column), the casts between [a, b, c] and [a·b, c] (rows of a slab laid end to end), the
  broadcasts along unit axes, and the source index of a reduction over the last axis. Each is the general
  read-at-an-index lemma of the library with its per-axis side condition discharged once.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.LayoutRead

open Idealize.ShloMosaic Idealize.ShloMosaic.ValueIdx

variable {α : Type}

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a] array cast to [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, b, c] array cast to [m, c] (m = a·b: the rows laid end to end) reads, at (q, k) with q = i·b + j, the
    operand at (i, j, k). -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (q : Fin m)
    (hq : q.val = i.val * b + j.val) :
    shapeCast ⟨2, ![m, c]⟩ x h (ix2 q k) = x (ix3 i j k) :=
  shapeCast_apply x h _ _ (by
    rw [Shape.rowMajor_val_three, Shape.rowMajor_val_two]
    show (i.val * b + j.val) * c + k.val = q.val * c + k.val
    rw [hq])

/-- An [m, c] array cast to [a, b, c] reads, at (i, j, k), the operand at (q, k) with q = i·b + j. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (q : Fin m)
    (hq : q.val = i.val * b + j.val) :
    shapeCast ⟨3, ![a, b, c]⟩ x h (ix3 i j k) = x (ix2 q k) :=
  shapeCast_apply x h _ _ (by
    rw [Shape.rowMajor_val_three, Shape.rowMajor_val_two]
    show q.val * c + k.val = (i.val * b + j.val) * c + k.val
    rw [hq])

/-- A broadcast of an [a, b, 1] array along its unit axis reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) :=
  broadcastTo_apply v h _ _ (by
    intro d
    match d with
    | ⟨0, _⟩ =>
      show i.val = if a = 1 then 0 else i.val
      split
      · omega
      · rfl
    | ⟨1, _⟩ =>
      show j.val = if b = 1 then 0 else j.val
      split
      · omega
      · rfl
    | ⟨2, _⟩ => rfl)

/-- A broadcast of a [1, 1, c] array over the two leading axes reads, at (i, j, k), the operand at (0, 0, k). -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) :=
  broadcastTo_apply v h _ _ (by
    intro d
    match d with
    | ⟨0, _⟩ => rfl
    | ⟨1, _⟩ => rfl
    | ⟨2, _⟩ =>
      show k.val = if c = 1 then 0 else k.val
      split
      · omega
      · rfl)

/-- A broadcast of an [a, 1] column over b columns reads, at (i, j), the operand at (i, 0). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) :=
  broadcastTo_apply v h _ _ (by
    intro d
    match d with
    | ⟨0, _⟩ =>
      show i.val = if a = 1 then 0 else i.val
      split
      · omega
      · rfl
    | ⟨1, _⟩ => rfl)

/-- The source index of a reduction of an [a, b] array over its last axis, over result index i with the summed
    coordinate k: (i, k). -/
theorem lift_ab_last {a b : ℕ} (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- A sum over the last axis of an [a, b] array at the ideal values, read at i: the sum over k of the entries (i, k). -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (lift_ab_last h i k))

end Idealize.ShloMosaic.LayoutRead

end
-- ==== Proof.LibLayerNormRows.lean ====
/-
  Layer normalisation over the last axis of an [a, b] block, as the vector unit spells it, read at an index.

  The block's rows are normalised independently: with μ the row's mean (its sum divided by the literal n) and var the
  mean of the squared deviations, the entry (y, c) becomes ((x − μ) · rsqrt (var + ε)) · g_c + β_c. The spelling below is
  the operation sequence itself — a sum over the last axis kept as a column, a division by a splat, a broadcast back
  along the rows, and so on — with the two literals as bit patterns; `lnRow` is what it computes from row y alone.
  Because the result at (y, c) depends on row y only, blocks of different heights cut from one array give the same
  entries.
-/
import proofs.«179599_g2000505677692961_pallasbulk_1150_32_alg».proof.Proof.LibLayoutRead

noncomputable section

open scoped BigOperators

namespace Idealize.ShloMosaic.LayerNormRows

open Idealize.ShloMosaic Idealize.ShloMosaic.ValueIdx Idealize.ShloMosaic.LayoutRead

variable {a b : ℕ}

/-- One row normalised: from the row's entries, the divisor n and the epsilon (as extended reals), and the affine
    pair at column c. -/
def lnRow (n eps : EReal) (row : Fin b → EReal) (g β : EReal) (c : Fin b) : EReal :=
  ((row c - Ideal.div (∑ k, row k) n)
      * Ideal.rsqrt (Ideal.div (∑ k, (row k - Ideal.div (∑ k, row k) n) * (row k - Ideal.div (∑ k, row k) n)) n + eps))
    * g + β

/-- A row sum kept as a column and divided by a splat of the literal nb. -/
def colMean (v : FVec Ideal ⟨2, ![a, b]⟩ .f32) (nb : BitVec 32)
    (h1 : (⟨2, ![a, b]⟩ : Shape).Reduces [(1 : Fin 2)] ⟨1, ![a]⟩) (hφ : FKind.Formats .f32)
    (hacc : (0x00000000#32 : BitVec 32) = FKind.add.neutral .f32 hφ)
    (h2 : (⟨1, ![a]⟩ : Shape).ShapeCasts ⟨2, ![a, 1]⟩) : FVec Ideal ⟨2, ![a, 1]⟩ .f32 :=
  divf (shapeCast ⟨2, ![a, 1]⟩ (multiReduction .add [(1 : Fin 2)] ⟨1, ![a]⟩ v 0x00000000#32 h1 hφ hacc) h2)
    (broadcast ⟨2, ![a, 1]⟩ (Scalar.ofBits .f32 nb : Ideal .f32))

theorem colMean_apply (v : FVec Ideal ⟨2, ![a, b]⟩ .f32) (nb : BitVec 32)
    (h1 : (⟨2, ![a, b]⟩ : Shape).Reduces [(1 : Fin 2)] ⟨1, ![a]⟩) (hφ : FKind.Formats .f32)
    (hacc : (0x00000000#32 : BitVec 32) = FKind.add.neutral .f32 hφ)
    (h2 : (⟨1, ![a]⟩ : Shape).ShapeCasts ⟨2, ![a, 1]⟩) (y : Fin a) (u : Fin 1) :
    colMean v nb h1 hφ hacc h2 (ix2 y u) = Ideal.div (∑ k : Fin b, v (ix2 y k)) (Ideal.ofBits .f32 nb) := by
  show Ideal.div (shapeCast ⟨2, ![a, 1]⟩ (multiReduction .add [(1 : Fin 2)] ⟨1, ![a]⟩ v 0x00000000#32 h1 hφ hacc) h2 (ix2 y u))
    (Ideal.ofBits .f32 nb) = _
  rw [shapeCast_a_a1_apply, rowSum_apply]

/-- The normalisation as the vector unit spells it: the mean column, the centred block, the variance column, the
    reciprocal square root of variance plus epsilon, the scale by g and the shift by β (both [1, b] rows). -/
def lnBlock (v : FVec Ideal ⟨2, ![a, b]⟩ .f32) (g β : FVec Ideal ⟨2, ![1, b]⟩ .f32) (nb eb : BitVec 32)
    (h1 : (⟨2, ![a, b]⟩ : Shape).Reduces [(1 : Fin 2)] ⟨1, ![a]⟩) (hφ : FKind.Formats .f32)
    (hacc : (0x00000000#32 : BitVec 32) = FKind.add.neutral .f32 hφ)
    (h2 : (⟨1, ![a]⟩ : Shape).ShapeCasts ⟨2, ![a, 1]⟩)
    (h3 : (⟨2, ![a, 1]⟩ : Shape).Broadcasts ⟨2, ![a, b]⟩) (h4 : (⟨2, ![1, b]⟩ : Shape).Broadcasts ⟨2, ![a, b]⟩) :
    FVec Ideal ⟨2, ![a, b]⟩ .f32 :=
  addf
    (mulf
      (mulf (subf v (broadcastTo ⟨2, ![a, b]⟩ (colMean v nb h1 hφ hacc h2) h3))
        (broadcastTo ⟨2, ![a, b]⟩
          (rsqrt (addf
            (colMean (mulf (subf v (broadcastTo ⟨2, ![a, b]⟩ (colMean v nb h1 hφ hacc h2) h3))
                (subf v (broadcastTo ⟨2, ![a, b]⟩ (colMean v nb h1 hφ hacc h2) h3))) nb h1 hφ hacc h2)
            (broadcast ⟨2, ![a, 1]⟩ (Scalar.ofBits .f32 eb : Ideal .f32)))) h3))
      (broadcastTo ⟨2, ![a, b]⟩ g h4))
    (broadcastTo ⟨2, ![a, b]⟩ β h4)

/-- At (y, c) the block's normalisation is the normalisation of row y, with the affine pair at column c. -/
theorem lnBlock_apply (v : FVec Ideal ⟨2, ![a, b]⟩ .f32) (g β : FVec Ideal ⟨2, ![1, b]⟩ .f32) (nb eb : BitVec 32)
    (h1 : (⟨2, ![a, b]⟩ : Shape).Reduces [(1 : Fin 2)] ⟨1, ![a]⟩) (hφ : FKind.Formats .f32)
    (hacc : (0x00000000#32 : BitVec 32) = FKind.add.neutral .f32 hφ)
    (h2 : (⟨1, ![a]⟩ : Shape).ShapeCasts ⟨2, ![a, 1]⟩)
    (h3 : (⟨2, ![a, 1]⟩ : Shape).Broadcasts ⟨2, ![a, b]⟩) (h4 : (⟨2, ![1, b]⟩ : Shape).Broadcasts ⟨2, ![a, b]⟩)
    (y : Fin a) (c : Fin b) :
    lnBlock v g β nb eb h1 hφ hacc h2 h3 h4 (ix2 y c)
      = lnRow (Ideal.ofBits .f32 nb) (Ideal.ofBits .f32 eb) (fun k => v (ix2 y k)) (g (ix2 (0 : Fin 1) c))
          (β (ix2 (0 : Fin 1) c)) c := by
  have hμ : ∀ k : Fin b, (subf v (broadcastTo ⟨2, ![a, b]⟩ (colMean v nb h1 hφ hacc h2) h3)) (ix2 y k)
      = v (ix2 y k) - Ideal.div (∑ k : Fin b, v (ix2 y k)) (Ideal.ofBits .f32 nb) := by
    intro k
    show v (ix2 y k) - broadcastTo ⟨2, ![a, b]⟩ (colMean v nb h1 hφ hacc h2) h3 (ix2 y k) = _
    rw [broadcastTo_a1_ab_apply, colMean_apply]
  show ((subf v (broadcastTo ⟨2, ![a, b]⟩ (colMean v nb h1 hφ hacc h2) h3)) (ix2 y c)
        * broadcastTo ⟨2, ![a, b]⟩
            (rsqrt (addf
              (colMean (mulf (subf v (broadcastTo ⟨2, ![a, b]⟩ (colMean v nb h1 hφ hacc h2) h3))
                  (subf v (broadcastTo ⟨2, ![a, b]⟩ (colMean v nb h1 hφ hacc h2) h3))) nb h1 hφ hacc h2)
              (broadcast ⟨2, ![a, 1]⟩ (Scalar.ofBits .f32 eb : Ideal .f32)))) h3 (ix2 y c))
      * broadcastTo ⟨2, ![a, b]⟩ g h4 (ix2 y c) + broadcastTo ⟨2, ![a, b]⟩ β h4 (ix2 y c) = _
  rw [hμ c, broadcastTo_a1_ab_apply, broadcastTo_1b_ab_apply, broadcastTo_1b_ab_apply]
  show (_ * Ideal.rsqrt (colMean (mulf (subf v (broadcastTo ⟨2, ![a, b]⟩ (colMean v nb h1 hφ hacc h2) h3))
                  (subf v (broadcastTo ⟨2, ![a, b]⟩ (colMean v nb h1 hφ hacc h2) h3))) nb h1 hφ hacc h2 (ix2 y (0 : Fin 1))
              + Ideal.ofBits .f32 eb)) * _ + _ = _
  rw [colMean_apply]
  unfold lnRow
  congr 3
  congr 2
  congr 1
  refine Finset.sum_congr rfl fun k _ => ?_
  show (subf v (broadcastTo ⟨2, ![a, b]⟩ (colMean v nb h1 hφ hacc h2) h3)) (ix2 y k)
      * (subf v (broadcastTo ⟨2, ![a, b]⟩ (colMean v nb h1 hφ hacc h2) h3)) (ix2 y k) = _
  rw [hμ k]

end Idealize.ShloMosaic.LayerNormRows

end
-- ==== Proof.KernelBlock.lean ====
/-
  What the kernel's body stores, per grid point, as functions of the point's input blocks, read at an index.

  z slab (16 rows): at (r, j, z) the normalised slab (closed here: `lnz`, the slab's layer normalisation scaled by
  gz) plus the two biases, plus the seventeen-feature projection. With d the distance at (r, j), the sine and cosine
  planes are the half-angle doubling chain started at sin (d·2⁻⁷), cos (d·2⁻⁷): plane "sin d/2ᵏ" is the chain's
  sine after 7 − k doublings. The seventeen features are the eight sines (k = 0 … 7), the eight cosines, and d.

  m slab (128 rows): the row-wise layer normalisation of the block, scaled by gm and shifted by bm.
-/
import proofs.«179599_g2000505677692961_pallasbulk_1150_32_alg».proof.Proof.Gen.KernelIdeal.Skeleton
import proofs.«179599_g2000505677692961_pallasbulk_1150_32_alg».proof.Proof.KernelZ
import proofs.«179599_g2000505677692961_pallasbulk_1150_32_alg».proof.Proof.LibHalfAngle
import proofs.«179599_g2000505677692961_pallasbulk_1150_32_alg».proof.Proof.LibLayerNormRows

noncomputable section

open scoped BigOperators

namespace Cert.KernelIdeal.Block

open Idealize.ShloMosaic Idealize.ShloMosaic.ValueIdx Idealize.ShloMosaic.LayoutRead
  Idealize.ShloMosaic.LayerNormRows Cert.KernelIdeal Cert.KernelIdeal.Gen Cert.KernelIdeal.Rows HalfAngle

/-- The z slab's layer normalisation over the channel axis, scaled by gz — the operation sequence both programs
    apply to the slab, kept closed: mean, centred slab, variance, reciprocal square root with epsilon, scale. -/
def lnz (v87 : Vec Ideal S16x256x128 .f32) (v106 : Vec Ideal S1x128 .f32) : FVec Ideal S16x256x128 .f32 :=
  have v88 : FVec Ideal S16x256 .f32 := multiReduction .add [2] S16x256 v87 0x00000000#32 reduces_S16x256x128_S16x256 (.inl rfl) rfl
  have v89 : FVec Ideal S16x256x1 .f32 := shapeCast S16x256x1 v88 shapeCasts_S16x256_S16x256x1
  have cst_29 : Ideal .f32 := Scalar.ofBits .f32 0x43000000#32
  have v90 : FVec Ideal S16x256x1 .f32 := broadcast S16x256x1 cst_29
  have v91 : FVec Ideal S16x256x1 .f32 := divf v89 v90
  have v92 : FVec Ideal S16x256x128 .f32 := broadcastTo S16x256x128 v91 broadcasts_S16x256x1_S16x256x128
  have v93 : FVec Ideal S16x256x128 .f32 := subf v87 v92
  have v94 : FVec Ideal S16x256x128 .f32 := mulf v93 v93
  have v95 : FVec Ideal S16x256 .f32 := multiReduction .add [2] S16x256 v94 0x00000000#32 reduces_S16x256x128_S16x256 (.inl rfl) rfl
  have v96 : FVec Ideal S16x256x1 .f32 := shapeCast S16x256x1 v95 shapeCasts_S16x256_S16x256x1
  have cst_31 : Ideal .f32 := Scalar.ofBits .f32 0x43000000#32
  have v97 : FVec Ideal S16x256x1 .f32 := broadcast S16x256x1 cst_31
  have v98 : FVec Ideal S16x256x1 .f32 := divf v96 v97
  have v99 : FVec Ideal S16x256x128 .f32 := broadcastTo S16x256x128 v91 broadcasts_S16x256x1_S16x256x128
  have v100 : FVec Ideal S16x256x128 .f32 := subf v87 v99
  have cst_32 : Ideal .f32 := Scalar.ofBits .f32 0x3727C5AC#32
  have v101 : FVec Ideal S16x256x1 .f32 := broadcast S16x256x1 cst_32
  have v102 : FVec Ideal S16x256x1 .f32 := addf v98 v101
  have v103 : FVec Ideal S16x256x1 .f32 := rsqrt v102
  have v104 : FVec Ideal S16x256x128 .f32 := broadcastTo S16x256x128 v103 broadcasts_S16x256x1_S16x256x128
  have v105 : FVec Ideal S16x256x128 .f32 := mulf v100 v104
  have v107 : FVec Ideal S1x1x128 .f32 := shapeCast S1x1x128 v106 shapeCasts_S1x128_S1x1x128
  have v108 : FVec Ideal S16x256x128 .f32 := broadcastTo S16x256x128 v107 broadcasts_S1x1x128_S16x256x128
  have v109 : FVec Ideal S16x256x128 .f32 := mulf v105 v108
  v109

/-- The normalised z slab the kernel adds the projection to: `lnz` plus the sum of the two biases, broadcast. -/
theorem pay19_eq (v87 : Vec Ideal S16x256x128 .f32) (v106 v110 v111 : Vec Ideal S1x128 .f32) :
    k0_pay19 v87 v106 v110 v111
      = addf (lnz v87 v106) (broadcastTo S16x256x128
          (shapeCast S1x1x128 (addf v110 v111) shapeCasts_S1x128_S1x1x128) broadcasts_S1x1x128_S16x256x128) :=
  rfl

theorem pay19_apply (v87 : Vec Ideal S16x256x128 .f32) (v106 v110 v111 : Vec Ideal S1x128 .f32)
    (r : Fin 16) (j : Fin 256) (z : Fin 128) :
    k0_pay19 v87 v106 v110 v111 (ix3 r j z)
      = lnz v87 v106 (ix3 r j z) + (v110 (ix2 (0 : Fin 1) z) + v111 (ix2 (0 : Fin 1) z)) := by
  rw [pay19_eq]
  show lnz v87 v106 (ix3 r j z) + broadcastTo S16x256x128
      (shapeCast S1x1x128 (addf v110 v111) shapeCasts_S1x128_S1x1x128) broadcasts_S1x1x128_S16x256x128 (ix3 r j z) = _
  rw [broadcastTo_11c_abc_apply, shapeCast_ab_1ab_apply]
  rfl

/-- The literals of the doubling: 2⁻⁷, 2 and 1 as the kernel spells them. -/
abbrev c7 : EReal := Ideal.ofBits .f32 0x3C000000#32
abbrev two : EReal := Ideal.ofBits .f32 0x40000000#32
abbrev one : EReal := Ideal.ofBits .f32 0x3F800000#32

/-- The doubling chain at a distance d. -/
abbrev chainAt (d : EReal) : ℕ → EReal × EReal :=
  chain two one (Ideal.sin (d * c7)) (Ideal.cos (d * c7))

/-- What the kernel stores into the z window at a grid point, from the point's blocks: coordinates (x0: 16 rows,
    x1: all columns), weights, bias, gz, bz and the z slab. -/
def zBlock (x0 : Vec Ideal S16x3 .f32) (x1 : Vec Ideal S3x256 .f32) (w : Vec Ideal S17x128 .f32)
    (b gz bz : Vec Ideal S1x128 .f32) (zb : Vec Ideal S16x256x128 .f32) : FVec Ideal S16x256x128 .f32 :=
  k0_pay80 (k0_pay2 x0 x1) (k0_pay3 x0 x1) (k0_pay4 x0 x1) (k0_pay5 x0 x1) (k0_pay6 x0 x1) (k0_pay7 x0 x1) (k0_pay8 x0 x1) (k0_pay9 (k0_pay7 x0 x1) (k0_pay8 x0 x1)) (k0_pay10 (k0_pay7 x0 x1)) (k0_pay11 (k0_pay7 x0 x1) (k0_pay8 x0 x1)) (k0_pay12 (k0_pay7 x0 x1) (k0_pay8 x0 x1)) (k0_pay13 (k0_pay7 x0 x1) (k0_pay8 x0 x1)) (k0_pay14 (k0_pay7 x0 x1) (k0_pay8 x0 x1)) (k0_pay15 (k0_pay7 x0 x1) (k0_pay8 x0 x1)) (k0_pay16 (k0_pay7 x0 x1) (k0_pay8 x0 x1)) (k0_pay17 (k0_pay7 x0 x1) (k0_pay8 x0 x1)) (k0_pay18 (k0_pay7 x0 x1) (k0_pay8 x0 x1)) (k0_pay19 zb gz bz b) (k0_pay20 w) (k0_pay22 (k0_pay20 w) (k0_pay21 (k0_pay2 x0 x1) (k0_pay3 x0 x1) (k0_pay4 x0 x1) (k0_pay5 x0 x1) (k0_pay6 x0 x1) (k0_pay7 x0 x1) (k0_pay8 x0 x1) (k0_pay9 (k0_pay7 x0 x1) (k0_pay8 x0 x1)) (k0_pay10 (k0_pay7 x0 x1)) (k0_pay11 (k0_pay7 x0 x1) (k0_pay8 x0 x1)) (k0_pay12 (k0_pay7 x0 x1) (k0_pay8 x0 x1)) (k0_pay13 (k0_pay7 x0 x1) (k0_pay8 x0 x1)) (k0_pay14 (k0_pay7 x0 x1) (k0_pay8 x0 x1)) (k0_pay15 (k0_pay7 x0 x1) (k0_pay8 x0 x1)) (k0_pay16 (k0_pay7 x0 x1) (k0_pay8 x0 x1)) (k0_pay17 (k0_pay7 x0 x1) (k0_pay8 x0 x1)) (k0_pay18 (k0_pay7 x0 x1) (k0_pay8 x0 x1)))) (k0_pay23 (k0_pay2 x0 x1) (k0_pay3 x0 x1) (k0_pay4 x0 x1) (k0_pay5 x0 x1) (k0_pay6 x0 x1) (k0_pay7 x0 x1) (k0_pay8 x0 x1) (k0_pay9 (k0_pay7 x0 x1) (k0_pay8 x0 x1)) (k0_pay10 (k0_pay7 x0 x1)) (k0_pay11 (k0_pay7 x0 x1) (k0_pay8 x0 x1)) (k0_pay12 (k0_pay7 x0 x1) (k0_pay8 x0 x1)) (k0_pay13 (k0_pay7 x0 x1) (k0_pay8 x0 x1)) (k0_pay14 (k0_pay7 x0 x1) (k0_pay8 x0 x1)) (k0_pay15 (k0_pay7 x0 x1) (k0_pay8 x0 x1)) (k0_pay16 (k0_pay7 x0 x1) (k0_pay8 x0 x1)) (k0_pay17 (k0_pay7 x0 x1) (k0_pay8 x0 x1)) (k0_pay18 (k0_pay7 x0 x1) (k0_pay8 x0 x1)) (k0_pay20 w)) (k0_pay24 (k0_pay2 x0 x1) (k0_pay3 x0 x1) (k0_pay4 x0 x1) (k0_pay5 x0 x1) (k0_pay6 x0 x1) (k0_pay7 x0 x1) (k0_pay8 x0 x1) (k0_pay9 (k0_pay7 x0 x1) (k0_pay8 x0 x1)) (k0_pay10 (k0_pay7 x0 x1)) (k0_pay11 (k0_pay7 x0 x1) (k0_pay8 x0 x1)) (k0_pay12 (k0_pay7 x0 x1) (k0_pay8 x0 x1)) (k0_pay13 (k0_pay7 x0 x1) (k0_pay8 x0 x1)) (k0_pay14 (k0_pay7 x0 x1) (k0_pay8 x0 x1)) (k0_pay15 (k0_pay7 x0 x1) (k0_pay8 x0 x1)) (k0_pay16 (k0_pay7 x0 x1) (k0_pay8 x0 x1)) (k0_pay17 (k0_pay7 x0 x1) (k0_pay8 x0 x1)) (k0_pay18 (k0_pay7 x0 x1) (k0_pay8 x0 x1)) (k0_pay20 w)) (k0_pay37 (k0_pay2 x0 x1) (k0_pay4 x0 x1) (k0_pay6 x0 x1) (k0_pay8 x0 x1) (k0_pay10 (k0_pay7 x0 x1)) (k0_pay20 w) (k0_pay25 (k0_pay17 (k0_pay7 x0 x1) (k0_pay8 x0 x1))) (k0_pay26 (k0_pay15 (k0_pay7 x0 x1) (k0_pay8 x0 x1))) (k0_pay27 (k0_pay13 (k0_pay7 x0 x1) (k0_pay8 x0 x1))) (k0_pay28 (k0_pay11 (k0_pay7 x0 x1) (k0_pay8 x0 x1))) (k0_pay29 (k0_pay9 (k0_pay7 x0 x1) (k0_pay8 x0 x1))) (k0_pay30 (k0_pay7 x0 x1)) (k0_pay31 (k0_pay5 x0 x1)) (k0_pay32 (k0_pay3 x0 x1)) (k0_pay33 (k0_pay18 (k0_pay7 x0 x1) (k0_pay8 x0 x1))) (k0_pay34 (k0_pay16 (k0_pay7 x0 x1) (k0_pay8 x0 x1))) (k0_pay35 (k0_pay14 (k0_pay7 x0 x1) (k0_pay8 x0 x1))) (k0_pay36 (k0_pay12 (k0_pay7 x0 x1) (k0_pay8 x0 x1)))) (k0_pay38 (k0_pay2 x0 x1) (k0_pay3 x0 x1) (k0_pay4 x0 x1) (k0_pay5 x0 x1) (k0_pay6 x0 x1) (k0_pay7 x0 x1) (k0_pay8 x0 x1) (k0_pay9 (k0_pay7 x0 x1) (k0_pay8 x0 x1)) (k0_pay10 (k0_pay7 x0 x1)) (k0_pay11 (k0_pay7 x0 x1) (k0_pay8 x0 x1)) (k0_pay12 (k0_pay7 x0 x1) (k0_pay8 x0 x1)) (k0_pay13 (k0_pay7 x0 x1) (k0_pay8 x0 x1)) (k0_pay14 (k0_pay7 x0 x1) (k0_pay8 x0 x1)) (k0_pay15 (k0_pay7 x0 x1) (k0_pay8 x0 x1)) (k0_pay16 (k0_pay7 x0 x1) (k0_pay8 x0 x1)) (k0_pay17 (k0_pay7 x0 x1) (k0_pay8 x0 x1)) (k0_pay18 (k0_pay7 x0 x1) (k0_pay8 x0 x1)) (k0_pay20 w)) (k0_pay39 (k0_pay2 x0 x1) (k0_pay3 x0 x1) (k0_pay4 x0 x1) (k0_pay5 x0 x1) (k0_pay6 x0 x1) (k0_pay7 x0 x1) (k0_pay8 x0 x1) (k0_pay9 (k0_pay7 x0 x1) (k0_pay8 x0 x1)) (k0_pay10 (k0_pay7 x0 x1)) (k0_pay11 (k0_pay7 x0 x1) (k0_pay8 x0 x1)) (k0_pay12 (k0_pay7 x0 x1) (k0_pay8 x0 x1)) (k0_pay13 (k0_pay7 x0 x1) (k0_pay8 x0 x1)) (k0_pay14 (k0_pay7 x0 x1) (k0_pay8 x0 x1)) (k0_pay15 (k0_pay7 x0 x1) (k0_pay8 x0 x1)) (k0_pay16 (k0_pay7 x0 x1) (k0_pay8 x0 x1)) (k0_pay17 (k0_pay7 x0 x1) (k0_pay8 x0 x1)) (k0_pay18 (k0_pay7 x0 x1) (k0_pay8 x0 x1)) (k0_pay20 w)) (k0_pay46 (k0_pay2 x0 x1) (k0_pay3 x0 x1) (k0_pay4 x0 x1) (k0_pay5 x0 x1) (k0_pay6 x0 x1) (k0_pay8 x0 x1) (k0_pay10 (k0_pay7 x0 x1)) (k0_pay12 (k0_pay7 x0 x1) (k0_pay8 x0 x1)) (k0_pay14 (k0_pay7 x0 x1) (k0_pay8 x0 x1)) (k0_pay16 (k0_pay7 x0 x1) (k0_pay8 x0 x1)) (k0_pay18 (k0_pay7 x0 x1) (k0_pay8 x0 x1)) (k0_pay20 w) (k0_pay40 (k0_pay17 (k0_pay7 x0 x1) (k0_pay8 x0 x1))) (k0_pay41 (k0_pay15 (k0_pay7 x0 x1) (k0_pay8 x0 x1))) (k0_pay42 (k0_pay13 (k0_pay7 x0 x1) (k0_pay8 x0 x1))) (k0_pay43 (k0_pay11 (k0_pay7 x0 x1) (k0_pay8 x0 x1))) (k0_pay44 (k0_pay9 (k0_pay7 x0 x1) (k0_pay8 x0 x1))) (k0_pay45 (k0_pay7 x0 x1))) (k0_pay47 (k0_pay2 x0 x1) (k0_pay3 x0 x1) (k0_pay4 x0 x1) (k0_pay5 x0 x1) (k0_pay6 x0 x1) (k0_pay7 x0 x1) (k0_pay8 x0 x1) (k0_pay9 (k0_pay7 x0 x1) (k0_pay8 x0 x1)) (k0_pay10 (k0_pay7 x0 x1)) (k0_pay11 (k0_pay7 x0 x1) (k0_pay8 x0 x1)) (k0_pay12 (k0_pay7 x0 x1) (k0_pay8 x0 x1)) (k0_pay13 (k0_pay7 x0 x1) (k0_pay8 x0 x1)) (k0_pay14 (k0_pay7 x0 x1) (k0_pay8 x0 x1)) (k0_pay15 (k0_pay7 x0 x1) (k0_pay8 x0 x1)) (k0_pay16 (k0_pay7 x0 x1) (k0_pay8 x0 x1)) (k0_pay17 (k0_pay7 x0 x1) (k0_pay8 x0 x1)) (k0_pay18 (k0_pay7 x0 x1) (k0_pay8 x0 x1)) (k0_pay20 w)) (k0_pay48 (k0_pay2 x0 x1) (k0_pay3 x0 x1) (k0_pay4 x0 x1) (k0_pay5 x0 x1) (k0_pay6 x0 x1) (k0_pay7 x0 x1) (k0_pay8 x0 x1) (k0_pay9 (k0_pay7 x0 x1) (k0_pay8 x0 x1)) (k0_pay10 (k0_pay7 x0 x1)) (k0_pay11 (k0_pay7 x0 x1) (k0_pay8 x0 x1)) (k0_pay12 (k0_pay7 x0 x1) (k0_pay8 x0 x1)) (k0_pay13 (k0_pay7 x0 x1) (k0_pay8 x0 x1)) (k0_pay14 (k0_pay7 x0 x1) (k0_pay8 x0 x1)) (k0_pay15 (k0_pay7 x0 x1) (k0_pay8 x0 x1)) (k0_pay16 (k0_pay7 x0 x1) (k0_pay8 x0 x1)) (k0_pay17 (k0_pay7 x0 x1) (k0_pay8 x0 x1)) (k0_pay18 (k0_pay7 x0 x1) (k0_pay8 x0 x1)) (k0_pay20 w)) (k0_pay49 (k0_pay2 x0 x1) (k0_pay3 x0 x1) (k0_pay4 x0 x1) (k0_pay5 x0 x1) (k0_pay6 x0 x1) (k0_pay7 x0 x1) (k0_pay8 x0 x1) (k0_pay9 (k0_pay7 x0 x1) (k0_pay8 x0 x1)) (k0_pay10 (k0_pay7 x0 x1)) (k0_pay11 (k0_pay7 x0 x1) (k0_pay8 x0 x1)) (k0_pay12 (k0_pay7 x0 x1) (k0_pay8 x0 x1)) (k0_pay13 (k0_pay7 x0 x1) (k0_pay8 x0 x1)) (k0_pay14 (k0_pay7 x0 x1) (k0_pay8 x0 x1)) (k0_pay15 (k0_pay7 x0 x1) (k0_pay8 x0 x1)) (k0_pay16 (k0_pay7 x0 x1) (k0_pay8 x0 x1)) (k0_pay17 (k0_pay7 x0 x1) (k0_pay8 x0 x1)) (k0_pay18 (k0_pay7 x0 x1) (k0_pay8 x0 x1)) (k0_pay20 w)) (k0_pay50 (k0_pay2 x0 x1) (k0_pay3 x0 x1) (k0_pay4 x0 x1) (k0_pay5 x0 x1) (k0_pay6 x0 x1) (k0_pay7 x0 x1) (k0_pay8 x0 x1) (k0_pay9 (k0_pay7 x0 x1) (k0_pay8 x0 x1)) (k0_pay10 (k0_pay7 x0 x1)) (k0_pay11 (k0_pay7 x0 x1) (k0_pay8 x0 x1)) (k0_pay12 (k0_pay7 x0 x1) (k0_pay8 x0 x1)) (k0_pay13 (k0_pay7 x0 x1) (k0_pay8 x0 x1)) (k0_pay14 (k0_pay7 x0 x1) (k0_pay8 x0 x1)) (k0_pay15 (k0_pay7 x0 x1) (k0_pay8 x0 x1)) (k0_pay16 (k0_pay7 x0 x1) (k0_pay8 x0 x1)) (k0_pay17 (k0_pay7 x0 x1) (k0_pay8 x0 x1)) (k0_pay18 (k0_pay7 x0 x1) (k0_pay8 x0 x1)) (k0_pay20 w)) (k0_pay67 (k0_pay2 x0 x1) (k0_pay20 w) (k0_pay51 (k0_pay17 (k0_pay7 x0 x1) (k0_pay8 x0 x1))) (k0_pay52 (k0_pay15 (k0_pay7 x0 x1) (k0_pay8 x0 x1))) (k0_pay53 (k0_pay13 (k0_pay7 x0 x1) (k0_pay8 x0 x1))) (k0_pay54 (k0_pay11 (k0_pay7 x0 x1) (k0_pay8 x0 x1))) (k0_pay55 (k0_pay9 (k0_pay7 x0 x1) (k0_pay8 x0 x1))) (k0_pay56 (k0_pay7 x0 x1)) (k0_pay57 (k0_pay5 x0 x1)) (k0_pay58 (k0_pay3 x0 x1)) (k0_pay59 (k0_pay18 (k0_pay7 x0 x1) (k0_pay8 x0 x1))) (k0_pay60 (k0_pay16 (k0_pay7 x0 x1) (k0_pay8 x0 x1))) (k0_pay61 (k0_pay14 (k0_pay7 x0 x1) (k0_pay8 x0 x1))) (k0_pay62 (k0_pay12 (k0_pay7 x0 x1) (k0_pay8 x0 x1))) (k0_pay63 (k0_pay10 (k0_pay7 x0 x1))) (k0_pay64 (k0_pay8 x0 x1)) (k0_pay65 (k0_pay6 x0 x1)) (k0_pay66 (k0_pay4 x0 x1))) (k0_pay68 (k0_pay2 x0 x1) (k0_pay3 x0 x1) (k0_pay4 x0 x1) (k0_pay5 x0 x1) (k0_pay6 x0 x1) (k0_pay7 x0 x1) (k0_pay8 x0 x1) (k0_pay9 (k0_pay7 x0 x1) (k0_pay8 x0 x1)) (k0_pay10 (k0_pay7 x0 x1)) (k0_pay11 (k0_pay7 x0 x1) (k0_pay8 x0 x1)) (k0_pay12 (k0_pay7 x0 x1) (k0_pay8 x0 x1)) (k0_pay13 (k0_pay7 x0 x1) (k0_pay8 x0 x1)) (k0_pay14 (k0_pay7 x0 x1) (k0_pay8 x0 x1)) (k0_pay15 (k0_pay7 x0 x1) (k0_pay8 x0 x1)) (k0_pay16 (k0_pay7 x0 x1) (k0_pay8 x0 x1)) (k0_pay17 (k0_pay7 x0 x1) (k0_pay8 x0 x1)) (k0_pay18 (k0_pay7 x0 x1) (k0_pay8 x0 x1)) (k0_pay20 w)) (k0_pay69 (k0_pay2 x0 x1) (k0_pay3 x0 x1) (k0_pay4 x0 x1) (k0_pay5 x0 x1) (k0_pay6 x0 x1) (k0_pay7 x0 x1) (k0_pay8 x0 x1) (k0_pay9 (k0_pay7 x0 x1) (k0_pay8 x0 x1)) (k0_pay10 (k0_pay7 x0 x1)) (k0_pay11 (k0_pay7 x0 x1) (k0_pay8 x0 x1)) (k0_pay12 (k0_pay7 x0 x1) (k0_pay8 x0 x1)) (k0_pay13 (k0_pay7 x0 x1) (k0_pay8 x0 x1)) (k0_pay14 (k0_pay7 x0 x1) (k0_pay8 x0 x1)) (k0_pay15 (k0_pay7 x0 x1) (k0_pay8 x0 x1)) (k0_pay16 (k0_pay7 x0 x1) (k0_pay8 x0 x1)) (k0_pay17 (k0_pay7 x0 x1) (k0_pay8 x0 x1)) (k0_pay18 (k0_pay7 x0 x1) (k0_pay8 x0 x1)) (k0_pay20 w)) (k0_pay70 (k0_pay17 (k0_pay7 x0 x1) (k0_pay8 x0 x1))) (k0_pay71 (k0_pay15 (k0_pay7 x0 x1) (k0_pay8 x0 x1))) (k0_pay72 (k0_pay13 (k0_pay7 x0 x1) (k0_pay8 x0 x1))) (k0_pay73 (k0_pay11 (k0_pay7 x0 x1) (k0_pay8 x0 x1))) (k0_pay74 (k0_pay9 (k0_pay7 x0 x1) (k0_pay8 x0 x1))) (k0_pay75 (k0_pay7 x0 x1)) (k0_pay76 (k0_pay5 x0 x1)) (k0_pay77 (k0_pay3 x0 x1)) (k0_pay78 (k0_pay18 (k0_pay7 x0 x1) (k0_pay8 x0 x1))) (k0_pay79 (k0_pay16 (k0_pay7 x0 x1) (k0_pay8 x0 x1)))

/-- The eight sine planes, in the order the stack takes them (k = 0 … 7), are the chain's sines after 7 − k
    doublings; the eight cosine planes likewise; the seventeenth plane is the distance. -/
theorem fam_sin (x0 : Vec Ideal S16x3 .f32) (x1 : Vec Ideal S3x256 .f32) (i : S16x256.Idx) (k : Fin 8) :
    fam (k0_pay17 (k0_pay7 x0 x1) (k0_pay8 x0 x1)) (k0_pay15 (k0_pay7 x0 x1) (k0_pay8 x0 x1)) (k0_pay13 (k0_pay7 x0 x1) (k0_pay8 x0 x1)) (k0_pay11 (k0_pay7 x0 x1) (k0_pay8 x0 x1)) (k0_pay9 (k0_pay7 x0 x1) (k0_pay8 x0 x1)) (k0_pay7 x0 x1) (k0_pay5 x0 x1) (k0_pay3 x0 x1) (k0_pay18 (k0_pay7 x0 x1) (k0_pay8 x0 x1)) (k0_pay16 (k0_pay7 x0 x1) (k0_pay8 x0 x1)) (k0_pay14 (k0_pay7 x0 x1) (k0_pay8 x0 x1)) (k0_pay12 (k0_pay7 x0 x1) (k0_pay8 x0 x1)) (k0_pay10 (k0_pay7 x0 x1)) (k0_pay8 x0 x1) (k0_pay6 x0 x1) (k0_pay4 x0 x1) (k0_pay2 x0 x1) (Fin.castSucc (Fin.castAdd 8 k)) i
      = (chainAt (k0_pay2 x0 x1 i) (7 - k.val)).1 := by
  fin_cases k <;> rfl

theorem fam_cos (x0 : Vec Ideal S16x3 .f32) (x1 : Vec Ideal S3x256 .f32) (i : S16x256.Idx) (k : Fin 8) :
    fam (k0_pay17 (k0_pay7 x0 x1) (k0_pay8 x0 x1)) (k0_pay15 (k0_pay7 x0 x1) (k0_pay8 x0 x1)) (k0_pay13 (k0_pay7 x0 x1) (k0_pay8 x0 x1)) (k0_pay11 (k0_pay7 x0 x1) (k0_pay8 x0 x1)) (k0_pay9 (k0_pay7 x0 x1) (k0_pay8 x0 x1)) (k0_pay7 x0 x1) (k0_pay5 x0 x1) (k0_pay3 x0 x1) (k0_pay18 (k0_pay7 x0 x1) (k0_pay8 x0 x1)) (k0_pay16 (k0_pay7 x0 x1) (k0_pay8 x0 x1)) (k0_pay14 (k0_pay7 x0 x1) (k0_pay8 x0 x1)) (k0_pay12 (k0_pay7 x0 x1) (k0_pay8 x0 x1)) (k0_pay10 (k0_pay7 x0 x1)) (k0_pay8 x0 x1) (k0_pay6 x0 x1) (k0_pay4 x0 x1) (k0_pay2 x0 x1) (Fin.castSucc (Fin.natAdd 8 k)) i
      = (chainAt (k0_pay2 x0 x1 i) (7 - k.val)).2 := by
  fin_cases k <;> rfl

theorem fam_dist (x0 : Vec Ideal S16x3 .f32) (x1 : Vec Ideal S3x256 .f32) (i : S16x256.Idx) :
    fam (k0_pay17 (k0_pay7 x0 x1) (k0_pay8 x0 x1)) (k0_pay15 (k0_pay7 x0 x1) (k0_pay8 x0 x1)) (k0_pay13 (k0_pay7 x0 x1) (k0_pay8 x0 x1)) (k0_pay11 (k0_pay7 x0 x1) (k0_pay8 x0 x1)) (k0_pay9 (k0_pay7 x0 x1) (k0_pay8 x0 x1)) (k0_pay7 x0 x1) (k0_pay5 x0 x1) (k0_pay3 x0 x1) (k0_pay18 (k0_pay7 x0 x1) (k0_pay8 x0 x1)) (k0_pay16 (k0_pay7 x0 x1) (k0_pay8 x0 x1)) (k0_pay14 (k0_pay7 x0 x1) (k0_pay8 x0 x1)) (k0_pay12 (k0_pay7 x0 x1) (k0_pay8 x0 x1)) (k0_pay10 (k0_pay7 x0 x1)) (k0_pay8 x0 x1) (k0_pay6 x0 x1) (k0_pay4 x0 x1) (k0_pay2 x0 x1) (Fin.last 16) i = k0_pay2 x0 x1 i :=
  rfl

/-- The stored z slab at (r, j, z). -/
theorem zBlock_apply (x0 : Vec Ideal S16x3 .f32) (x1 : Vec Ideal S3x256 .f32) (w : Vec Ideal S17x128 .f32)
    (b gz bz : Vec Ideal S1x128 .f32) (zb : Vec Ideal S16x256x128 .f32) (r : Fin 16) (j : Fin 256) (z : Fin 128) :
    zBlock x0 x1 w b gz bz zb (ix3 r j z)
      = (lnz zb gz (ix3 r j z) + (bz (ix2 (0 : Fin 1) z) + b (ix2 (0 : Fin 1) z)))
        + ((∑ k : Fin 8, (chainAt (k0_pay2 x0 x1 (ix2 r j)) (7 - k.val)).1 * w (ix2 (Fin.castSucc (Fin.castAdd 8 k)) z)
            + ∑ k : Fin 8, (chainAt (k0_pay2 x0 x1 (ix2 r j)) (7 - k.val)).2 * w (ix2 (Fin.castSucc (Fin.natAdd 8 k)) z))
          + k0_pay2 x0 x1 (ix2 r j) * w (ix2 (Fin.last 16) z)) := by
  unfold zBlock
  refine (zpay_apply (k0_pay2 x0 x1) (k0_pay3 x0 x1) (k0_pay4 x0 x1) (k0_pay5 x0 x1) (k0_pay6 x0 x1) (k0_pay7 x0 x1) (k0_pay8 x0 x1) (k0_pay9 (k0_pay7 x0 x1) (k0_pay8 x0 x1)) (k0_pay10 (k0_pay7 x0 x1)) (k0_pay11 (k0_pay7 x0 x1) (k0_pay8 x0 x1)) (k0_pay12 (k0_pay7 x0 x1) (k0_pay8 x0 x1)) (k0_pay13 (k0_pay7 x0 x1) (k0_pay8 x0 x1)) (k0_pay14 (k0_pay7 x0 x1) (k0_pay8 x0 x1)) (k0_pay15 (k0_pay7 x0 x1) (k0_pay8 x0 x1)) (k0_pay16 (k0_pay7 x0 x1) (k0_pay8 x0 x1)) (k0_pay17 (k0_pay7 x0 x1) (k0_pay8 x0 x1)) (k0_pay18 (k0_pay7 x0 x1) (k0_pay8 x0 x1)) (k0_pay19 zb gz bz b) (k0_pay20 w) r j z).trans ?_
  rw [pay19_apply, sum_seventeen]
  congr 1

/-- What the kernel stores into the m window at a grid point is the row-wise layer normalisation of the point's
    128-row block (divisor 64.0, epsilon as the program's literal). -/
theorem mBlock_eq (x : Vec Ideal S128x64 .f32) (gm bm : Vec Ideal S1x64 .f32) :
    k0_pay1 (k0_pay81 x) (k0_pay82 x) (k0_pay83 x) gm bm
      = lnBlock (shapeCast S128x64 x shapeCasts_S128x64_S128x64) gm bm 0x42800000#32 0x3727C5AC#32
          reduces_S128x64_S128 (.inl rfl) rfl shapeCasts_S128_S128x1 broadcasts_S128x1_S128x64 broadcasts_S1x64_S128x64 :=
  rfl

theorem mBlock_apply (x : Vec Ideal S128x64 .f32) (gm bm : Vec Ideal S1x64 .f32) (y : Fin 128) (c : Fin 64) :
    k0_pay1 (k0_pay81 x) (k0_pay82 x) (k0_pay83 x) gm bm (ix2 y c)
      = lnRow (Ideal.ofBits .f32 0x42800000#32) (Ideal.ofBits .f32 0x3727C5AC#32) (fun k => x (ix2 y k))
          (gm (ix2 (0 : Fin 1) c)) (bm (ix2 (0 : Fin 1) c)) c := by
  refine (lnBlock_apply (shapeCast S128x64 x shapeCasts_S128x64_S128x64) gm bm 0x42800000#32 0x3727C5AC#32
    reduces_S128x64_S128 (.inl rfl) rfl shapeCasts_S128_S128x1 broadcasts_S128x1_S128x64 broadcasts_S1x64_S128x64 y c).trans ?_
  rw [shapeCast_self]

end Cert.KernelIdeal.Block

end
-- ==== Proof.KernelArrays.lean ====
/-
  The kernel's two output arrays after its region, and its run.

  The z array [256, 256, 128] is written in sixteen slabs of sixteen rows; the entry (i, j, z) lies in slab i / 16 at
  row i mod 16, and holds what the body stores there from that point's blocks. The m array [2048, 64] is written in
  sixteen slabs of 128 rows in the same way. Each array is therefore ONE function of the contents the region finds —
  `Gz`, `Gm` below, defined through the point that covers an index — because every point writes back its block of
  that function and the blocks cover the array. The first result is the m array reshaped to [8, 256, 64] by the
  host operation after the region.
-/
import proofs.«179599_g2000505677692961_pallasbulk_1150_32_alg».proof.Proof.Gen.KernelIdeal.Frame
import proofs.«179599_g2000505677692961_pallasbulk_1150_32_alg».proof.Proof.KernelBlock
import Idealize.ShloMosaic.Lib.Pipeline.Value
import Idealize.ShloMosaic.Lib.StableHlo.Run

set_option maxRecDepth 16384

noncomputable section

namespace Cert.KernelIdeal.Arrays

open Idealize.ShloMosaic Idealize.ShloMosaic.TcCoe Idealize.ShloMosaic.ValueIdx Idealize.SL.Sem
  Cert.KernelIdeal Cert.KernelIdeal.Gen Cert.KernelIdeal.Block
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps of the two output windows, decided over the sixteen points: point t writes slab t. -/
theorem idx_facts : ∀ t : Fin cfg0.N,
    win0_11.index t (0 : Fin 3) = t.val ∧ win0_11.index t (1 : Fin 3) = 0 ∧ win0_11.index t (2 : Fin 3) = 0
    ∧ win0_10.index t (0 : Fin 2) = t.val ∧ win0_10.index t (1 : Fin 2) = 0 :=
  (by decide +kernel : ∀ t : Fin grid0.N, _)

/-! ## The z array -/

/-- The point whose slab holds row i 0 of the z array. -/
def tOfZ (i : S256x256x128.Idx) : Fin cfg0.N :=
  ⟨(i 0).val / 16, by have h : (i 0).val < 256 := (i 0).isLt; show _ < grid0.N; rw [N_0]; omega⟩

/-- The index inside that slab. -/
def locZ (i : S256x256x128.Idx) : S16x256x128.Idx :=
  ix3 (⟨(i 0).val % 16, Nat.mod_lt _ (by decide)⟩ : Fin 16) (⟨(i 1).val, (i 1).isLt⟩ : Fin 256) (⟨(i 2).val, (i 2).isLt⟩ : Fin 128)

/-- What the z array ends holding: at index i, the body's z block of the covering point's input blocks, at i's
    place in the slab. -/
def Gz (c : Dev nD) : S256x256x128.Idx → EReal := fun i =>
  zBlock (iblk m c 0 (tOfZ i)) (iblk m c 1 (tOfZ i)) (iblk m c 2 (tOfZ i)) (iblk m c 3 (tOfZ i)) (iblk m c 4 (tOfZ i))
    (iblk m c 5 (tOfZ i)) (iblk m c 9 (tOfZ i)) (locZ i)

theorem Gz_at (c : Dev nD) (t : Fin cfg0.N) (y : S16x256x128.Idx) (i : S256x256x128.Idx) (ht : tOfZ i = t) (hl : locZ i = y) :
    Gz m c i = zBlock (iblk m c 0 t) (iblk m c 1 t) (iblk m c 2 t) (iblk m c 3 t) (iblk m c 4 t) (iblk m c 5 t) (iblk m c 9 t) y := by
  subst ht; subst hl; rfl

/-- What point t writes back into the z array is block t of `Gz`. -/
theorem flushed_z (c : Dev nD) (t : Fin cfg0.N) :
    (dats m 0 c).flushed 11 t = ((cfg0.win 11).blk t).view.read (Elt Ideal) (Gz m c) := by
  show (cfg0.win 11).cut (grid0.coords t) ((dats m 0 c).after 11 t) = _
  rw [after0_11]
  unfold out0_11
  rw [View.canon_unit_zero hz3]
  simp only [View.ld_unit_zero (S := S16x3) hz2, View.ld_unit_zero (S := S3x256) hz2, View.ld_unit_zero (S := S16x256x128) hz3,
    View.ld_unit_zero (S := S1x128) hz2, View.ld_unit_zero (S := S17x128) hz2]
  obtain ⟨e0, e1, e2, -, -⟩ := idx_facts t
  funext y
  show zBlock (iblk m c 0 t) (iblk m c 1 t) (iblk m c 2 t) (iblk m c 3 t) (iblk m c 4 t) (iblk m c 5 t) (iblk m c 9 t) y
    = Gz m c (((cfg0.win 11).blk t).view.emb y)
  refine (Gz_at m c t y _ ?_ ?_).symm
  · apply Fin.ext
    show (win0_11.index t (0 : Fin 3) * 16 + 1 * (y 0).val) / 16 = t.val
    have hy : (y 0).val < 16 := (y 0).isLt
    omega
  · funext a
    apply Fin.ext
    match a with
    | ⟨0, _⟩ =>
      show (win0_11.index t (0 : Fin 3) * 16 + 1 * (y 0).val) % 16 = (y 0).val
      have hy : (y 0).val < 16 := (y 0).isLt
      omega
    | ⟨1, _⟩ =>
      show win0_11.index t (1 : Fin 3) * 256 + 1 * (y 1).val = (y 1).val
      omega
    | ⟨2, _⟩ =>
      show win0_11.index t (2 : Fin 3) * 128 + 1 * (y 2).val = (y 2).val
      omega

/-- An index of the z array is in point t's block iff each coordinate is in the block's range on its axis. -/
theorem mem_blk_z (t : Fin cfg0.N) (i : S256x256x128.Idx) :
    i ∈ ((cfg0.win 11).blk t).view.set ↔ ∀ a : Fin 3, win0_11.index t a * S16x256x128.size a ≤ (i a).val
      ∧ (i a).val < win0_11.index t a * S16x256x128.size a + S16x256x128.size a := by
  show i ∈ ((View.whole main_v4_1).slice (win0_11.rect t)).set ↔ _
  rw [View.set_slice_whole, Rect.mem_set_unit]
  exact Iff.rfl

/-- The sixteen slabs cover the z array. -/
theorem cover_z (i : S256x256x128.Idx) :
    ∃ t : Fin cfg0.N, (cfg0.win 11).flush t = true ∧ i ∈ ((cfg0.win 11).blk t).view.set := by
  refine ⟨tOfZ i, flush0_11 _, ?_⟩
  rw [mem_blk_z]
  obtain ⟨e0, e1, e2, -, -⟩ := idx_facts (tOfZ i)
  have ht : (tOfZ i).val = (i 0).val / 16 := rfl
  have h0 : (i 0).val < 256 := (i 0).isLt
  have h1 : (i 1).val < 256 := (i 1).isLt
  have h2 : (i 2).val < 128 := (i 2).isLt
  intro a
  match a with
  | ⟨0, _⟩ =>
    show win0_11.index (tOfZ i) (0 : Fin 3) * 16 ≤ (i 0).val ∧ (i 0).val < win0_11.index (tOfZ i) (0 : Fin 3) * 16 + 16
    omega
  | ⟨1, _⟩ =>
    show win0_11.index (tOfZ i) (1 : Fin 3) * 256 ≤ (i 1).val ∧ (i 1).val < win0_11.index (tOfZ i) (1 : Fin 3) * 256 + 256
    omega
  | ⟨2, _⟩ =>
    show win0_11.index (tOfZ i) (2 : Fin 3) * 128 ≤ (i 2).val ∧ (i 2).val < win0_11.index (tOfZ i) (2 : Fin 3) * 128 + 128
    omega

/-- THE z ARRAY after the region. -/
theorem final_z (c : Dev nD) : (dats m 0 c).arrAt 11 cfg0.N = Gz m c :=
  (dats m 0 c).arrAt_eq_of_cover 11 (Gz m c) (fun t _ => flushed_z m c t) (cover_z)

/-! ## The m array -/

/-- The point whose slab holds row i 0 of the m array (128 rows per slab). -/
def tOfM (i : S2048x64.Idx) : Fin cfg0.N :=
  ⟨(i 0).val / 128, by have h : (i 0).val < 2048 := (i 0).isLt; show _ < grid0.N; rw [N_0]; omega⟩

def locM (i : S2048x64.Idx) : S128x64.Idx :=
  ix2 (⟨(i 0).val % 128, Nat.mod_lt _ (by decide)⟩ : Fin 128) (⟨(i 1).val, (i 1).isLt⟩ : Fin 64)

/-- What the m array ends holding: the row-normalised block of the covering point, at i's place in it. -/
def Gm (c : Dev nD) : S2048x64.Idx → EReal := fun i =>
  k0_pay1 (k0_pay81 (iblk m c 8 (tOfM i))) (k0_pay82 (iblk m c 8 (tOfM i))) (k0_pay83 (iblk m c 8 (tOfM i)))
    (iblk m c 6 (tOfM i)) (iblk m c 7 (tOfM i)) (locM i)

theorem Gm_at (c : Dev nD) (t : Fin cfg0.N) (y : S128x64.Idx) (i : S2048x64.Idx) (ht : tOfM i = t) (hl : locM i = y) :
    Gm m c i = k0_pay1 (k0_pay81 (iblk m c 8 t)) (k0_pay82 (iblk m c 8 t)) (k0_pay83 (iblk m c 8 t)) (iblk m c 6 t) (iblk m c 7 t) y := by
  subst ht; subst hl; rfl

theorem flushed_m (c : Dev nD) (t : Fin cfg0.N) :
    (dats m 0 c).flushed 10 t = ((cfg0.win 10).blk t).view.read (Elt Ideal) (Gm m c) := by
  show (cfg0.win 10).cut (grid0.coords t) ((dats m 0 c).after 10 t) = _
  rw [after0_10]
  unfold out0_10
  rw [View.canon_unit_zero hz2]
  simp only [View.ld_unit_zero (S := S128x64) hz2, View.ld_unit_zero (S := S1x64) hz2]
  obtain ⟨-, -, -, e0, e1⟩ := idx_facts t
  funext y
  show k0_pay1 (k0_pay81 (iblk m c 8 t)) (k0_pay82 (iblk m c 8 t)) (k0_pay83 (iblk m c 8 t)) (iblk m c 6 t) (iblk m c 7 t) y
    = Gm m c (((cfg0.win 10).blk t).view.emb y)
  refine (Gm_at m c t y _ ?_ ?_).symm
  · apply Fin.ext
    show (win0_10.index t (0 : Fin 2) * 128 + 1 * (y 0).val) / 128 = t.val
    have hy : (y 0).val < 128 := (y 0).isLt
    omega
  · funext a
    apply Fin.ext
    match a with
    | ⟨0, _⟩ =>
      show (win0_10.index t (0 : Fin 2) * 128 + 1 * (y 0).val) % 128 = (y 0).val
      have hy : (y 0).val < 128 := (y 0).isLt
      omega
    | ⟨1, _⟩ =>
      show win0_10.index t (1 : Fin 2) * 64 + 1 * (y 1).val = (y 1).val
      omega

theorem mem_blk_m (t : Fin cfg0.N) (i : S2048x64.Idx) :
    i ∈ ((cfg0.win 10).blk t).view.set ↔ ∀ a : Fin 2, win0_10.index t a * S128x64.size a ≤ (i a).val
      ∧ (i a).val < win0_10.index t a * S128x64.size a + S128x64.size a := by
  show i ∈ ((View.whole main_v4_0).slice (win0_10.rect t)).set ↔ _
  rw [View.set_slice_whole, Rect.mem_set_unit]
  exact Iff.rfl

theorem cover_m (i : S2048x64.Idx) :
    ∃ t : Fin cfg0.N, (cfg0.win 10).flush t = true ∧ i ∈ ((cfg0.win 10).blk t).view.set := by
  refine ⟨tOfM i, flush0_10 _, ?_⟩
  rw [mem_blk_m]
  obtain ⟨-, -, -, e0, e1⟩ := idx_facts (tOfM i)
  have ht : (tOfM i).val = (i 0).val / 128 := rfl
  have h0 : (i 0).val < 2048 := (i 0).isLt
  have h1 : (i 1).val < 64 := (i 1).isLt
  intro a
  match a with
  | ⟨0, _⟩ =>
    show win0_10.index (tOfM i) (0 : Fin 2) * 128 ≤ (i 0).val ∧ (i 0).val < win0_10.index (tOfM i) (0 : Fin 2) * 128 + 128
    omega
  | ⟨1, _⟩ =>
    show win0_10.index (tOfM i) (1 : Fin 2) * 64 ≤ (i 1).val ∧ (i 1).val < win0_10.index (tOfM i) (1 : Fin 2) * 64 + 64
    omega

/-- THE m ARRAY after the region. -/
theorem final_m (c : Dev nD) : (dats m 0 c).arrAt 10 cfg0.N = Gm m c :=
  (dats m 0 c).arrAt_eq_of_cover 10 (Gm m c) (fun t _ => flushed_m m c t) (cover_m)

end Cert.KernelIdeal.Arrays

end
-- ==== Proof.KernelRun.lean ====
/-
  The kernel's run, with its two results named.

  Every weakly fair execution of the kernel's program terminates; the z result is the array `Gz`, the m result is the
  array `Gm` reshaped from [2048, 64] to [8, 256, 64] by the host operation after the region, and the argument
  arrays end as launched. Also here: what the host operations BEFORE the region leave in the three arrays they write
  (the last atom's coordinates as [256, 3], their transpose, and m as [2048, 64]).
-/
import proofs.«179599_g2000505677692961_pallasbulk_1150_32_alg».proof.Proof.KernelArrays
import Idealize.ShloMosaic.Lib.StableHlo.Run
import Idealize.ShloMosaic.Lib.Tactic

set_option maxRecDepth 16384

noncomputable section

namespace Cert.KernelIdeal.Arrays

open Idealize.ShloMosaic Idealize.ShloMosaic.TcCoe Idealize.ShloMosaic.Tactic Idealize.ShloMosaic.ValueIdx Idealize.SL.Sem
  Cert.KernelIdeal Cert.KernelIdeal.Gen Cert.KernelIdeal.Block

variable (m : (ℓ : Loc nD τ sig) → Buf (Elt Ideal) ℓ) (ρ : Dev nD → PrngReg)

/-- The last atom's coordinates, [256, 3], as a function of the x argument. -/
def cbOf (x : S256x4x3.Idx → EReal) : S256x3.Idx → EReal :=
  shapeCast S256x3 (extractStridedSlice S256x1x3 ![0, 3, 0] x slices_S256x4x3_S256x1x3_0_3_0) shapeCasts_S256x1x3_S256x3

theorem V_v1 (c : Dev nD) : (V m c main_v1 : S256x3.Idx → EReal) = cbOf (m ((c : Thread nD τ).loc main_arg2)) := by
  show StableHlo.after hostOps0 (fun b => m (c, b)) (Proc.devRef .tc main_v1) = _
  after_results
  rfl

theorem V_v2 (c : Dev nD) : (V m c main_v2 : S3x256.Idx → EReal)
    = transpose S3x256 [1, 0] (cbOf (m ((c : Thread nD τ).loc main_arg2))) transposes_S256x3_S3x256_1_0 := by
  show StableHlo.after hostOps0 (fun b => m (c, b)) (Proc.devRef .tc main_v2) = _
  after_results
  rfl

theorem V_v3 (c : Dev nD) : (V m c main_v3 : S2048x64.Idx → EReal)
    = shapeCast S2048x64 (m ((c : Thread nD τ).loc main_arg0)) shapeCasts_S8x256x64_S2048x64 := by
  show StableHlo.after hostOps0 (fun b => m (c, b)) (Proc.devRef .tc main_v3) = _
  after_results
  rfl

/-- The host operation after the region reshapes the m array. -/
theorem tail_v5 (c : Dev nD) :
    Pipeline.afterTail₀ cfgs (dats m) 0 (V0 m) [hostOps1] c main_v5
      = shapeCast S8x256x64 (Gm m c) shapeCasts_S2048x64_S8x256x64 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4_0)
      = Gm m c :=
    (Pipeline.withArrays_arr spec0 launch0.win.arr_inj c _ _ 10).trans (final_m m c)
  exact congrArg (fun A : S2048x64.Idx → EReal => shapeCast S8x256x64 A shapeCasts_S2048x64_S8x256x64) e

set_option backward.isDefEq.respectTransparency.types false in
/-- THE KERNEL'S RUN: both results named, the arguments unchanged. -/
theorem run : θ_run defs (onTc (τ := τ) (main (F := Ideal))) ⟨m, fun _ => 0, ρ⟩ (fun r => ∀ c : Dev nD,
      r.2.mem ((c.tc : Thread nD τ).loc main_v5) = shapeCast S8x256x64 (Gm m c) shapeCasts_S2048x64_S8x256x64
      ∧ r.2.mem ((c.tc : Thread nD τ).loc main_v4_1) = Gz m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v5 (Pipeline.mem_restRefs_of main_v5 (by decide) (by decide))).trans (tail_v5 m c),
      ((h c).1 11).trans (final_z m c),
      (((h c).2 main_arg0 (Pipeline.mem_restRefs_of main_arg0 (by decide) (by decide))).trans (W_main_arg0 m (dats m) c)),
      ((h c).1 9).trans (((dats m 0 c).arrAt_in 9 rfl _).trans ((A_eq m c 9).trans (V_main_arg1 m c))),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c)))⟩)
    (run_main m ρ)

end Cert.KernelIdeal.Arrays

end
-- ==== Proof.RefRun.lean ====
/-
  The reference's run, with its final memory kept.

  The reference's @main is five segments: host operations, the z region, one host operation, the m region, one host
  operation. Launched over those segments, every weakly fair execution terminates with every unscoped buffer at the
  contents the segments' fold computes (`W5`). The z result is the z region's output array as that region leaves it;
  the m result is the m region's output array reshaped to [8, 256, 64].
-/
import proofs.«179599_g2000505677692961_pallasbulk_1150_32_alg».proof.Proof.Gen.ReferenceIdeal.Frame
import Idealize.ShloMosaic.Lib.StableHlo.Run

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN: from any memory with zero counters every weakly fair execution of @main terminates, nothing faulting, and
    the final state has every unscoped buffer at the segments' fold `W5`. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c b hb)

/-- The m result: the m region's output array, reshaped by the last host operation. -/
theorem W5_v9 (c : Dev nD) :
    W5 m ρ c (Proc.devRef .tc main_v9)
      = shapeCast S8x256x64 ((dat1 (V3 m ρ) c).arrAt 3 cfg1.N) shapeCasts_S2048x64_S8x256x64 := by
  show StableHlo.after hostOps2 (W4 m ρ c) (Proc.devRef .tc main_v9) = _
  after_results
  exact congrArg (fun A : S2048x64.Idx → Elt F .f32 => shapeCast S8x256x64 A shapeCasts_S2048x64_S8x256x64) (W4_arr m ρ c 3)

/-- The z result: the z region's output array; no later segment writes it. -/
theorem W5_v6 (c : Dev nD) : W5 m ρ c (Proc.devRef .tc main_v6) = (dat0 (V1 m ρ) c).arrAt 10 cfg0.N := by
  show StableHlo.after hostOps2 (W4 m ρ c) (Proc.devRef .tc main_v6) = _
  after_results
  rw [W4_of_ne m ρ c main_v6 (by decide)]
  show StableHlo.after hostOps1 (W2 m ρ c) (Proc.devRef .tc main_v6) = _
  after_results
  exact W2_arr m ρ c 10

end Cert.ReferenceIdeal.Run

end
-- ==== Proof.RefBlocks.lean ====
/-
  The reference's blocks against the kernel's.

  Both programs cut the same arrays: the z region of the reference takes, at grid point (t, 0), rows 16 t … 16 t + 15
  of the coordinates and of the z array, and all of every other operand — exactly the kernel's blocks at its point t.
  Windows whose index map is constantly zero hand the body the whole array at every point.
-/
import proofs.«179599_g2000505677692961_pallasbulk_1150_32_alg».proof.Proof.Gen.ReferenceIdeal.Frame
import proofs.«179599_g2000505677692961_pallasbulk_1150_32_alg».proof.Proof.KernelRun
import Idealize.ShloMosaic.Lib.StableHlo.Run
import Idealize.ShloMosaic.Lib.Tactic

set_option maxRecDepth 16384

noncomputable section

namespace Cert.ReferenceIdeal.Arrays

open Idealize.ShloMosaic Idealize.ShloMosaic.TcCoe Idealize.ShloMosaic.Tactic Idealize.ShloMosaic.ValueIdx Idealize.SL.Sem
  Cert.ReferenceIdeal Cert.ReferenceIdeal.Gen

/-! ## Windows that hand over the whole array -/

theorem r0_idx1 : ∀ t : Fin cfg0.N, win0_1.index t (0 : Fin 2) = 0 ∧ win0_1.index t (1 : Fin 2) = 0 :=
  (by decide +kernel : ∀ t : Fin grid0.N, _)

theorem r0_whole1 (V : (c : Dev nD) → (b : Ref sig .tc) → Buf (Elt Ideal) ((c : Thread nD τ).loc b)) (c : Dev nD) (t : Fin cfg0.N) :
    (iblk0 V c 1 t : S3x256.Idx → EReal) = V c main_v2 := by
  funext y
  show V c main_v2 (((cfg0.win 1).blk t).view.emb y) = V c main_v2 y
  congr 1
  funext a
  apply Fin.ext
  obtain ⟨e0, e1⟩ := r0_idx1 t
  match a with
  | ⟨0, _⟩ =>
    show win0_1.index t (0 : Fin 2) * 3 + 1 * (y 0).val = (y 0).val
    omega
  | ⟨1, _⟩ =>
    show win0_1.index t (1 : Fin 2) * 256 + 1 * (y 1).val = (y 1).val
    omega

theorem r0_idx2 : ∀ t : Fin cfg0.N, win0_2.index t (0 : Fin 2) = 0 ∧ win0_2.index t (1 : Fin 2) = 0 :=
  (by decide +kernel : ∀ t : Fin grid0.N, _)

theorem r0_whole2 (V : (c : Dev nD) → (b : Ref sig .tc) → Buf (Elt Ideal) ((c : Thread nD τ).loc b)) (c : Dev nD) (t : Fin cfg0.N) :
    (iblk0 V c 2 t : S8x128.Idx → EReal) = V c main_v3 := by
  funext y
  show V c main_v3 (((cfg0.win 2).blk t).view.emb y) = V c main_v3 y
  congr 1
  funext a
  apply Fin.ext
  obtain ⟨e0, e1⟩ := r0_idx2 t
  match a with
  | ⟨0, _⟩ =>
    show win0_2.index t (0 : Fin 2) * 8 + 1 * (y 0).val = (y 0).val
    omega
  | ⟨1, _⟩ =>
    show win0_2.index t (1 : Fin 2) * 128 + 1 * (y 1).val = (y 1).val
    omega

theorem r0_idx3 : ∀ t : Fin cfg0.N, win0_3.index t (0 : Fin 2) = 0 ∧ win0_3.index t (1 : Fin 2) = 0 :=
  (by decide +kernel : ∀ t : Fin grid0.N, _)

theorem r0_whole3 (V : (c : Dev nD) → (b : Ref sig .tc) → Buf (Elt Ideal) ((c : Thread nD τ).loc b)) (c : Dev nD) (t : Fin cfg0.N) :
    (iblk0 V c 3 t : S8x128.Idx → EReal) = V c main_v4 := by
  funext y
  show V c main_v4 (((cfg0.win 3).blk t).view.emb y) = V c main_v4 y
  congr 1
  funext a
  apply Fin.ext
  obtain ⟨e0, e1⟩ := r0_idx3 t
  match a with
  | ⟨0, _⟩ =>
    show win0_3.index t (0 : Fin 2) * 8 + 1 * (y 0).val = (y 0).val
    omega
  | ⟨1, _⟩ =>
    show win0_3.index t (1 : Fin 2) * 128 + 1 * (y 1).val = (y 1).val
    omega

theorem r0_idx4 : ∀ t : Fin cfg0.N, win0_4.index t (0 : Fin 2) = 0 ∧ win0_4.index t (1 : Fin 2) = 0 :=
  (by decide +kernel : ∀ t : Fin grid0.N, _)

theorem r0_whole4 (V : (c : Dev nD) → (b : Ref sig .tc) → Buf (Elt Ideal) ((c : Thread nD τ).loc b)) (c : Dev nD) (t : Fin cfg0.N) :
    (iblk0 V c 4 t : S1x128.Idx → EReal) = V c main_v5 := by
  funext y
  show V c main_v5 (((cfg0.win 4).blk t).view.emb y) = V c main_v5 y
  congr 1
  funext a
  apply Fin.ext
  obtain ⟨e0, e1⟩ := r0_idx4 t
  match a with
  | ⟨0, _⟩ =>
    show win0_4.index t (0 : Fin 2) * 1 + 1 * (y 0).val = (y 0).val
    omega
  | ⟨1, _⟩ =>
    show win0_4.index t (1 : Fin 2) * 128 + 1 * (y 1).val = (y 1).val
    omega

theorem r0_idx5 : ∀ t : Fin cfg0.N, win0_5.index t (0 : Fin 2) = 0 ∧ win0_5.index t (1 : Fin 2) = 0 :=
  (by decide +kernel : ∀ t : Fin grid0.N, _)

theorem r0_whole5 (V : (c : Dev nD) → (b : Ref sig .tc) → Buf (Elt Ideal) ((c : Thread nD τ).loc b)) (c : Dev nD) (t : Fin cfg0.N) :
    (iblk0 V c 5 t : S1x128.Idx → EReal) = V c main_arg4 := by
  funext y
  show V c main_arg4 (((cfg0.win 5).blk t).view.emb y) = V c main_arg4 y
  congr 1
  funext a
  apply Fin.ext
  obtain ⟨e0, e1⟩ := r0_idx5 t
  match a with
  | ⟨0, _⟩ =>
    show win0_5.index t (0 : Fin 2) * 1 + 1 * (y 0).val = (y 0).val
    omega
  | ⟨1, _⟩ =>
    show win0_5.index t (1 : Fin 2) * 128 + 1 * (y 1).val = (y 1).val
    omega

theorem r0_idx6 : ∀ t : Fin cfg0.N, win0_6.index t (0 : Fin 2) = 0 ∧ win0_6.index t (1 : Fin 2) = 0 :=
  (by decide +kernel : ∀ t : Fin grid0.N, _)

theorem r0_whole6 (V : (c : Dev nD) → (b : Ref sig .tc) → Buf (Elt Ideal) ((c : Thread nD τ).loc b)) (c : Dev nD) (t : Fin cfg0.N) :
    (iblk0 V c 6 t : S1x8.Idx → EReal) = V c main_cst := by
  funext y
  show V c main_cst (((cfg0.win 6).blk t).view.emb y) = V c main_cst y
  congr 1
  funext a
  apply Fin.ext
  obtain ⟨e0, e1⟩ := r0_idx6 t
  match a with
  | ⟨0, _⟩ =>
    show win0_6.index t (0 : Fin 2) * 1 + 1 * (y 0).val = (y 0).val
    omega
  | ⟨1, _⟩ =>
    show win0_6.index t (1 : Fin 2) * 8 + 1 * (y 1).val = (y 1).val
    omega

theorem r0_idx7 : ∀ t : Fin cfg0.N, win0_7.index t (0 : Fin 2) = 0 ∧ win0_7.index t (1 : Fin 2) = 0 :=
  (by decide +kernel : ∀ t : Fin grid0.N, _)

theorem r0_whole7 (V : (c : Dev nD) → (b : Ref sig .tc) → Buf (Elt Ideal) ((c : Thread nD τ).loc b)) (c : Dev nD) (t : Fin cfg0.N) :
    (iblk0 V c 7 t : S1x128.Idx → EReal) = V c main_arg5 := by
  funext y
  show V c main_arg5 (((cfg0.win 7).blk t).view.emb y) = V c main_arg5 y
  congr 1
  funext a
  apply Fin.ext
  obtain ⟨e0, e1⟩ := r0_idx7 t
  match a with
  | ⟨0, _⟩ =>
    show win0_7.index t (0 : Fin 2) * 1 + 1 * (y 0).val = (y 0).val
    omega
  | ⟨1, _⟩ =>
    show win0_7.index t (1 : Fin 2) * 128 + 1 * (y 1).val = (y 1).val
    omega

theorem r0_idx8 : ∀ t : Fin cfg0.N, win0_8.index t (0 : Fin 2) = 0 ∧ win0_8.index t (1 : Fin 2) = 0 :=
  (by decide +kernel : ∀ t : Fin grid0.N, _)

theorem r0_whole8 (V : (c : Dev nD) → (b : Ref sig .tc) → Buf (Elt Ideal) ((c : Thread nD τ).loc b)) (c : Dev nD) (t : Fin cfg0.N) :
    (iblk0 V c 8 t : S1x128.Idx → EReal) = V c main_arg6 := by
  funext y
  show V c main_arg6 (((cfg0.win 8).blk t).view.emb y) = V c main_arg6 y
  congr 1
  funext a
  apply Fin.ext
  obtain ⟨e0, e1⟩ := r0_idx8 t
  match a with
  | ⟨0, _⟩ =>
    show win0_8.index t (0 : Fin 2) * 1 + 1 * (y 0).val = (y 0).val
    omega
  | ⟨1, _⟩ =>
    show win0_8.index t (1 : Fin 2) * 128 + 1 * (y 1).val = (y 1).val
    omega

theorem k_idx1 : ∀ t : Fin Cert.KernelIdeal.cfg0.N, Cert.KernelIdeal.win0_1.index t (0 : Fin 2) = 0 ∧ Cert.KernelIdeal.win0_1.index t (1 : Fin 2) = 0 :=
  (by decide +kernel : ∀ t : Fin Cert.KernelIdeal.grid0.N, _)

theorem k_whole1 (mK : (ℓ : Loc Cert.KernelIdeal.nD Cert.KernelIdeal.τ Cert.KernelIdeal.sig) → Buf (Elt Ideal) ℓ) (c : Dev Cert.KernelIdeal.nD) (t : Fin Cert.KernelIdeal.cfg0.N) :
    (Cert.KernelIdeal.Gen.iblk mK c 1 t : Cert.KernelIdeal.S3x256.Idx → EReal) = Cert.KernelIdeal.Gen.V mK c Cert.KernelIdeal.main_v2 := by
  funext y
  show Cert.KernelIdeal.Gen.V mK c Cert.KernelIdeal.main_v2 (((Cert.KernelIdeal.cfg0.win 1).blk t).view.emb y) = Cert.KernelIdeal.Gen.V mK c Cert.KernelIdeal.main_v2 y
  congr 1
  funext a
  apply Fin.ext
  obtain ⟨e0, e1⟩ := k_idx1 t
  match a with
  | ⟨0, _⟩ =>
    show Cert.KernelIdeal.win0_1.index t (0 : Fin 2) * 3 + 1 * (y 0).val = (y 0).val
    omega
  | ⟨1, _⟩ =>
    show Cert.KernelIdeal.win0_1.index t (1 : Fin 2) * 256 + 1 * (y 1).val = (y 1).val
    omega

theorem k_idx2 : ∀ t : Fin Cert.KernelIdeal.cfg0.N, Cert.KernelIdeal.win0_2.index t (0 : Fin 2) = 0 ∧ Cert.KernelIdeal.win0_2.index t (1 : Fin 2) = 0 :=
  (by decide +kernel : ∀ t : Fin Cert.KernelIdeal.grid0.N, _)

theorem k_whole2 (mK : (ℓ : Loc Cert.KernelIdeal.nD Cert.KernelIdeal.τ Cert.KernelIdeal.sig) → Buf (Elt Ideal) ℓ) (c : Dev Cert.KernelIdeal.nD) (t : Fin Cert.KernelIdeal.cfg0.N) :
    (Cert.KernelIdeal.Gen.iblk mK c 2 t : Cert.KernelIdeal.S17x128.Idx → EReal) = Cert.KernelIdeal.Gen.V mK c Cert.KernelIdeal.main_arg3 := by
  funext y
  show Cert.KernelIdeal.Gen.V mK c Cert.KernelIdeal.main_arg3 (((Cert.KernelIdeal.cfg0.win 2).blk t).view.emb y) = Cert.KernelIdeal.Gen.V mK c Cert.KernelIdeal.main_arg3 y
  congr 1
  funext a
  apply Fin.ext
  obtain ⟨e0, e1⟩ := k_idx2 t
  match a with
  | ⟨0, _⟩ =>
    show Cert.KernelIdeal.win0_2.index t (0 : Fin 2) * 17 + 1 * (y 0).val = (y 0).val
    omega
  | ⟨1, _⟩ =>
    show Cert.KernelIdeal.win0_2.index t (1 : Fin 2) * 128 + 1 * (y 1).val = (y 1).val
    omega

theorem k_idx3 : ∀ t : Fin Cert.KernelIdeal.cfg0.N, Cert.KernelIdeal.win0_3.index t (0 : Fin 2) = 0 ∧ Cert.KernelIdeal.win0_3.index t (1 : Fin 2) = 0 :=
  (by decide +kernel : ∀ t : Fin Cert.KernelIdeal.grid0.N, _)

theorem k_whole3 (mK : (ℓ : Loc Cert.KernelIdeal.nD Cert.KernelIdeal.τ Cert.KernelIdeal.sig) → Buf (Elt Ideal) ℓ) (c : Dev Cert.KernelIdeal.nD) (t : Fin Cert.KernelIdeal.cfg0.N) :
    (Cert.KernelIdeal.Gen.iblk mK c 3 t : Cert.KernelIdeal.S1x128.Idx → EReal) = Cert.KernelIdeal.Gen.V mK c Cert.KernelIdeal.main_arg4 := by
  funext y
  show Cert.KernelIdeal.Gen.V mK c Cert.KernelIdeal.main_arg4 (((Cert.KernelIdeal.cfg0.win 3).blk t).view.emb y) = Cert.KernelIdeal.Gen.V mK c Cert.KernelIdeal.main_arg4 y
  congr 1
  funext a
  apply Fin.ext
  obtain ⟨e0, e1⟩ := k_idx3 t
  match a with
  | ⟨0, _⟩ =>
    show Cert.KernelIdeal.win0_3.index t (0 : Fin 2) * 1 + 1 * (y 0).val = (y 0).val
    omega
  | ⟨1, _⟩ =>
    show Cert.KernelIdeal.win0_3.index t (1 : Fin 2) * 128 + 1 * (y 1).val = (y 1).val
    omega

theorem k_idx4 : ∀ t : Fin Cert.KernelIdeal.cfg0.N, Cert.KernelIdeal.win0_4.index t (0 : Fin 2) = 0 ∧ Cert.KernelIdeal.win0_4.index t (1 : Fin 2) = 0 :=
  (by decide +kernel : ∀ t : Fin Cert.KernelIdeal.grid0.N, _)

theorem k_whole4 (mK : (ℓ : Loc Cert.KernelIdeal.nD Cert.KernelIdeal.τ Cert.KernelIdeal.sig) → Buf (Elt Ideal) ℓ) (c : Dev Cert.KernelIdeal.nD) (t : Fin Cert.KernelIdeal.cfg0.N) :
    (Cert.KernelIdeal.Gen.iblk mK c 4 t : Cert.KernelIdeal.S1x128.Idx → EReal) = Cert.KernelIdeal.Gen.V mK c Cert.KernelIdeal.main_arg5 := by
  funext y
  show Cert.KernelIdeal.Gen.V mK c Cert.KernelIdeal.main_arg5 (((Cert.KernelIdeal.cfg0.win 4).blk t).view.emb y) = Cert.KernelIdeal.Gen.V mK c Cert.KernelIdeal.main_arg5 y
  congr 1
  funext a
  apply Fin.ext
  obtain ⟨e0, e1⟩ := k_idx4 t
  match a with
  | ⟨0, _⟩ =>
    show Cert.KernelIdeal.win0_4.index t (0 : Fin 2) * 1 + 1 * (y 0).val = (y 0).val
    omega
  | ⟨1, _⟩ =>
    show Cert.KernelIdeal.win0_4.index t (1 : Fin 2) * 128 + 1 * (y 1).val = (y 1).val
    omega

theorem k_idx5 : ∀ t : Fin Cert.KernelIdeal.cfg0.N, Cert.KernelIdeal.win0_5.index t (0 : Fin 2) = 0 ∧ Cert.KernelIdeal.win0_5.index t (1 : Fin 2) = 0 :=
  (by decide +kernel : ∀ t : Fin Cert.KernelIdeal.grid0.N, _)

theorem k_whole5 (mK : (ℓ : Loc Cert.KernelIdeal.nD Cert.KernelIdeal.τ Cert.KernelIdeal.sig) → Buf (Elt Ideal) ℓ) (c : Dev Cert.KernelIdeal.nD) (t : Fin Cert.KernelIdeal.cfg0.N) :
    (Cert.KernelIdeal.Gen.iblk mK c 5 t : Cert.KernelIdeal.S1x128.Idx → EReal) = Cert.KernelIdeal.Gen.V mK c Cert.KernelIdeal.main_arg6 := by
  funext y
  show Cert.KernelIdeal.Gen.V mK c Cert.KernelIdeal.main_arg6 (((Cert.KernelIdeal.cfg0.win 5).blk t).view.emb y) = Cert.KernelIdeal.Gen.V mK c Cert.KernelIdeal.main_arg6 y
  congr 1
  funext a
  apply Fin.ext
  obtain ⟨e0, e1⟩ := k_idx5 t
  match a with
  | ⟨0, _⟩ =>
    show Cert.KernelIdeal.win0_5.index t (0 : Fin 2) * 1 + 1 * (y 0).val = (y 0).val
    omega
  | ⟨1, _⟩ =>
    show Cert.KernelIdeal.win0_5.index t (1 : Fin 2) * 128 + 1 * (y 1).val = (y 1).val
    omega

theorem k_idx6 : ∀ t : Fin Cert.KernelIdeal.cfg0.N, Cert.KernelIdeal.win0_6.index t (0 : Fin 2) = 0 ∧ Cert.KernelIdeal.win0_6.index t (1 : Fin 2) = 0 :=
  (by decide +kernel : ∀ t : Fin Cert.KernelIdeal.grid0.N, _)

theorem k_whole6 (mK : (ℓ : Loc Cert.KernelIdeal.nD Cert.KernelIdeal.τ Cert.KernelIdeal.sig) → Buf (Elt Ideal) ℓ) (c : Dev Cert.KernelIdeal.nD) (t : Fin Cert.KernelIdeal.cfg0.N) :
    (Cert.KernelIdeal.Gen.iblk mK c 6 t : Cert.KernelIdeal.S1x64.Idx → EReal) = Cert.KernelIdeal.Gen.V mK c Cert.KernelIdeal.main_arg7 := by
  funext y
  show Cert.KernelIdeal.Gen.V mK c Cert.KernelIdeal.main_arg7 (((Cert.KernelIdeal.cfg0.win 6).blk t).view.emb y) = Cert.KernelIdeal.Gen.V mK c Cert.KernelIdeal.main_arg7 y
  congr 1
  funext a
  apply Fin.ext
  obtain ⟨e0, e1⟩ := k_idx6 t
  match a with
  | ⟨0, _⟩ =>
    show Cert.KernelIdeal.win0_6.index t (0 : Fin 2) * 1 + 1 * (y 0).val = (y 0).val
    omega
  | ⟨1, _⟩ =>
    show Cert.KernelIdeal.win0_6.index t (1 : Fin 2) * 64 + 1 * (y 1).val = (y 1).val
    omega

theorem k_idx7 : ∀ t : Fin Cert.KernelIdeal.cfg0.N, Cert.KernelIdeal.win0_7.index t (0 : Fin 2) = 0 ∧ Cert.KernelIdeal.win0_7.index t (1 : Fin 2) = 0 :=
  (by decide +kernel : ∀ t : Fin Cert.KernelIdeal.grid0.N, _)

theorem k_whole7 (mK : (ℓ : Loc Cert.KernelIdeal.nD Cert.KernelIdeal.τ Cert.KernelIdeal.sig) → Buf (Elt Ideal) ℓ) (c : Dev Cert.KernelIdeal.nD) (t : Fin Cert.KernelIdeal.cfg0.N) :
    (Cert.KernelIdeal.Gen.iblk mK c 7 t : Cert.KernelIdeal.S1x64.Idx → EReal) = Cert.KernelIdeal.Gen.V mK c Cert.KernelIdeal.main_arg8 := by
  funext y
  show Cert.KernelIdeal.Gen.V mK c Cert.KernelIdeal.main_arg8 (((Cert.KernelIdeal.cfg0.win 7).blk t).view.emb y) = Cert.KernelIdeal.Gen.V mK c Cert.KernelIdeal.main_arg8 y
  congr 1
  funext a
  apply Fin.ext
  obtain ⟨e0, e1⟩ := k_idx7 t
  match a with
  | ⟨0, _⟩ =>
    show Cert.KernelIdeal.win0_7.index t (0 : Fin 2) * 1 + 1 * (y 0).val = (y 0).val
    omega
  | ⟨1, _⟩ =>
    show Cert.KernelIdeal.win0_7.index t (1 : Fin 2) * 64 + 1 * (y 1).val = (y 1).val
    omega

end Cert.ReferenceIdeal.Arrays

end
-- ==== Proof.RefPrefix.lean ====
/-
  What the reference's regions find in the arrays they read.

  Before the z region the host operations cut the last atom's coordinates out of x ([256, 3]) and transpose them,
  cut the weight matrix into its sine rows 0 … 7, cosine rows 8 … 15 and self row 16, and materialise the table of
  scales; the other operands are arguments as launched. Before the m region one host operation lays m out as
  [2048, 64]; the z region has written only its own output, so the arguments are still as launched.
-/
import proofs.«179599_g2000505677692961_pallasbulk_1150_32_alg».proof.Proof.RefBlocks
import proofs.«179599_g2000505677692961_pallasbulk_1150_32_alg».proof.Proof.RefRun

set_option maxRecDepth 16384

noncomputable section

namespace Cert.ReferenceIdeal.Arrays

open Idealize.ShloMosaic Idealize.ShloMosaic.TcCoe Idealize.ShloMosaic.Tactic Idealize.ShloMosaic.ValueIdx Idealize.SL.Sem
  Cert.ReferenceIdeal Cert.ReferenceIdeal.Gen

variable (m : (ℓ : Loc nD τ sig) → Buf (Elt Ideal) ℓ) (ρ : Dev nD → PrngReg)

/-! ## Region 0's entry -/

theorem RV_v1 (c : Dev nD) : (V1 m ρ c main_v1 : S256x3.Idx → EReal)
    = Cert.KernelIdeal.Arrays.cbOf (m ((c : Thread nD τ).loc main_arg2)) := by
  show StableHlo.after hostOps0 (W0 m ρ c) (Proc.devRef .tc main_v1) = _
  after_results
  all_goals rfl

theorem RV_v2 (c : Dev nD) : (V1 m ρ c main_v2 : S3x256.Idx → EReal)
    = transpose Cert.KernelIdeal.S3x256 [1, 0] (Cert.KernelIdeal.Arrays.cbOf (m ((c : Thread nD τ).loc main_arg2)))
        Cert.KernelIdeal.Gen.transposes_S256x3_S3x256_1_0 := by
  show StableHlo.after hostOps0 (W0 m ρ c) (Proc.devRef .tc main_v2) = _
  after_results
  all_goals rfl

theorem RV_v3 (c : Dev nD) : (V1 m ρ c main_v3 : S8x128.Idx → EReal)
    = extractStridedSlice S8x128 ![0, 0] (m ((c : Thread nD τ).loc main_arg3)) slices_S17x128_S8x128_0_0 := by
  show StableHlo.after hostOps0 (W0 m ρ c) (Proc.devRef .tc main_v3) = _
  after_results
  all_goals rfl

theorem RV_v4 (c : Dev nD) : (V1 m ρ c main_v4 : S8x128.Idx → EReal)
    = extractStridedSlice S8x128 ![8, 0] (m ((c : Thread nD τ).loc main_arg3)) slices_S17x128_S8x128_8_0 := by
  show StableHlo.after hostOps0 (W0 m ρ c) (Proc.devRef .tc main_v4) = _
  after_results
  all_goals rfl

theorem RV_v5 (c : Dev nD) : (V1 m ρ c main_v5 : S1x128.Idx → EReal)
    = extractStridedSlice S1x128 ![16, 0] (m ((c : Thread nD τ).loc main_arg3)) slices_S17x128_S1x128_16_0 := by
  show StableHlo.after hostOps0 (W0 m ρ c) (Proc.devRef .tc main_v5) = _
  after_results
  all_goals rfl

theorem RV_cst (c : Dev nD) : (V1 m ρ c main_cst : S1x8.Idx → EReal)
    = fun i => Ideal.ofBits .f32 (lit0 (S1x8.rowMajor i)) := by
  show StableHlo.after hostOps0 (W0 m ρ c) (Proc.devRef .tc main_cst) = _
  after_results
  all_goals rfl

theorem RV_arg1 (c : Dev nD) : V1 m ρ c main_arg1 = m ((c : Thread nD τ).loc main_arg1) := by
  show StableHlo.after hostOps0 (W0 m ρ c) (Proc.devRef .tc main_arg1) = _
  after_results
  all_goals rfl

theorem RV_arg4 (c : Dev nD) : V1 m ρ c main_arg4 = m ((c : Thread nD τ).loc main_arg4) := by
  show StableHlo.after hostOps0 (W0 m ρ c) (Proc.devRef .tc main_arg4) = _
  after_results
  all_goals rfl

theorem RV_arg5 (c : Dev nD) : V1 m ρ c main_arg5 = m ((c : Thread nD τ).loc main_arg5) := by
  show StableHlo.after hostOps0 (W0 m ρ c) (Proc.devRef .tc main_arg5) = _
  after_results
  all_goals rfl

theorem RV_arg6 (c : Dev nD) : V1 m ρ c main_arg6 = m ((c : Thread nD τ).loc main_arg6) := by
  show StableHlo.after hostOps0 (W0 m ρ c) (Proc.devRef .tc main_arg6) = _
  after_results
  all_goals rfl

/-! ## Region 1's entry -/

theorem W2_arg (c : Dev nD) (b : Ref sig .tc) (hb : ∀ w, Pipeline.arrRef spec0 w ≠ b) :
    W2 m ρ c (Proc.devRef .tc b) = W1 m ρ c (Proc.devRef .tc b) :=
  W2_of_ne m ρ c b hb

theorem W1_arg0 (c : Dev nD) : W1 m ρ c (Proc.devRef .tc main_arg0) = m ((c : Thread nD τ).loc main_arg0) := by
  show StableHlo.after hostOps0 (W0 m ρ c) (Proc.devRef .tc main_arg0) = _
  after_results
  all_goals rfl

theorem RV_v7 (c : Dev nD) : (V3 m ρ c main_v7 : S2048x64.Idx → EReal)
    = shapeCast Cert.KernelIdeal.S2048x64 (m ((c : Thread nD τ).loc main_arg0)) Cert.KernelIdeal.Gen.shapeCasts_S8x256x64_S2048x64 := by
  show StableHlo.after hostOps1 (W2 m ρ c) (Proc.devRef .tc main_v7) = _
  after_results
  rw [W2_of_ne m ρ c main_arg0 (by decide), W1_arg0]
  all_goals rfl

theorem RV3_arg7 (c : Dev nD) : V3 m ρ c main_arg7 = m ((c : Thread nD τ).loc main_arg7) := by
  show StableHlo.after hostOps1 (W2 m ρ c) (Proc.devRef .tc main_arg7) = _
  after_results
  rw [W2_of_ne m ρ c main_arg7 (by decide)]
  show StableHlo.after hostOps0 (W0 m ρ c) (Proc.devRef .tc main_arg7) = _
  after_results
  all_goals rfl

theorem RV3_arg8 (c : Dev nD) : V3 m ρ c main_arg8 = m ((c : Thread nD τ).loc main_arg8) := by
  show StableHlo.after hostOps1 (W2 m ρ c) (Proc.devRef .tc main_arg8) = _
  after_results
  rw [W2_of_ne m ρ c main_arg8 (by decide)]
  show StableHlo.after hostOps0 (W0 m ρ c) (Proc.devRef .tc main_arg8) = _
  after_results
  all_goals rfl

end Cert.ReferenceIdeal.Arrays

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.RefBlock.lean ====
/-
  What the reference's two bodies store, per grid point, as functions of the point's input blocks, read at an index.

  z block (16 rows, all 256 columns): at (r, j, z) the normalised slab (the same closed `lnz` as the kernel's) plus
  bz, plus the projection: with d the distance at (r, j) — the same distance plane as the kernel's, kept as a column
  — the sum over k of sin (d · scale k) times the sine weights, the same for the cosines, d times the self weight, and
  the bias b. The two products run on the matrix unit over the slab's rows laid end to end ([4096, 8] by [8, 128]).

  m block (1024 rows): the row-wise layer normalisation, as in the kernel.
-/
import proofs.«179599_g2000505677692961_pallasbulk_1150_32_alg».proof.Proof.Gen.ReferenceIdeal.Skeleton
import proofs.«179599_g2000505677692961_pallasbulk_1150_32_alg».proof.Proof.KernelBlock
import proofs.«179599_g2000505677692961_pallasbulk_1150_32_alg».proof.Proof.LibPlainDot

noncomputable section

open scoped BigOperators

namespace Cert.ReferenceIdeal.Block

open Idealize.ShloMosaic Idealize.ShloMosaic.ValueIdx Idealize.ShloMosaic.LayoutRead
  Idealize.ShloMosaic.LayerNormRows Cert.ReferenceIdeal Cert.ReferenceIdeal.Gen

/-- The distance as the reference keeps it — a [16, 256, 1] column — is the kernel's distance plane. -/
theorem pay2_eq (x0 : Vec Ideal S16x3 .f32) (x1 : Vec Ideal S3x256 .f32) :
    k0_pay2 x0 x1 = shapeCast S16x256x1 (Cert.KernelIdeal.Gen.k0_pay2 x0 x1) shapeCasts_S16x256_S16x256x1 :=
  rfl

theorem pay2_apply (x0 : Vec Ideal S16x3 .f32) (x1 : Vec Ideal S3x256 .f32) (r : Fin 16) (j : Fin 256) (u : Fin 1) :
    k0_pay2 x0 x1 (ix3 r j u) = Cert.KernelIdeal.Gen.k0_pay2 x0 x1 (ix2 r j) := by
  rw [pay2_eq]
  exact shapeCast_ab_ab1_apply _ _ r j u

/-- The angles d · scale k, as a [16, 256, 8] array: the distance column times the row of scales. -/
def angles (v25 : FVec Ideal S16x256x1 .f32) (v26 : Vec Ideal S1x8 .f32) : FVec Ideal S16x256x8 .f32 :=
  mulf (broadcastTo S16x256x8 v25 broadcasts_S16x256x1_S16x256x8)
    (broadcastTo S16x256x8 (shapeCast S1x1x8 v26 shapeCasts_S1x8_S1x1x8) broadcasts_S1x1x8_S16x256x8)

theorem angles_apply (v25 : FVec Ideal S16x256x1 .f32) (v26 : Vec Ideal S1x8 .f32) (r : Fin 16) (j : Fin 256) (k : Fin 8) :
    angles v25 v26 (ix3 r j k) = v25 (ix3 r j (0 : Fin 1)) * v26 (ix2 (0 : Fin 1) k) := by
  show broadcastTo S16x256x8 v25 broadcasts_S16x256x1_S16x256x8 (ix3 r j k)
      * broadcastTo S16x256x8 (shapeCast S1x1x8 v26 shapeCasts_S1x8_S1x1x8) broadcasts_S1x1x8_S16x256x8 (ix3 r j k) = _
  rw [broadcastTo_ab1_abc_apply, broadcastTo_11c_abc_apply, shapeCast_ab_1ab_apply]

/-- The sine and cosine products, added and laid back as a [16, 256, 128] slab. -/
theorem pay3_eq (x0 : Vec Ideal S16x3 .f32) (x1 : Vec Ideal S3x256 .f32) (v26 : Vec Ideal S1x8 .f32)
    (v35 v38 : Vec Ideal S8x128 .f32) :
    k0_pay3 x0 x1 v26 v35 v38
      = shapeCast S16x256x128 (addf
          (matmul dot_S4096x8_S8x128_S4096x128_1_0_0_1_n_n (some .fp32)
            (shapeCast S4096x8 (sin (angles (k0_pay2 x0 x1) v26)) shapeCasts_S16x256x8_S4096x8)
            (shapeCast S8x128 v35 shapeCasts_S8x128_S8x128 : FVec Ideal S8x128 .f32) (constant S4096x128 .f32 0x00000000#32))
          (matmul dot_S4096x8_S8x128_S4096x128_1_0_0_1_n_n (some .fp32)
            (shapeCast S4096x8 (cos (angles (k0_pay2 x0 x1) v26)) shapeCasts_S16x256x8_S4096x8)
            (shapeCast S8x128 v38 shapeCasts_S8x128_S8x128 : FVec Ideal S8x128 .f32) (constant S4096x128 .f32 0x00000000#32)))
          shapeCasts_S4096x128_S16x256x128 :=
  rfl

theorem plain_dot : dot_S4096x8_S8x128_S4096x128_1_0_0_1_n_n = DotDims.plain 4096 8 128 := rfl

theorem pay3_apply (x0 : Vec Ideal S16x3 .f32) (x1 : Vec Ideal S3x256 .f32) (v26 : Vec Ideal S1x8 .f32)
    (v35 v38 : Vec Ideal S8x128 .f32) (r : Fin 16) (j : Fin 256) (z : Fin 128) :
    k0_pay3 x0 x1 v26 v35 v38 (ix3 r j z)
      = ∑ k : Fin 8, Ideal.sin (Cert.KernelIdeal.Gen.k0_pay2 x0 x1 (ix2 r j) * v26 (ix2 (0 : Fin 1) k)) * v35 (ix2 k z)
        + ∑ k : Fin 8, Ideal.cos (Cert.KernelIdeal.Gen.k0_pay2 x0 x1 (ix2 r j) * v26 (ix2 (0 : Fin 1) k)) * v38 (ix2 k z) := by
  have hq : r.val * 256 + j.val < 4096 := by have := r.isLt; have := j.isLt; omega
  rw [pay3_eq, shapeCast_mc_abc_apply _ _ r j z (⟨r.val * 256 + j.val, hq⟩ : Fin 4096) rfl, plain_dot]
  show FloatOps.matmul (DotDims.plain 4096 8 128) (some .fp32)
        (shapeCast S4096x8 (sin (angles (k0_pay2 x0 x1) v26)) shapeCasts_S16x256x8_S4096x8)
        (shapeCast S8x128 v35 shapeCasts_S8x128_S8x128 : FVec Ideal S8x128 .f32) (constant (⟨2, ![4096, 128]⟩ : Shape) .f32 0x00000000#32)
        (ix2 (⟨r.val * 256 + j.val, hq⟩ : Fin 4096) z)
      + FloatOps.matmul (DotDims.plain 4096 8 128) (some .fp32)
        (shapeCast S4096x8 (cos (angles (k0_pay2 x0 x1) v26)) shapeCasts_S16x256x8_S4096x8)
        (shapeCast S8x128 v38 shapeCasts_S8x128_S8x128 : FVec Ideal S8x128 .f32) (constant (⟨2, ![4096, 128]⟩ : Shape) .f32 0x00000000#32)
        (ix2 (⟨r.val * 256 + j.val, hq⟩ : Fin 4096) z) = _
  rw [PlainDot.matmul_zero_apply, PlainDot.matmul_zero_apply]
  congr 1
  · refine Finset.sum_congr rfl fun k _ => ?_
    rw [shapeCast_abc_mc_apply _ _ r j k (⟨r.val * 256 + j.val, hq⟩ : Fin 4096) rfl, shapeCast_self]
    show Ideal.sin (angles (k0_pay2 x0 x1) v26 (ix3 r j k)) * _ = _
    rw [angles_apply, pay2_apply]
  · refine Finset.sum_congr rfl fun k _ => ?_
    rw [shapeCast_abc_mc_apply _ _ r j k (⟨r.val * 256 + j.val, hq⟩ : Fin 4096) rfl, shapeCast_self]
    show Ideal.cos (angles (k0_pay2 x0 x1) v26 (ix3 r j k)) * _ = _
    rw [angles_apply, pay2_apply]

/-- The stored value: the normalised slab plus bz, plus the projection with the self term and the bias b. -/
theorem pay1_eq (v25 : FVec Ideal S16x256x1 .f32) (v42 : FVec Ideal S16x256x128 .f32) (v43 v50 : Vec Ideal S1x128 .f32)
    (v54 : Vec Ideal S16x256x128 .f32) (v73 v77 : Vec Ideal S1x128 .f32) :
    k0_pay1 v25 v42 v43 v50 v54 v73 v77
      = addf
          (addf (Cert.KernelIdeal.Block.lnz v54 v73)
            (broadcastTo S16x256x128 (shapeCast S1x1x128 v77 shapeCasts_S1x128_S1x1x128) broadcasts_S1x1x128_S16x256x128))
          (addf
            (addf v42 (mulf (broadcastTo S16x256x128 v25 broadcasts_S16x256x1_S16x256x128)
              (broadcastTo S16x256x128
                (shapeCast S1x1x128 (shapeCast S1x128 v43 shapeCasts_S1x128_S1x128) shapeCasts_S1x128_S1x1x128)
                broadcasts_S1x1x128_S16x256x128)))
            (broadcastTo S16x256x128 (shapeCast S1x1x128 v50 shapeCasts_S1x128_S1x1x128) broadcasts_S1x1x128_S16x256x128)) :=
  rfl

theorem pay1_apply (v25 : FVec Ideal S16x256x1 .f32) (v42 : FVec Ideal S16x256x128 .f32) (v43 v50 : Vec Ideal S1x128 .f32)
    (v54 : Vec Ideal S16x256x128 .f32) (v73 v77 : Vec Ideal S1x128 .f32) (r : Fin 16) (j : Fin 256) (z : Fin 128) :
    k0_pay1 v25 v42 v43 v50 v54 v73 v77 (ix3 r j z)
      = (Cert.KernelIdeal.Block.lnz v54 v73 (ix3 r j z) + v77 (ix2 (0 : Fin 1) z))
        + ((v42 (ix3 r j z) + v25 (ix3 r j (0 : Fin 1)) * v43 (ix2 (0 : Fin 1) z)) + v50 (ix2 (0 : Fin 1) z)) := by
  rw [pay1_eq]
  show (Cert.KernelIdeal.Block.lnz v54 v73 (ix3 r j z)
        + broadcastTo S16x256x128 (shapeCast S1x1x128 v77 shapeCasts_S1x128_S1x1x128) broadcasts_S1x1x128_S16x256x128 (ix3 r j z))
      + ((v42 (ix3 r j z) + broadcastTo S16x256x128 v25 broadcasts_S16x256x1_S16x256x128 (ix3 r j z)
            * broadcastTo S16x256x128
                (shapeCast S1x1x128 (shapeCast S1x128 v43 shapeCasts_S1x128_S1x128) shapeCasts_S1x128_S1x1x128)
                broadcasts_S1x1x128_S16x256x128 (ix3 r j z))
          + broadcastTo S16x256x128 (shapeCast S1x1x128 v50 shapeCasts_S1x128_S1x1x128) broadcasts_S1x1x128_S16x256x128 (ix3 r j z)) = _
  rw [broadcastTo_11c_abc_apply, broadcastTo_11c_abc_apply, broadcastTo_11c_abc_apply, broadcastTo_ab1_abc_apply,
    shapeCast_ab_1ab_apply, shapeCast_ab_1ab_apply, shapeCast_ab_1ab_apply, shapeCast_self]

/-- What the reference stores into its z window at a grid point, from the point's blocks. -/
def zBlock (x0 : Vec Ideal S16x3 .f32) (x1 : Vec Ideal S3x256 .f32) (wsin wcos : Vec Ideal S8x128 .f32)
    (wself b : Vec Ideal S1x128 .f32) (inv : Vec Ideal S1x8 .f32) (gz bz : Vec Ideal S1x128 .f32)
    (zb : Vec Ideal S16x256x128 .f32) : FVec Ideal S16x256x128 .f32 :=
  k0_pay1 (k0_pay2 x0 x1) (k0_pay3 x0 x1 inv wsin wcos) wself b zb gz bz

theorem zBlock_apply (x0 : Vec Ideal S16x3 .f32) (x1 : Vec Ideal S3x256 .f32) (wsin wcos : Vec Ideal S8x128 .f32)
    (wself b : Vec Ideal S1x128 .f32) (inv : Vec Ideal S1x8 .f32) (gz bz : Vec Ideal S1x128 .f32)
    (zb : Vec Ideal S16x256x128 .f32) (r : Fin 16) (j : Fin 256) (z : Fin 128) :
    zBlock x0 x1 wsin wcos wself b inv gz bz zb (ix3 r j z)
      = (Cert.KernelIdeal.Block.lnz zb gz (ix3 r j z) + bz (ix2 (0 : Fin 1) z))
        + (((∑ k : Fin 8, Ideal.sin (Cert.KernelIdeal.Gen.k0_pay2 x0 x1 (ix2 r j) * inv (ix2 (0 : Fin 1) k)) * wsin (ix2 k z)
              + ∑ k : Fin 8, Ideal.cos (Cert.KernelIdeal.Gen.k0_pay2 x0 x1 (ix2 r j) * inv (ix2 (0 : Fin 1) k)) * wcos (ix2 k z))
            + Cert.KernelIdeal.Gen.k0_pay2 x0 x1 (ix2 r j) * wself (ix2 (0 : Fin 1) z))
          + b (ix2 (0 : Fin 1) z)) := by
  unfold zBlock
  rw [pay1_apply, pay3_apply, pay2_apply]

/-- What the reference stores into its m window at a grid point is the row-wise layer normalisation of the point's
    1024-row block. -/
theorem mBlock_eq (x : Vec Ideal S1024x64 .f32) (gm bm : Vec Ideal S1x64 .f32) :
    k1_pay1 x gm bm
      = lnBlock (shapeCast S1024x64 x shapeCasts_S1024x64_S1024x64) gm bm 0x42800000#32 0x3727C5AC#32
          reduces_S1024x64_S1024 (.inl rfl) rfl shapeCasts_S1024_S1024x1 broadcasts_S1024x1_S1024x64 broadcasts_S1x64_S1024x64 :=
  rfl

theorem mBlock_apply (x : Vec Ideal S1024x64 .f32) (gm bm : Vec Ideal S1x64 .f32) (y : Fin 1024) (c : Fin 64) :
    k1_pay1 x gm bm (ix2 y c)
      = lnRow (Ideal.ofBits .f32 0x42800000#32) (Ideal.ofBits .f32 0x3727C5AC#32) (fun k => x (ix2 y k))
          (gm (ix2 (0 : Fin 1) c)) (bm (ix2 (0 : Fin 1) c)) c := by
  refine (lnBlock_apply (shapeCast S1024x64 x shapeCasts_S1024x64_S1024x64) gm bm 0x42800000#32 0x3727C5AC#32
    reduces_S1024x64_S1024 (.inl rfl) rfl shapeCasts_S1024_S1024x1 broadcasts_S1024x1_S1024x64 broadcasts_S1x64_S1024x64 y c).trans ?_
  rw [shapeCast_self]

end Cert.ReferenceIdeal.Block

end
-- ==== Proof.Features.lean ====
/-
  The mathematics that joins the two programs' pair-feature projection.

  For a REAL distance d the kernel computes sin (d/2ᵏ) and cos (d/2ᵏ), k = 0 … 7, from sin (d/2⁷) and cos (d/2⁷) by
  7 − k half-angle doublings; the reference takes the sine and cosine of d · 2⁻ᵏ directly, the scale 2⁻ᵏ read from a
  table of literals. The literals 2, 1 and 2⁻ᵏ are exact binary floats, so at the ideal values they are those real
  numbers, and the doubling chain after 7 − k steps from the angle d/128 reaches the angle d/2ᵏ exactly. Both programs
  then weight the seventeen features (eight sines, eight cosines, d) by the same seventeen weights; the kernel adds the
  sum of the two biases before the projection, the reference one bias before and one after: addition of extended reals
  is commutative and associative, so the totals agree.
-/
import Idealize.ShloMosaic.PureOps.Ideal
import proofs.«179599_g2000505677692961_pallasbulk_1150_32_alg».proof.Proof.LibHalfAngle

noncomputable section

open scoped BigOperators

namespace Cert.Features

open Idealize.ShloMosaic HalfAngle

/-- The reference's table of scales 2⁻ᵏ, k = 0 … 7, as bit patterns. -/
def scale : Fin 8 → BitVec 32 :=
  ![0x3F800000#32, 0x3F000000#32, 0x3E800000#32, 0x3E000000#32, 0x3D800000#32, 0x3D000000#32, 0x3C800000#32, 0x3C000000#32]

theorem lit_two : Ideal.ofBits .f32 0x40000000#32 = ((2 : ℝ) : EReal) := by
  simp [Ideal.ofBits, Ideal.ieee, -EReal.coe_mul]; norm_num

theorem lit_one : Ideal.ofBits .f32 0x3F800000#32 = ((1 : ℝ) : EReal) := by
  simp [Ideal.ofBits, Ideal.ieee, -EReal.coe_mul]; norm_num

theorem lit_c7 : Ideal.ofBits .f32 0x3C000000#32 = ((1 / 128 : ℝ) : EReal) := by
  simp [Ideal.ofBits, Ideal.ieee, -EReal.coe_mul]; norm_num

/-- Entry k of the table is the real number 1 / 2ᵏ. -/
theorem lit_scale (k : Fin 8) : Ideal.ofBits .f32 (scale k) = ((((2 : ℝ) ^ k.val)⁻¹ : ℝ) : EReal) := by
  fin_cases k <;> simp [scale, Ideal.ofBits, Ideal.ieee, -EReal.coe_mul] <;> norm_num

/-- After 7 − k doublings from the angle d/128 the chain holds the sine and cosine of d · 2⁻ᵏ. -/
theorem chain_feature (d : ℝ) (k : Fin 8) :
    chain (Ideal.ofBits .f32 0x40000000#32) (Ideal.ofBits .f32 0x3F800000#32)
        (Ideal.sin ((d : EReal) * Ideal.ofBits .f32 0x3C000000#32))
        (Ideal.cos ((d : EReal) * Ideal.ofBits .f32 0x3C000000#32)) (7 - k.val)
      = (Ideal.sin ((d : EReal) * Ideal.ofBits .f32 (scale k)), Ideal.cos ((d : EReal) * Ideal.ofBits .f32 (scale k))) := by
  rw [lit_two, lit_one, lit_c7, lit_scale k, ← EReal.coe_mul, ← EReal.coe_mul, Ideal.sin_coe, Ideal.cos_coe,
    Ideal.sin_coe, Ideal.cos_coe, chain_real]
  have h : (2 : ℝ) ^ (7 - k.val) * (d * (1 / 128)) = d * ((2 : ℝ) ^ k.val)⁻¹ := by
    fin_cases k <;> norm_num <;> ring
  rw [h]

/-- The two programs' z entries agree: A is the normalised slab entry, bz and b the two biases, wv the seventeen
    weights of the output channel. -/
theorem z_bridge (d : ℝ) (wv : Fin 17 → EReal) (A bz b : EReal) :
    (A + (bz + b))
        + ((∑ k : Fin 8, (chain (Ideal.ofBits .f32 0x40000000#32) (Ideal.ofBits .f32 0x3F800000#32)
                (Ideal.sin ((d : EReal) * Ideal.ofBits .f32 0x3C000000#32))
                (Ideal.cos ((d : EReal) * Ideal.ofBits .f32 0x3C000000#32)) (7 - k.val)).1 * wv (Fin.castSucc (Fin.castAdd 8 k))
            + ∑ k : Fin 8, (chain (Ideal.ofBits .f32 0x40000000#32) (Ideal.ofBits .f32 0x3F800000#32)
                (Ideal.sin ((d : EReal) * Ideal.ofBits .f32 0x3C000000#32))
                (Ideal.cos ((d : EReal) * Ideal.ofBits .f32 0x3C000000#32)) (7 - k.val)).2 * wv (Fin.castSucc (Fin.natAdd 8 k)))
          + (d : EReal) * wv (Fin.last 16))
      = (A + bz)
        + (((∑ k : Fin 8, Ideal.sin ((d : EReal) * Ideal.ofBits .f32 (scale k)) * wv (Fin.castSucc (Fin.castAdd 8 k))
              + ∑ k : Fin 8, Ideal.cos ((d : EReal) * Ideal.ofBits .f32 (scale k)) * wv (Fin.castSucc (Fin.natAdd 8 k)))
            + (d : EReal) * wv (Fin.last 16))
          + b) := by
  simp only [chain_feature]
  ac_rfl

end Cert.Features

end
-- ==== Proof.Bridge.lean ====
/-
  The two programs' z blocks agree.

  At a grid point both bodies see the same blocks: sixteen rows of the coordinates, all of the transposed
  coordinates, the z slab, gz, bz and b; the kernel sees the whole [17, 128] weight matrix, the reference its three
  row bands (sines, cosines, self) and the table of scales 2⁻ᵏ. When the coordinates are real numbers the distance
  at (r, j) is a real number — the square root of a sum of three squares — and then the kernel's block and the
  reference's block are equal entry by entry (Features.z_bridge).
-/
import proofs.«179599_g2000505677692961_pallasbulk_1150_32_alg».proof.Proof.KernelBlock
import proofs.«179599_g2000505677692961_pallasbulk_1150_32_alg».proof.Proof.RefBlock
import proofs.«179599_g2000505677692961_pallasbulk_1150_32_alg».proof.Proof.Features

noncomputable section

open scoped BigOperators

namespace Cert.Bridge

open Idealize.ShloMosaic Idealize.ShloMosaic.ValueIdx Idealize.ShloMosaic.LayoutRead Cert.KernelIdeal Cert.KernelIdeal.Gen

/-- Column c of the sixteen coordinate rows, broadcast along the 256 columns, read at (r, j): the entry (r, c). -/
theorem col_apply (v : S16x3.Idx → EReal) (c : ℕ) (hc : c < 3) (hs : S16x3.Slices ![0, c] S16x1)
    (hb : S16x1.Broadcasts S16x256) (r : Fin 16) (j : Fin 256) :
    broadcastTo S16x256 (extractStridedSlice S16x1 ![0, c] v hs) hb (ix2 r j) = v (ix2 r (⟨c, hc⟩ : Fin 3)) := by
  rw [broadcastTo_a1_ab_apply]
  refine extractStridedSlice_apply ![0, c] v hs (ix2 r (0 : Fin 1)) (ix2 r (⟨c, hc⟩ : Fin 3)) ?_
  intro a
  match a with
  | ⟨0, _⟩ => show r.val = 0 + r.val; omega
  | ⟨1, _⟩ => show c = c + 0; rfl

/-- Row c of the transposed coordinates, broadcast along the sixteen rows, read at (r, j): the entry (c, j). -/
theorem row_apply (v : S3x256.Idx → EReal) (c : ℕ) (hc : c < 3) (hs : S3x256.Slices ![c, 0] S1x256)
    (hb : S1x256.Broadcasts S16x256) (r : Fin 16) (j : Fin 256) :
    broadcastTo S16x256 (extractStridedSlice S1x256 ![c, 0] v hs) hb (ix2 r j) = v (ix2 (⟨c, hc⟩ : Fin 3) j) := by
  rw [broadcastTo_1b_ab_apply]
  refine extractStridedSlice_apply ![c, 0] v hs (ix2 (0 : Fin 1) j) (ix2 (⟨c, hc⟩ : Fin 3) j) ?_
  intro a
  match a with
  | ⟨0, _⟩ => show c = c + 0; rfl
  | ⟨1, _⟩ => show j.val = 0 + j.val; omega

/-- The distance plane at (r, j): the square root of the sum over the three axes of the squared difference of
    row r's coordinate and column j's. -/
theorem dist_apply (x0 : Vec Ideal S16x3 .f32) (x1 : Vec Ideal S3x256 .f32) (r : Fin 16) (j : Fin 256) :
    k0_pay2 x0 x1 (ix2 r j)
      = Ideal.sqrt (((x0 (ix2 r (0 : Fin 3)) - x1 (ix2 (0 : Fin 3) j)) * (x0 (ix2 r (0 : Fin 3)) - x1 (ix2 (0 : Fin 3) j))
          + (x0 (ix2 r (1 : Fin 3)) - x1 (ix2 (1 : Fin 3) j)) * (x0 (ix2 r (1 : Fin 3)) - x1 (ix2 (1 : Fin 3) j)))
          + (x0 (ix2 r (2 : Fin 3)) - x1 (ix2 (2 : Fin 3) j)) * (x0 (ix2 r (2 : Fin 3)) - x1 (ix2 (2 : Fin 3) j))) := by
  have a0 := col_apply (shapeCast S16x3 x0 shapeCasts_S16x3_S16x3) 0 (by decide) slices_S16x3_o0_0_S16x1 broadcasts_S16x1_S16x256 r j
  have a1 := col_apply (shapeCast S16x3 x0 shapeCasts_S16x3_S16x3) 1 (by decide) slices_S16x3_o0_1_S16x1 broadcasts_S16x1_S16x256 r j
  have a2 := col_apply (shapeCast S16x3 x0 shapeCasts_S16x3_S16x3) 2 (by decide) slices_S16x3_o0_2_S16x1 broadcasts_S16x1_S16x256 r j
  have b0 := row_apply (shapeCast S3x256 x1 shapeCasts_S3x256_S3x256) 0 (by decide) slices_S3x256_o0_0_S1x256 broadcasts_S1x256_S16x256 r j
  have b1 := row_apply (shapeCast S3x256 x1 shapeCasts_S3x256_S3x256) 1 (by decide) slices_S3x256_o1_0_S1x256 broadcasts_S1x256_S16x256 r j
  have b2 := row_apply (shapeCast S3x256 x1 shapeCasts_S3x256_S3x256) 2 (by decide) slices_S3x256_o2_0_S1x256 broadcasts_S1x256_S16x256 r j
  rw [shapeCast_self] at a0 a1 a2 b0 b1 b2
  show Ideal.sqrt ((
      (broadcastTo S16x256 (extractStridedSlice S16x1 ![0, 0] (shapeCast S16x3 x0 shapeCasts_S16x3_S16x3) slices_S16x3_o0_0_S16x1) broadcasts_S16x1_S16x256 (ix2 r j)
        - broadcastTo S16x256 (extractStridedSlice S1x256 ![0, 0] (shapeCast S3x256 x1 shapeCasts_S3x256_S3x256) slices_S3x256_o0_0_S1x256) broadcasts_S1x256_S16x256 (ix2 r j))
      * (broadcastTo S16x256 (extractStridedSlice S16x1 ![0, 0] (shapeCast S16x3 x0 shapeCasts_S16x3_S16x3) slices_S16x3_o0_0_S16x1) broadcasts_S16x1_S16x256 (ix2 r j)
        - broadcastTo S16x256 (extractStridedSlice S1x256 ![0, 0] (shapeCast S3x256 x1 shapeCasts_S3x256_S3x256) slices_S3x256_o0_0_S1x256) broadcasts_S1x256_S16x256 (ix2 r j))
      + (broadcastTo S16x256 (extractStridedSlice S16x1 ![0, 1] (shapeCast S16x3 x0 shapeCasts_S16x3_S16x3) slices_S16x3_o0_1_S16x1) broadcasts_S16x1_S16x256 (ix2 r j)
        - broadcastTo S16x256 (extractStridedSlice S1x256 ![1, 0] (shapeCast S3x256 x1 shapeCasts_S3x256_S3x256) slices_S3x256_o1_0_S1x256) broadcasts_S1x256_S16x256 (ix2 r j))
      * (broadcastTo S16x256 (extractStridedSlice S16x1 ![0, 1] (shapeCast S16x3 x0 shapeCasts_S16x3_S16x3) slices_S16x3_o0_1_S16x1) broadcasts_S16x1_S16x256 (ix2 r j)
        - broadcastTo S16x256 (extractStridedSlice S1x256 ![1, 0] (shapeCast S3x256 x1 shapeCasts_S3x256_S3x256) slices_S3x256_o1_0_S1x256) broadcasts_S1x256_S16x256 (ix2 r j)))
      + (broadcastTo S16x256 (extractStridedSlice S16x1 ![0, 2] (shapeCast S16x3 x0 shapeCasts_S16x3_S16x3) slices_S16x3_o0_2_S16x1) broadcasts_S16x1_S16x256 (ix2 r j)
        - broadcastTo S16x256 (extractStridedSlice S1x256 ![2, 0] (shapeCast S3x256 x1 shapeCasts_S3x256_S3x256) slices_S3x256_o2_0_S1x256) broadcasts_S1x256_S16x256 (ix2 r j))
      * (broadcastTo S16x256 (extractStridedSlice S16x1 ![0, 2] (shapeCast S16x3 x0 shapeCasts_S16x3_S16x3) slices_S16x3_o0_2_S16x1) broadcasts_S16x1_S16x256 (ix2 r j)
        - broadcastTo S16x256 (extractStridedSlice S1x256 ![2, 0] (shapeCast S3x256 x1 shapeCasts_S3x256_S3x256) slices_S3x256_o2_0_S1x256) broadcasts_S1x256_S16x256 (ix2 r j))) = _
  rw [col_apply _ 0 (by decide), col_apply _ 1 (by decide), col_apply _ 2 (by decide), row_apply _ 0 (by decide),
    row_apply _ 1 (by decide), row_apply _ 2 (by decide), shapeCast_self, shapeCast_self]
  rfl

/-- With real coordinates the distance is a real number. -/
theorem dist_real (x0 : Vec Ideal S16x3 .f32) (x1 : Vec Ideal S3x256 .f32)
    (h0 : ∀ i, ∃ a : ℝ, x0 i = (a : EReal)) (h1 : ∀ i, ∃ a : ℝ, x1 i = (a : EReal)) (r : Fin 16) (j : Fin 256) :
    ∃ d : ℝ, k0_pay2 x0 x1 (ix2 r j) = (d : EReal) := by
  obtain ⟨a0, e0⟩ := h0 (ix2 r (0 : Fin 3))
  obtain ⟨a1, e1⟩ := h0 (ix2 r (1 : Fin 3))
  obtain ⟨a2, e2⟩ := h0 (ix2 r (2 : Fin 3))
  obtain ⟨b0, f0⟩ := h1 (ix2 (0 : Fin 3) j)
  obtain ⟨b1, f1⟩ := h1 (ix2 (1 : Fin 3) j)
  obtain ⟨b2, f2⟩ := h1 (ix2 (2 : Fin 3) j)
  refine ⟨Real.sqrt ((a0 - b0) * (a0 - b0) + (a1 - b1) * (a1 - b1) + (a2 - b2) * (a2 - b2)), ?_⟩
  rw [dist_apply, e0, e1, e2, f0, f1, f2]
  simp only [← EReal.coe_sub, ← EReal.coe_mul, ← EReal.coe_add]
  rw [Ideal.sqrt_coe, if_neg]
  have : 0 ≤ (a0 - b0) * (a0 - b0) + (a1 - b1) * (a1 - b1) + (a2 - b2) * (a2 - b2) :=
    add_nonneg (add_nonneg (mul_self_nonneg _) (mul_self_nonneg _)) (mul_self_nonneg _)
  exact not_lt.mpr this

/-- THE BLOCKS AGREE: with real coordinates, the reference's bands being the rows of the kernel's weight matrix and
    its scales the table 2⁻ᵏ, the reference's z block is the kernel's. -/
theorem zBlocks_agree (x0 : Vec Ideal S16x3 .f32) (x1 : Vec Ideal S3x256 .f32) (w : Vec Ideal S17x128 .f32)
    (wsin wcos : Vec Ideal Cert.ReferenceIdeal.S8x128 .f32) (wself b : Vec Ideal S1x128 .f32) (inv : Vec Ideal Cert.ReferenceIdeal.S1x8 .f32)
    (gz bz : Vec Ideal S1x128 .f32) (zb : Vec Ideal S16x256x128 .f32)
    (h0 : ∀ i, ∃ a : ℝ, x0 i = (a : EReal)) (h1 : ∀ i, ∃ a : ℝ, x1 i = (a : EReal))
    (hsin : ∀ (k : Fin 8) (z : Fin 128), wsin (ix2 k z) = w (ix2 (Fin.castSucc (Fin.castAdd 8 k)) z))
    (hcos : ∀ (k : Fin 8) (z : Fin 128), wcos (ix2 k z) = w (ix2 (Fin.castSucc (Fin.natAdd 8 k)) z))
    (hself : ∀ z : Fin 128, wself (ix2 (0 : Fin 1) z) = w (ix2 (Fin.last 16) z))
    (hinv : ∀ k : Fin 8, inv (ix2 (0 : Fin 1) k) = Ideal.ofBits .f32 (Cert.Features.scale k)) :
    Cert.ReferenceIdeal.Block.zBlock x0 x1 wsin wcos wself b inv gz bz zb
      = Cert.KernelIdeal.Block.zBlock x0 x1 w b gz bz zb := by
  funext i
  obtain ⟨r, j, z, rfl⟩ : ∃ (r : Fin 16) (j : Fin 256) (z : Fin 128), i = ix3 r j z := ⟨i 0, i 1, i 2, eq_ix3 i⟩
  rw [Cert.ReferenceIdeal.Block.zBlock_apply, Cert.KernelIdeal.Block.zBlock_apply]
  obtain ⟨d, hd⟩ := dist_real x0 x1 h0 h1 r j
  rw [hd]
  simp only [hsin, hcos, hself, hinv]
  exact (Cert.Features.z_bridge d (fun f => w (ix2 f z)) _ _ _).symm

end Cert.Bridge

end
-- ==== Proof.RefZ.lean ====
/-
  The reference's z array is the kernel's.

  At grid point (t, 0) the reference's z region reads the kernel's blocks of point t (RefBlocks, RefPrefix: the same
  rows of the same arrays, given that the two memories agree on the arguments), its weight bands are rows 0 … 7,
  8 … 15 and 16 of the kernel's weight matrix, and its scales are the table 2⁻ᵏ. With real coordinates the two z
  blocks are then equal (Bridge), so the point writes back its block of the kernel's function `Gz`; the sixteen
  blocks cover the array.
-/
import proofs.«179599_g2000505677692961_pallasbulk_1150_32_alg».proof.Proof.RefPrefix
import proofs.«179599_g2000505677692961_pallasbulk_1150_32_alg».proof.Proof.Bridge

set_option maxRecDepth 16384

noncomputable section

namespace Cert.ReferenceIdeal.Arrays

open Idealize.ShloMosaic Idealize.ShloMosaic.TcCoe Idealize.ShloMosaic.Tactic Idealize.ShloMosaic.ValueIdx Idealize.SL.Sem
  Cert.ReferenceIdeal Cert.ReferenceIdeal.Gen
open Idealize.ShloMosaic.Pipeline (Dat)

variable (mK : (ℓ : Loc Cert.KernelIdeal.nD Cert.KernelIdeal.τ Cert.KernelIdeal.sig) → Buf (Elt Ideal) ℓ)
variable (m : (ℓ : Loc nD τ sig) → Buf (Elt Ideal) ℓ) (ρ : Dev nD → PrngReg)

/-- The moving windows of the reference's z region: point t takes slab t. -/
theorem r0_move : ∀ t : Fin cfg0.N,
    win0_0.index t (0 : Fin 2) = t.val ∧ win0_0.index t (1 : Fin 2) = 0
    ∧ win0_9.index t (0 : Fin 3) = t.val ∧ win0_9.index t (1 : Fin 3) = 0 ∧ win0_9.index t (2 : Fin 3) = 0
    ∧ win0_10.index t (0 : Fin 3) = t.val ∧ win0_10.index t (1 : Fin 3) = 0 ∧ win0_10.index t (2 : Fin 3) = 0 :=
  (by decide +kernel : ∀ t : Fin grid0.N, _)

/-- The same for the kernel's moving input windows. -/
theorem k_move : ∀ t : Fin Cert.KernelIdeal.cfg0.N,
    Cert.KernelIdeal.win0_0.index t (0 : Fin 2) = t.val ∧ Cert.KernelIdeal.win0_0.index t (1 : Fin 2) = 0
    ∧ Cert.KernelIdeal.win0_9.index t (0 : Fin 3) = t.val ∧ Cert.KernelIdeal.win0_9.index t (1 : Fin 3) = 0
    ∧ Cert.KernelIdeal.win0_9.index t (2 : Fin 3) = 0 :=
  (by decide +kernel : ∀ t : Fin Cert.KernelIdeal.grid0.N, _)

/-- The kernel's point with the same number. -/
def tK (t : Fin cfg0.N) : Fin Cert.KernelIdeal.cfg0.N :=
  ⟨t.val, by
    have h : t.val < grid0.N := t.isLt
    rw [N_0] at h
    show t.val < Cert.KernelIdeal.grid0.N
    rw [Cert.KernelIdeal.Gen.N_0]
    exact h⟩

/-- Every entry of the coordinates cut out of x is an entry of x. -/
theorem real_cbOf (x : Cert.KernelIdeal.S256x4x3.Idx → EReal) (hx : ∀ i, ∃ a : ℝ, x i = (a : EReal))
    (j : Cert.KernelIdeal.S256x3.Idx) : ∃ a : ℝ, Cert.KernelIdeal.Arrays.cbOf x j = (a : EReal) := by
  unfold Cert.KernelIdeal.Arrays.cbOf shapeCast extractStridedSlice
  exact hx _

theorem real_cbtOf (x : Cert.KernelIdeal.S256x4x3.Idx → EReal) (hx : ∀ i, ∃ a : ℝ, x i = (a : EReal))
    (j : Cert.KernelIdeal.S3x256.Idx) :
    ∃ a : ℝ, transpose Cert.KernelIdeal.S3x256 [1, 0] (Cert.KernelIdeal.Arrays.cbOf x)
      Cert.KernelIdeal.Gen.transposes_S256x3_S3x256_1_0 j = (a : EReal) := by
  unfold transpose
  exact real_cbOf x hx _

/-- The sixteen coordinate rows of point t are the kernel's. -/
theorem rows_eq (c : Dev nD) (t : Fin cfg0.N)
    (hA : (V1 m ρ c main_v1 : S256x3.Idx → EReal) = Cert.KernelIdeal.Gen.V mK c Cert.KernelIdeal.main_v1) :
    ((iblk0 (V1 m ρ) c 0 t) : S16x3.Idx → EReal) = (Cert.KernelIdeal.Gen.iblk mK c 0 (tK t)) := by
  funext y
  show V1 m ρ c main_v1 (((cfg0.win 0).blk t).view.emb y)
    = Cert.KernelIdeal.Gen.V mK c Cert.KernelIdeal.main_v1 (((Cert.KernelIdeal.cfg0.win 0).blk (tK t)).view.emb y)
  rw [hA]
  congr 1

/-- The z slab of point t is the kernel's. -/
theorem slab_eq (c : Dev nD) (t : Fin cfg0.N)
    (hA : (V1 m ρ c main_arg1 : S256x256x128.Idx → EReal) = Cert.KernelIdeal.Gen.V mK c Cert.KernelIdeal.main_arg1) :
    ((iblk0 (V1 m ρ) c 9 t) : S16x256x128.Idx → EReal) = (Cert.KernelIdeal.Gen.iblk mK c 9 (tK t)) := by
  funext y
  show V1 m ρ c main_arg1 (((cfg0.win 9).blk t).view.emb y)
    = Cert.KernelIdeal.Gen.V mK c Cert.KernelIdeal.main_arg1 (((Cert.KernelIdeal.cfg0.win 9).blk (tK t)).view.emb y)
  rw [hA]
  congr 1
  funext a
  apply Fin.ext
  obtain ⟨-, -, e0, e1, e2, -⟩ := r0_move t
  obtain ⟨-, -, f0, f1, f2⟩ := k_move (tK t)
  have htk : (tK t).val = t.val := rfl
  match a with
  | ⟨0, _⟩ =>
    show win0_9.index t (0 : Fin 3) * 16 + 1 * (y 0).val = Cert.KernelIdeal.win0_9.index (tK t) (0 : Fin 3) * 16 + 1 * (y 0).val
    omega
  | ⟨1, _⟩ =>
    show win0_9.index t (1 : Fin 3) * 256 + 1 * (y 1).val = Cert.KernelIdeal.win0_9.index (tK t) (1 : Fin 3) * 256 + 1 * (y 1).val
    omega
  | ⟨2, _⟩ =>
    show win0_9.index t (2 : Fin 3) * 128 + 1 * (y 2).val = Cert.KernelIdeal.win0_9.index (tK t) (2 : Fin 3) * 128 + 1 * (y 2).val
    omega

/-- What point t of the reference's z region writes back is block t of the kernel's `Gz`: the two memories agree on
    the arguments z, x, w, b, gz, bz, and every entry of x is a real number. -/
theorem flushed_z (c : Dev nD) (t : Fin cfg0.N)
    (hx : ∀ i, ∃ a : ℝ, m ((c : Thread nD τ).loc main_arg2) i = (a : EReal))
    (h1 : m ((c : Thread nD τ).loc main_arg1) = mK ((c : Thread Cert.KernelIdeal.nD Cert.KernelIdeal.τ).loc Cert.KernelIdeal.main_arg1))
    (h2 : m ((c : Thread nD τ).loc main_arg2) = mK ((c : Thread Cert.KernelIdeal.nD Cert.KernelIdeal.τ).loc Cert.KernelIdeal.main_arg2))
    (h3 : m ((c : Thread nD τ).loc main_arg3) = mK ((c : Thread Cert.KernelIdeal.nD Cert.KernelIdeal.τ).loc Cert.KernelIdeal.main_arg3))
    (h4 : m ((c : Thread nD τ).loc main_arg4) = mK ((c : Thread Cert.KernelIdeal.nD Cert.KernelIdeal.τ).loc Cert.KernelIdeal.main_arg4))
    (h5 : m ((c : Thread nD τ).loc main_arg5) = mK ((c : Thread Cert.KernelIdeal.nD Cert.KernelIdeal.τ).loc Cert.KernelIdeal.main_arg5))
    (h6 : m ((c : Thread nD τ).loc main_arg6) = mK ((c : Thread Cert.KernelIdeal.nD Cert.KernelIdeal.τ).loc Cert.KernelIdeal.main_arg6)) :
    (dat0 (V1 m ρ) c).flushed 10 t = ((cfg0.win 10).blk t).view.read (Elt Ideal) (Cert.KernelIdeal.Arrays.Gz mK c) := by
  show (cfg0.win 10).cut (grid0.coords t) ((dat0 (V1 m ρ) c).after 10 t) = _
  rw [after0_10]
  unfold out0_10
  rw [View.canon_unit_zero Cert.KernelIdeal.Arrays.hz3]
  simp only [View.ld_unit_zero (S := S16x3) Cert.KernelIdeal.Arrays.hz2, View.ld_unit_zero (S := S3x256) Cert.KernelIdeal.Arrays.hz2,
    View.ld_unit_zero (S := S1x8) Cert.KernelIdeal.Arrays.hz2, View.ld_unit_zero (S := S8x128) Cert.KernelIdeal.Arrays.hz2,
    View.ld_unit_zero (S := S1x128) Cert.KernelIdeal.Arrays.hz2, View.ld_unit_zero (S := S16x256x128) Cert.KernelIdeal.Arrays.hz3]
  -- the blocks, one by one
  have b0 : ((iblk0 (V1 m ρ) c 0 t) : S16x3.Idx → EReal) = (Cert.KernelIdeal.Gen.iblk mK c 0 (tK t)) :=
    rows_eq mK m ρ c t ((RV_v1 m ρ c).trans ((congrArg Cert.KernelIdeal.Arrays.cbOf h2).trans (Cert.KernelIdeal.Arrays.V_v1 mK c).symm))
  have b1 : ((iblk0 (V1 m ρ) c 1 t) : S3x256.Idx → EReal) = (Cert.KernelIdeal.Gen.iblk mK c 1 (tK t)) :=
    (r0_whole1 (V1 m ρ) c t).trans ((RV_v2 m ρ c).trans ((congrArg (fun x => transpose Cert.KernelIdeal.S3x256 [1, 0]
      (Cert.KernelIdeal.Arrays.cbOf x) Cert.KernelIdeal.Gen.transposes_S256x3_S3x256_1_0) h2).trans
      ((Cert.KernelIdeal.Arrays.V_v2 mK c).symm.trans (k_whole1 mK c (tK t)).symm)))
  have b5 : ((iblk0 (V1 m ρ) c 5 t) : S1x128.Idx → EReal) = (Cert.KernelIdeal.Gen.iblk mK c 3 (tK t)) :=
    (r0_whole5 (V1 m ρ) c t).trans ((RV_arg4 m ρ c).trans (h4.trans ((Cert.KernelIdeal.Gen.V_main_arg4 mK c).symm.trans (k_whole3 mK c (tK t)).symm)))
  have b7 : ((iblk0 (V1 m ρ) c 7 t) : S1x128.Idx → EReal) = (Cert.KernelIdeal.Gen.iblk mK c 4 (tK t)) :=
    (r0_whole7 (V1 m ρ) c t).trans ((RV_arg5 m ρ c).trans (h5.trans ((Cert.KernelIdeal.Gen.V_main_arg5 mK c).symm.trans (k_whole4 mK c (tK t)).symm)))
  have b8 : ((iblk0 (V1 m ρ) c 8 t) : S1x128.Idx → EReal) = (Cert.KernelIdeal.Gen.iblk mK c 5 (tK t)) :=
    (r0_whole8 (V1 m ρ) c t).trans ((RV_arg6 m ρ c).trans (h6.trans ((Cert.KernelIdeal.Gen.V_main_arg6 mK c).symm.trans (k_whole5 mK c (tK t)).symm)))
  have b9 : ((iblk0 (V1 m ρ) c 9 t) : S16x256x128.Idx → EReal) = (Cert.KernelIdeal.Gen.iblk mK c 9 (tK t)) :=
    slab_eq mK m ρ c t ((RV_arg1 m ρ c).trans (h1.trans (Cert.KernelIdeal.Gen.V_main_arg1 mK c).symm))
  -- the kernel's weight matrix at its point
  have kw : ∀ i, (Cert.KernelIdeal.Gen.iblk mK c 2 (tK t)) i = mK ((c : Thread Cert.KernelIdeal.nD Cert.KernelIdeal.τ).loc Cert.KernelIdeal.main_arg3) i := fun i =>
    congrFun ((k_whole2 mK c (tK t)).trans (Cert.KernelIdeal.Gen.V_main_arg3 mK c)) i
  have hsin : ∀ (k : Fin 8) (z : Fin 128), (iblk0 (V1 m ρ) c 2 t) (ix2 k z) = (Cert.KernelIdeal.Gen.iblk mK c 2 (tK t)) (ix2 (Fin.castSucc (Fin.castAdd 8 k)) z) := by
    intro k z
    rw [kw, ← h3]
    refine (congrFun ((r0_whole2 (V1 m ρ) c t).trans (RV_v3 m ρ c)) (ix2 k z)).trans ?_
    refine extractStridedSlice_apply ![0, 0] _ slices_S17x128_S8x128_0_0 (ix2 k z) (ix2 (Fin.castSucc (Fin.castAdd 8 k)) z) ?_
    intro a
    match a with
    | ⟨0, _⟩ => show k.val = 0 + k.val; omega
    | ⟨1, _⟩ => show z.val = 0 + z.val; omega
  have hcos : ∀ (k : Fin 8) (z : Fin 128), (iblk0 (V1 m ρ) c 3 t) (ix2 k z) = (Cert.KernelIdeal.Gen.iblk mK c 2 (tK t)) (ix2 (Fin.castSucc (Fin.natAdd 8 k)) z) := by
    intro k z
    rw [kw, ← h3]
    refine (congrFun ((r0_whole3 (V1 m ρ) c t).trans (RV_v4 m ρ c)) (ix2 k z)).trans ?_
    refine extractStridedSlice_apply ![8, 0] _ slices_S17x128_S8x128_8_0 (ix2 k z) (ix2 (Fin.castSucc (Fin.natAdd 8 k)) z) ?_
    intro a
    match a with
    | ⟨0, _⟩ => show 8 + k.val = 8 + k.val; rfl
    | ⟨1, _⟩ => show z.val = 0 + z.val; omega
  have hself : ∀ z : Fin 128, (iblk0 (V1 m ρ) c 4 t) (ix2 (0 : Fin 1) z) = (Cert.KernelIdeal.Gen.iblk mK c 2 (tK t)) (ix2 (Fin.last 16) z) := by
    intro z
    rw [kw, ← h3]
    refine (congrFun ((r0_whole4 (V1 m ρ) c t).trans (RV_v5 m ρ c)) (ix2 (0 : Fin 1) z)).trans ?_
    refine extractStridedSlice_apply ![16, 0] _ slices_S17x128_S1x128_16_0 (ix2 (0 : Fin 1) z) (ix2 (Fin.last 16) z) ?_
    intro a
    match a with
    | ⟨0, _⟩ => show 16 = 16 + 0; rfl
    | ⟨1, _⟩ => show z.val = 0 + z.val; omega
  have hinv : ∀ k : Fin 8, (iblk0 (V1 m ρ) c 6 t) (ix2 (0 : Fin 1) k) = Ideal.ofBits .f32 (Cert.Features.scale k) := by
    intro k
    refine (congrFun ((r0_whole6 (V1 m ρ) c t).trans (RV_cst m ρ c)) (ix2 (0 : Fin 1) k)).trans ?_
    fin_cases k <;> rfl
  have hr0 : ∀ i, ∃ a : ℝ, (iblk0 (V1 m ρ) c 0 t) i = (a : EReal) := by
    intro i
    show ∃ a : ℝ, V1 m ρ c main_v1 (((cfg0.win 0).blk t).view.emb i) = (a : EReal)
    rw [RV_v1]
    exact real_cbOf _ hx _
  have hr1 : ∀ i, ∃ a : ℝ, (iblk0 (V1 m ρ) c 1 t) i = (a : EReal) := by
    intro i
    rw [congrFun ((r0_whole1 (V1 m ρ) c t).trans (RV_v2 m ρ c)) i]
    exact real_cbtOf _ hx _
  have hz := Cert.Bridge.zBlocks_agree (iblk0 (V1 m ρ) c 0 t) (iblk0 (V1 m ρ) c 1 t) (Cert.KernelIdeal.Gen.iblk mK c 2 (tK t)) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t)
    hr0 hr1 hsin hcos hself hinv
  obtain ⟨-, -, -, -, -, e0, e1, e2⟩ := r0_move t
  funext y
  show Block.zBlock (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (iblk0 (V1 m ρ) c 7 t) (iblk0 (V1 m ρ) c 8 t) (iblk0 (V1 m ρ) c 9 t) y
    = Cert.KernelIdeal.Arrays.Gz mK c (((cfg0.win 10).blk t).view.emb y)
  refine (congrFun hz y).trans ?_
  rw [b0, b1, b5, b7, b8, b9]
  refine (Cert.KernelIdeal.Arrays.Gz_at mK c (tK t) y _ ?_ ?_).symm
  · apply Fin.ext
    show (win0_10.index t (0 : Fin 3) * 16 + 1 * (y 0).val) / 16 = t.val
    have hy : (y 0).val < 16 := (y 0).isLt
    omega
  · funext a
    apply Fin.ext
    match a with
    | ⟨0, _⟩ =>
      show (win0_10.index t (0 : Fin 3) * 16 + 1 * (y 0).val) % 16 = (y 0).val
      have hy : (y 0).val < 16 := (y 0).isLt
      omega
    | ⟨1, _⟩ =>
      show win0_10.index t (1 : Fin 3) * 256 + 1 * (y 1).val = (y 1).val
      omega
    | ⟨2, _⟩ =>
      show win0_10.index t (2 : Fin 3) * 128 + 1 * (y 2).val = (y 2).val
      omega

/-- An index of the reference's z array is in point t's block iff each coordinate is in the block's range. -/
theorem mem_blk_z (t : Fin cfg0.N) (i : S256x256x128.Idx) :
    i ∈ ((cfg0.win 10).blk t).view.set ↔ ∀ a : Fin 3, win0_10.index t a * S16x256x128.size a ≤ (i a).val
      ∧ (i a).val < win0_10.index t a * S16x256x128.size a + S16x256x128.size a := by
  show i ∈ ((View.whole main_v6).slice (win0_10.rect t)).set ↔ _
  rw [View.set_slice_whole, Rect.mem_set_unit]
  exact Iff.rfl

/-- The sixteen slabs cover it. -/
theorem cover_z (i : S256x256x128.Idx) :
    ∃ t : Fin cfg0.N, (cfg0.win 10).flush t = true ∧ i ∈ ((cfg0.win 10).blk t).view.set := by
  have h0 : (i 0).val < 256 := (i 0).isLt
  have h1 : (i 1).val < 256 := (i 1).isLt
  have h2 : (i 2).val < 128 := (i 2).isLt
  have hN : grid0.N = 16 := N_0
  let t : Fin cfg0.N := ⟨(i 0).val / 16, by show _ < grid0.N; rw [hN]; omega⟩
  refine ⟨t, flush0_10 _, ?_⟩
  rw [mem_blk_z]
  obtain ⟨-, -, -, -, -, e0, e1, e2⟩ := r0_move t
  have ht : t.val = (i 0).val / 16 := rfl
  intro a
  match a with
  | ⟨0, _⟩ =>
    show win0_10.index t (0 : Fin 3) * 16 ≤ (i 0).val ∧ (i 0).val < win0_10.index t (0 : Fin 3) * 16 + 16
    omega
  | ⟨1, _⟩ =>
    show win0_10.index t (1 : Fin 3) * 256 ≤ (i 1).val ∧ (i 1).val < win0_10.index t (1 : Fin 3) * 256 + 256
    omega
  | ⟨2, _⟩ =>
    show win0_10.index t (2 : Fin 3) * 128 ≤ (i 2).val ∧ (i 2).val < win0_10.index t (2 : Fin 3) * 128 + 128
    omega

/-- THE REFERENCE'S z ARRAY is the kernel's `Gz`. -/
theorem final_z (c : Dev nD)
    (hx : ∀ i, ∃ a : ℝ, m ((c : Thread nD τ).loc main_arg2) i = (a : EReal))
    (h1 : m ((c : Thread nD τ).loc main_arg1) = mK ((c : Thread Cert.KernelIdeal.nD Cert.KernelIdeal.τ).loc Cert.KernelIdeal.main_arg1))
    (h2 : m ((c : Thread nD τ).loc main_arg2) = mK ((c : Thread Cert.KernelIdeal.nD Cert.KernelIdeal.τ).loc Cert.KernelIdeal.main_arg2))
    (h3 : m ((c : Thread nD τ).loc main_arg3) = mK ((c : Thread Cert.KernelIdeal.nD Cert.KernelIdeal.τ).loc Cert.KernelIdeal.main_arg3))
    (h4 : m ((c : Thread nD τ).loc main_arg4) = mK ((c : Thread Cert.KernelIdeal.nD Cert.KernelIdeal.τ).loc Cert.KernelIdeal.main_arg4))
    (h5 : m ((c : Thread nD τ).loc main_arg5) = mK ((c : Thread Cert.KernelIdeal.nD Cert.KernelIdeal.τ).loc Cert.KernelIdeal.main_arg5))
    (h6 : m ((c : Thread nD τ).loc main_arg6) = mK ((c : Thread Cert.KernelIdeal.nD Cert.KernelIdeal.τ).loc Cert.KernelIdeal.main_arg6)) :
    (dat0 (V1 m ρ) c).arrAt 10 cfg0.N = Cert.KernelIdeal.Arrays.Gz mK c :=
  (dat0 (V1 m ρ) c).arrAt_eq_of_cover 10 (Cert.KernelIdeal.Arrays.Gz mK c)
    (fun t _ => flushed_z mK m ρ c t hx h1 h2 h3 h4 h5 h6) (cover_z)

end Cert.ReferenceIdeal.Arrays

end
-- ==== Proof.RefM.lean ====
/-
  The reference's m array is the kernel's.

  The reference normalises m, laid out as [2048, 64], in two blocks of 1024 rows; the kernel in sixteen blocks of 128
  rows. The normalisation is row by row (LibLayerNormRows), so the entry (i, c) is the normalisation of row i of
  that array with the affine pair at column c, whichever block row i falls in: the reference's block t writes back
  its block of the kernel's function `Gm`, and the two blocks cover the array.
-/
import proofs.«179599_g2000505677692961_pallasbulk_1150_32_alg».proof.Proof.RefPrefix
import proofs.«179599_g2000505677692961_pallasbulk_1150_32_alg».proof.Proof.RefBlock

set_option maxRecDepth 16384

noncomputable section

namespace Cert.ReferenceIdeal.Arrays

open Idealize.ShloMosaic Idealize.ShloMosaic.TcCoe Idealize.ShloMosaic.Tactic Idealize.ShloMosaic.ValueIdx Idealize.SL.Sem
  Idealize.ShloMosaic.LayerNormRows Cert.ReferenceIdeal Cert.ReferenceIdeal.Gen
open Idealize.ShloMosaic.Pipeline (Dat)

variable (mK : (ℓ : Loc Cert.KernelIdeal.nD Cert.KernelIdeal.τ Cert.KernelIdeal.sig) → Buf (Elt Ideal) ℓ)
variable (m : (ℓ : Loc nD τ sig) → Buf (Elt Ideal) ℓ) (ρ : Dev nD → PrngReg)

/-- The index maps of the reference's m region: the slab windows move with the point, the affine pair does not. -/
theorem r1_idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The kernel's m slab window moves with the point. -/
theorem k_idx8 : ∀ t : Fin Cert.KernelIdeal.cfg0.N,
    Cert.KernelIdeal.win0_8.index t (0 : Fin 2) = t.val ∧ Cert.KernelIdeal.win0_8.index t (1 : Fin 2) = 0 :=
  (by decide +kernel : ∀ t : Fin Cert.KernelIdeal.grid0.N, _)

theorem r1_whole1 (V : (c : Dev nD) → (b : Ref sig .tc) → Buf (Elt Ideal) ((c : Thread nD τ).loc b)) (c : Dev nD) (t : Fin cfg1.N) :
    (iblk1 V c 1 t : S1x64.Idx → EReal) = V c main_arg7 := by
  funext y
  show V c main_arg7 (((cfg1.win 1).blk t).view.emb y) = V c main_arg7 y
  congr 1
  funext a
  apply Fin.ext
  obtain ⟨-, -, e0, e1, -⟩ := r1_idx t
  match a with
  | ⟨0, _⟩ =>
    show win1_1.index t (0 : Fin 2) * 1 + 1 * (y 0).val = (y 0).val
    omega
  | ⟨1, _⟩ =>
    show win1_1.index t (1 : Fin 2) * 64 + 1 * (y 1).val = (y 1).val
    omega

theorem r1_whole2 (V : (c : Dev nD) → (b : Ref sig .tc) → Buf (Elt Ideal) ((c : Thread nD τ).loc b)) (c : Dev nD) (t : Fin cfg1.N) :
    (iblk1 V c 2 t : S1x64.Idx → EReal) = V c main_arg8 := by
  funext y
  show V c main_arg8 (((cfg1.win 2).blk t).view.emb y) = V c main_arg8 y
  congr 1
  funext a
  apply Fin.ext
  obtain ⟨-, -, -, -, e0, e1, -⟩ := r1_idx t
  match a with
  | ⟨0, _⟩ =>
    show win1_2.index t (0 : Fin 2) * 1 + 1 * (y 0).val = (y 0).val
    omega
  | ⟨1, _⟩ =>
    show win1_2.index t (1 : Fin 2) * 64 + 1 * (y 1).val = (y 1).val
    omega

/-- Equal rows, equal affine pairs, equal column: equal normalised entries. -/
theorem lnRow_congr (n eps : EReal) (row row' : Fin 64 → EReal) (g g' β β' : EReal) (c c' : Fin 64)
    (hr : row = row') (hg : g = g') (hβ : β = β') (hc : c = c') :
    lnRow n eps row g β c = lnRow n eps row' g' β' c' := by
  subst hr; subst hg; subst hβ; subst hc; rfl

/-- What point t of the reference's m region writes back is block t of the kernel's `Gm`: the two memories agree on
    m, gm and bm. -/
theorem flushed_m (c : Dev nD) (t : Fin cfg1.N)
    (h0 : m ((c : Thread nD τ).loc main_arg0) = mK ((c : Thread Cert.KernelIdeal.nD Cert.KernelIdeal.τ).loc Cert.KernelIdeal.main_arg0))
    (h7 : m ((c : Thread nD τ).loc main_arg7) = mK ((c : Thread Cert.KernelIdeal.nD Cert.KernelIdeal.τ).loc Cert.KernelIdeal.main_arg7))
    (h8 : m ((c : Thread nD τ).loc main_arg8) = mK ((c : Thread Cert.KernelIdeal.nD Cert.KernelIdeal.τ).loc Cert.KernelIdeal.main_arg8)) :
    (dat1 (V3 m ρ) c).flushed 3 t = ((cfg1.win 3).blk t).view.read (Elt Ideal) (Cert.KernelIdeal.Arrays.Gm mK c) := by
  show (cfg1.win 3).cut (grid1.coords t) ((dat1 (V3 m ρ) c).after 3 t) = _
  rw [after1_3]
  unfold out1_3
  rw [View.canon_unit_zero Cert.KernelIdeal.Arrays.hz2]
  simp only [View.ld_unit_zero (S := S1024x64) Cert.KernelIdeal.Arrays.hz2, View.ld_unit_zero (S := S1x64) Cert.KernelIdeal.Arrays.hz2]
  obtain ⟨e00, e01, -, -, -, -, e30, e31⟩ := r1_idx t
  have hV7 : (V3 m ρ c main_v7 : S2048x64.Idx → EReal) = Cert.KernelIdeal.Gen.V mK c Cert.KernelIdeal.main_v3 :=
    (RV_v7 m ρ c).trans ((congrArg (fun x => shapeCast Cert.KernelIdeal.S2048x64 x Cert.KernelIdeal.Gen.shapeCasts_S8x256x64_S2048x64) h0).trans
      (Cert.KernelIdeal.Arrays.V_v3 mK c).symm)
  funext y
  obtain ⟨y0, y1, rfl⟩ : ∃ (y0 : Fin 1024) (y1 : Fin 64), y = ix2 y0 y1 := ⟨y 0, y 1, eq_ix2 y⟩
  show k1_pay1 (iblk1 (V3 m ρ) c 0 t) (iblk1 (V3 m ρ) c 1 t) (iblk1 (V3 m ρ) c 2 t) (ix2 y0 y1)
    = Cert.KernelIdeal.Arrays.Gm mK c (((cfg1.win 3).blk t).view.emb (ix2 y0 y1))
  rw [Block.mBlock_apply]
  have hi0 : ((((cfg1.win 3).blk t).view.emb (ix2 y0 y1)) 0).val = t.val * 1024 + y0.val := by
    show win1_3.index t (0 : Fin 2) * 1024 + 1 * y0.val = _
    omega
  have hi1 : ((((cfg1.win 3).blk t).view.emb (ix2 y0 y1)) 1).val = y1.val := by
    show win1_3.index t (1 : Fin 2) * 64 + 1 * y1.val = _
    omega
  generalize hi : ((cfg1.win 3).blk t).view.emb (ix2 y0 y1) = i at hi0 hi1
  rw [Cert.KernelIdeal.Arrays.Gm_at mK c (Cert.KernelIdeal.Arrays.tOfM i) (Cert.KernelIdeal.Arrays.locM i) i rfl rfl]
  show _ = Cert.KernelIdeal.Gen.k0_pay1
      (Cert.KernelIdeal.Gen.k0_pay81 (Cert.KernelIdeal.Gen.iblk mK c 8 (Cert.KernelIdeal.Arrays.tOfM i)))
      (Cert.KernelIdeal.Gen.k0_pay82 (Cert.KernelIdeal.Gen.iblk mK c 8 (Cert.KernelIdeal.Arrays.tOfM i)))
      (Cert.KernelIdeal.Gen.k0_pay83 (Cert.KernelIdeal.Gen.iblk mK c 8 (Cert.KernelIdeal.Arrays.tOfM i)))
      (Cert.KernelIdeal.Gen.iblk mK c 6 (Cert.KernelIdeal.Arrays.tOfM i))
      (Cert.KernelIdeal.Gen.iblk mK c 7 (Cert.KernelIdeal.Arrays.tOfM i))
      (ix2 (⟨(i 0).val % 128, Nat.mod_lt _ (by decide)⟩ : Fin 128) (⟨(i 1).val, (i 1).isLt⟩ : Fin 64))
  rw [Cert.KernelIdeal.Block.mBlock_apply]
  have hc : y1 = (⟨(i 1).val, (i 1).isLt⟩ : Fin 64) := Fin.ext hi1.symm
  obtain ⟨f0, f1⟩ := k_idx8 (Cert.KernelIdeal.Arrays.tOfM i)
  have htm : (Cert.KernelIdeal.Arrays.tOfM i).val = (i 0).val / 128 := rfl
  refine lnRow_congr _ _ _ _ _ _ _ _ _ _ ?_ ?_ ?_ hc
  · funext k
    show V3 m ρ c main_v7 (((cfg1.win 0).blk t).view.emb (ix2 y0 k))
      = Cert.KernelIdeal.Gen.V mK c Cert.KernelIdeal.main_v3
          (((Cert.KernelIdeal.cfg0.win 8).blk (Cert.KernelIdeal.Arrays.tOfM i)).view.emb
            (ix2 (⟨(i 0).val % 128, Nat.mod_lt _ (by decide)⟩ : Fin 128) k))
    rw [hV7]
    congr 1
    funext a
    apply Fin.ext
    match a with
    | ⟨0, _⟩ =>
      show win1_0.index t (0 : Fin 2) * 1024 + 1 * y0.val
        = Cert.KernelIdeal.win0_8.index (Cert.KernelIdeal.Arrays.tOfM i) (0 : Fin 2) * 128 + 1 * ((i 0).val % 128)
      omega
    | ⟨1, _⟩ =>
      show win1_0.index t (1 : Fin 2) * 64 + 1 * k.val
        = Cert.KernelIdeal.win0_8.index (Cert.KernelIdeal.Arrays.tOfM i) (1 : Fin 2) * 64 + 1 * k.val
      omega
  · rw [← hc]
    exact congrFun ((r1_whole1 (V3 m ρ) c t).trans ((RV3_arg7 m ρ c).trans (h7.trans
      ((Cert.KernelIdeal.Gen.V_main_arg7 mK c).symm.trans (k_whole6 mK c (Cert.KernelIdeal.Arrays.tOfM i)).symm)))) (ix2 (0 : Fin 1) y1)
  · rw [← hc]
    exact congrFun ((r1_whole2 (V3 m ρ) c t).trans ((RV3_arg8 m ρ c).trans (h8.trans
      ((Cert.KernelIdeal.Gen.V_main_arg8 mK c).symm.trans (k_whole7 mK c (Cert.KernelIdeal.Arrays.tOfM i)).symm)))) (ix2 (0 : Fin 1) y1)

/-- An index of the reference's m array is in point t's block iff each coordinate is in the block's range. -/
theorem mem_blk_m (t : Fin cfg1.N) (i : S2048x64.Idx) :
    i ∈ ((cfg1.win 3).blk t).view.set ↔ ∀ a : Fin 2, win1_3.index t a * S1024x64.size a ≤ (i a).val
      ∧ (i a).val < win1_3.index t a * S1024x64.size a + S1024x64.size a := by
  show i ∈ ((View.whole main_v8).slice (win1_3.rect t)).set ↔ _
  rw [View.set_slice_whole, Rect.mem_set_unit]
  exact Iff.rfl

/-- The two blocks cover it. -/
theorem cover_m (i : S2048x64.Idx) :
    ∃ t : Fin cfg1.N, (cfg1.win 3).flush t = true ∧ i ∈ ((cfg1.win 3).blk t).view.set := by
  have h0 : (i 0).val < 2048 := (i 0).isLt
  have h1 : (i 1).val < 64 := (i 1).isLt
  have hN : grid1.N = 2 := N_1
  let t : Fin cfg1.N := ⟨(i 0).val / 1024, by show _ < grid1.N; rw [hN]; omega⟩
  refine ⟨t, flush1_3 _, ?_⟩
  rw [mem_blk_m]
  obtain ⟨-, -, -, -, -, -, e0, e1⟩ := r1_idx t
  have ht : t.val = (i 0).val / 1024 := rfl
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 64 ≤ (i 1).val ∧ (i 1).val < win1_3.index t (1 : Fin 2) * 64 + 64
    omega

/-- THE REFERENCE'S m ARRAY is the kernel's `Gm`. -/
theorem final_m (c : Dev nD)
    (h0 : m ((c : Thread nD τ).loc main_arg0) = mK ((c : Thread Cert.KernelIdeal.nD Cert.KernelIdeal.τ).loc Cert.KernelIdeal.main_arg0))
    (h7 : m ((c : Thread nD τ).loc main_arg7) = mK ((c : Thread Cert.KernelIdeal.nD Cert.KernelIdeal.τ).loc Cert.KernelIdeal.main_arg7))
    (h8 : m ((c : Thread nD τ).loc main_arg8) = mK ((c : Thread Cert.KernelIdeal.nD Cert.KernelIdeal.τ).loc Cert.KernelIdeal.main_arg8)) :
    (dat1 (V3 m ρ) c).arrAt 3 cfg1.N = Cert.KernelIdeal.Arrays.Gm mK c :=
  (dat1 (V3 m ρ) c).arrAt_eq_of_cover 3 (Cert.KernelIdeal.Arrays.Gm mK c)
    (fun t _ => flushed_m mK m ρ c t h0 h7 h8) (cover_m)

end Cert.ReferenceIdeal.Arrays

end
-- ==== Proof.Finite.lean ====
/-
  The precondition, decoded for the coordinate array: every entry of x is a real number.

  The precondition is the conjunction, array by array, of "every entry's absolute value is below +∞" (a comparison
  against the bit pattern of +∞, reduced by "and" over the whole array). An extended real whose absolute value
  max x (−x) is below +∞ is neither infinity, hence a real.
-/
import proofs.«179599_g2000505677692961_pallasbulk_1150_32_alg».proof.Pre_finite_inputs
import Idealize.ShloMosaic.Lib.ReduceAll
import Idealize.ShloMosaic.Lib.Affine
import Idealize.ShloMosaic.Lib.ValueIdx

noncomputable section

namespace Cert.Finite

open Idealize.ShloMosaic Idealize.ShloMosaic.ValueIdx Cert.Pre_finite_inputs

instance : Subsingleton S_.Idx := ⟨fun a b => funext fun d => d.elim0⟩

/-- The bit pattern 0x7F800000 is +∞. -/
theorem lit_inf : Ideal.ofBits .f32 0x7F800000#32 = (⊤ : EReal) := by
  simp [Ideal.ofBits, Ideal.ieee]

/-- An extended real with |x| < +∞ is a real number. -/
theorem real_of_abs_lt (x : EReal) (h : Ideal.cmp .olt (max x (-x)) (Ideal.ofBits .f32 0x7F800000#32) = 1#1) :
    ∃ r : ℝ, x = (r : EReal) := by
  rw [lit_inf] at h
  induction x using EReal.rec with
  | bot => simp [Ideal.cmp] at h
  | coe r => exact ⟨r, rfl⟩
  | top => simp [Ideal.cmp] at h

/-- Under the precondition every entry of the third argument (the atom coordinates) is a real number. -/
theorem x_real [Facts] (a0 : FVec Ideal S8x256x64 .f32) (a1 : FVec Ideal S256x256x128 .f32) (a2 : FVec Ideal S256x4x3 .f32)
    (a3 : FVec Ideal S17x128 .f32) (a4 a5 a6 : FVec Ideal S1x128 .f32) (a7 a8 : FVec Ideal S1x64 .f32)
    (h : fn (F := Ideal) a0 a1 a2 a3 a4 a5 a6 a7 a8 = fun _ => 1#1) (i : S256x4x3.Idx) :
    ∃ r : ℝ, a2 i = (r : EReal) := by
  have e : fn (F := Ideal) a0 a1 a2 a3 a4 a5 a6 a7 a8 ix0 = 1#1 := congrFun h ix0
  have e12 := (IntOp.andi_eq_one.mp (IntOp.andi_eq_one.mp (IntOp.andi_eq_one.mp (IntOp.andi_eq_one.mp
    (IntOp.andi_eq_one.mp (IntOp.andi_eq_one.mp (IntOp.andi_eq_one.mp e).1).1).1).1).1).1).2
  have hx := Host.reduce_andi_all _ _ _ _ ix0 e12 i
  exact real_of_abs_lt (a2 i) hx

end Cert.Finite

end
-- ==== Proof.lean ====
/-
  RecyclingEmbedder, recycling path: the fused kernel against the two-kernel reference, over the extended reals.

  Both programs return (LayerNorm(m)·gm + bm, LayerNorm(z)·gz + bz + Linear(features) + b) where the seventeen
  features of a residue pair are sin (d/2ᵏ), cos (d/2ᵏ) for k = 0 … 7 and d itself, d the distance between the two
  residues' last atoms.

  * The kernel obtains the sixteen sines and cosines from sin (d/2⁷) and cos (d/2⁷) by half-angle doublings; the
    reference evaluates them directly. For a real d the doublings are exact (LibHalfAngle, Features); the
    precondition makes every coordinate, hence every distance, a real number (Finite, Bridge).
  * The kernel contracts all seventeen features with the weight matrix at once, one row of the slab at a time; the
    reference contracts the sines and the cosines with their bands of the matrix over the slab's rows laid end to
    end and adds d times the last row: a sum over seventeen indices split as eight, eight and one (KernelRow,
    KernelZ, RefBlock). The kernel adds bz + b before the projection, the reference bz before and b after.
  * The z slab's layer normalisation is the same operation sequence in both and is never opened (KernelBlock `lnz`).
    The m branch's normalisation is row by row, so the kernel's blocks of 128 rows and the reference's of 1024 rows
    give the same array (LibLayerNormRows, RefM).
  * Each output array is one function of the arguments, written back block by block, the blocks covering the array
    (KernelArrays, RefZ, RefM); the runs are KernelRun and RefRun.

  The three frame claims are the generated frame certificates; `preserves` is trivial, the ideal pass having
  rewritten nothing.
-/
import proofs.«179599_g2000505677692961_pallasbulk_1150_32_alg».proof.Defs
import proofs.«179599_g2000505677692961_pallasbulk_1150_32_alg».proof.Proof.Gen.Kernel
import proofs.«179599_g2000505677692961_pallasbulk_1150_32_alg».proof.Proof.Gen.Kernel.Frame
import proofs.«179599_g2000505677692961_pallasbulk_1150_32_alg».proof.Proof.Gen.KernelIdeal
import proofs.«179599_g2000505677692961_pallasbulk_1150_32_alg».proof.Proof.Gen.KernelIdeal.Frame
import proofs.«179599_g2000505677692961_pallasbulk_1150_32_alg».proof.Proof.Gen.ReferenceIdeal
import proofs.«179599_g2000505677692961_pallasbulk_1150_32_alg».proof.Proof.Gen.ReferenceIdeal.Frame
import proofs.«179599_g2000505677692961_pallasbulk_1150_32_alg».proof.Proof.Gen.Pre_finite_inputs
import proofs.«179599_g2000505677692961_pallasbulk_1150_32_alg».proof.Proof.KernelRun
import proofs.«179599_g2000505677692961_pallasbulk_1150_32_alg».proof.Proof.RefRun
import proofs.«179599_g2000505677692961_pallasbulk_1150_32_alg».proof.Proof.RefZ
import proofs.«179599_g2000505677692961_pallasbulk_1150_32_alg».proof.Proof.RefM
import proofs.«179599_g2000505677692961_pallasbulk_1150_32_alg».proof.Proof.Finite
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.Gen.frame m ρ

theorem preserves : Cert.preserves_Kernel_KernelIdeal := trivial

/-- From memories agreeing on the arguments, with finite inputs, the two idealized programs end with the same two
    results: the m array `Gm` reshaped, and the z array `Gz`. -/
theorem algebraic : Cert.algebraic_KernelIdeal_ReferenceIdeal := by
  intro m g m' g' hpre hagree
  refine ⟨fun c => shapeCast Cert.KernelIdeal.S8x256x64 (Cert.KernelIdeal.Arrays.Gm m c) Cert.KernelIdeal.Gen.shapeCasts_S2048x64_S8x256x64,
    fun c => Cert.KernelIdeal.Arrays.Gz m c, Cert.KernelIdeal.Arrays.run m g, ?_⟩
  refine (θ_run (Cert.ReferenceIdeal.defs (F := Ideal)) _ _).mono (fun r h c => ?_) (Cert.ReferenceIdeal.Run.run_final (F := Ideal) m' g')
  obtain ⟨a0, a1, a2, a3, a4, a5, a6, a7, a8⟩ := hagree c
  have hx : ∀ i, ∃ a : ℝ, m' ((c.tc : Thread Cert.ReferenceIdeal.nD Cert.ReferenceIdeal.τ).loc Cert.ReferenceIdeal.main_arg2) i = (a : EReal) := by
    rw [a2]
    exact Cert.Finite.x_real _ _ _ _ _ _ _ _ _ (hpre c)
  exact ⟨(h c _ (Cert.ReferenceIdeal.Gen.mem_uc Cert.ReferenceIdeal.main_v9 (by decide))).trans ((Cert.ReferenceIdeal.Run.W5_v9 m' g' c).trans
        (congrArg (fun A : Cert.KernelIdeal.S2048x64.Idx → EReal => shapeCast Cert.KernelIdeal.S8x256x64 A Cert.KernelIdeal.Gen.shapeCasts_S2048x64_S8x256x64)
          (Cert.ReferenceIdeal.Arrays.final_m m m' g' c a0 a7 a8))),
      (h c _ (Cert.ReferenceIdeal.Gen.mem_uc Cert.ReferenceIdeal.main_v6 (by decide))).trans ((Cert.ReferenceIdeal.Run.W5_v6 m' g' c).trans
        (Cert.ReferenceIdeal.Arrays.final_z m m' g' c hx a1 a2 a3 a4 a5 a6)),
      (h c _ (Cert.ReferenceIdeal.Gen.mem_uc Cert.ReferenceIdeal.main_arg0 (by decide))).trans (Cert.ReferenceIdeal.Gen.W5_main_arg0 m' g' c),
      (h c _ (Cert.ReferenceIdeal.Gen.mem_uc Cert.ReferenceIdeal.main_arg1 (by decide))).trans (Cert.ReferenceIdeal.Gen.W5_main_arg1 m' g' c),
      (h c _ (Cert.ReferenceIdeal.Gen.mem_uc Cert.ReferenceIdeal.main_arg2 (by decide))).trans (Cert.ReferenceIdeal.Gen.W5_main_arg2 m' g' c),
      (h c _ (Cert.ReferenceIdeal.Gen.mem_uc Cert.ReferenceIdeal.main_arg3 (by decide))).trans (Cert.ReferenceIdeal.Gen.W5_main_arg3 m' g' c),
      (h c _ (Cert.ReferenceIdeal.Gen.mem_uc Cert.ReferenceIdeal.main_arg4 (by decide))).trans (Cert.ReferenceIdeal.Gen.W5_main_arg4 m' g' c),
      (h c _ (Cert.ReferenceIdeal.Gen.mem_uc Cert.ReferenceIdeal.main_arg5 (by decide))).trans (Cert.ReferenceIdeal.Gen.W5_main_arg5 m' g' c),
      (h c _ (Cert.ReferenceIdeal.Gen.mem_uc Cert.ReferenceIdeal.main_arg6 (by decide))).trans (Cert.ReferenceIdeal.Gen.W5_main_arg6 m' g' c),
      (h c _ (Cert.ReferenceIdeal.Gen.mem_uc Cert.ReferenceIdeal.main_arg7 (by decide))).trans (Cert.ReferenceIdeal.Gen.W5_main_arg7 m' g' c),
      (h c _ (Cert.ReferenceIdeal.Gen.mem_uc Cert.ReferenceIdeal.main_arg8 (by decide))).trans (Cert.ReferenceIdeal.Gen.W5_main_arg8 m' g' c)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
